-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x10 : Shape := ⟨2, ![384, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x10 : S_.BroadcastsInDim S384x10 (![] : Fin 0 → Fin S384x10.rank)
  reducesTo_S384x10_S_d0_1 : S384x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg15 : FVec F S384x10 .f32) (main_arg16 : FVec F S10 .f32) (main_v63 : IVec S_ 1) (main_v67 : IVec S_ 1) : IVec S_ 1 :=
  let main_v68 : IVec S_ 1 := andi main_v63 main_v67
  let main_v69 : FVec F S384x10 .f32 := Host.absf main_arg15
  let main_cst_26 : FVec F S_ .f32 := constant S_ .f32 0x7F800000#32
  let main_v70 : FVec F S384x10 .f32 := broadcastInDim S384x10 ![] bcast_S_S384x10 main_cst_26
  let main_v71 : IVec S384x10 1 := cmpf .olt main_v69 main_v70
  let main_c_27 : IVec S_ 1 := constantI S_ 1 1#1
  let main_v72 : IVec S_ 1 := (fun x v => Host.reduce IntOp.andi x v reducesTo_S384x10_S_d0_1 h_S_) main_v71 main_c_27
  let main_v73 : IVec S_ 1 := andi main_v68 main_v72
  let main_v74 : FVec F S10 .f32 := Host.absf main_arg16
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg12 : FVec F S128 .f32) (main_arg13 : FVec F S128 .f32) (main_arg14 : FVec F S128 .f32) (main_arg15 : FVec F S384x10 .f32) (main_arg16 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S384x10 .f32) (main_arg16 : FVec F S10 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S384x10 .f32) (main_arg16 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S384x10 .f32) (main_arg16 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x10 : Shape := ⟨2, ![384, 10]⟩
abbrev S10 : Shape := ⟨1, ![10]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S384x128 : Shape := ⟨2, ![384, 128]⟩
abbrev S1 : Shape := ⟨1, ![1]⟩
abbrev S100000x10 : Shape := ⟨2, ![100000, 10]⟩

abbrev nBuf : Space → Nat
  | .hbm => 192
  | .vmem => 51
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S384x10, .f32⟩
  | 16 => ⟨S10, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S100000, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x128, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S100000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S1x128, .f32⟩
  | 95 => ⟨S1x128, .f32⟩
  | 96 => ⟨S1x128, .f32⟩
  | 97 => ⟨S100000x128, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x1, .f32⟩
  | 109 => ⟨S1700000x128, .f32⟩
  | 110 => ⟨S1700000x128, .f32⟩
  | 111 => ⟨S_, .f32⟩
  | 112 => ⟨S100000x128, .f32⟩
  | 113 => ⟨S1700000x1, .i32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S1x128, .f32⟩
  | 6 => ⟨S1x128, .f32⟩
  | 7 => ⟨S1x128, .f32⟩
  | 8 => ⟨S100000x128, .f32⟩
  | 9 => ⟨S100000x128, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x128, .f32⟩
  | 19 => ⟨S1700000x1, .f32⟩
  | 20 => ⟨S1700000x128, .f32⟩
  | 21 => ⟨S1700000x128, .f32⟩
  | 22 => ⟨S_, .f32⟩
  | 23 => ⟨S100000x128, .f32⟩
  | 24 => ⟨S1700000x1, .i32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S100000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S1x128, .f32⟩
  | 45 => ⟨S1x128, .f32⟩
  | 46 => ⟨S1x128, .f32⟩
  | 47 => ⟨S100000x128, .f32⟩
  | 48 => ⟨S_, .f32⟩
  | 49 => ⟨S384x128, .f32⟩
  | 50 => ⟨S_, .i32⟩
  | 51 => ⟨S1, .i32⟩
  | 52 => ⟨S384x128, .f32⟩
  | 53 => ⟨S_, .f32⟩
  | 54 => ⟨S128, .f32⟩
  | 55 => ⟨S_, .i32⟩
  | 56 => ⟨S1, .i32⟩
  | 57 => ⟨S128, .f32⟩
  | 58 => ⟨S128x128, .f32⟩
  | 59 => ⟨S128x128, .f32⟩
  | 60 => ⟨S128x128, .f32⟩
  | 61 => ⟨S1x128, .f32⟩
  | 62 => ⟨S100000x128, .f32⟩
  | 63 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S128x128, .f32⟩
  | .local _ .vmem, ⟨46, _⟩ => ⟨S128x128, .f32⟩
  | .local _ .vmem, ⟨47, _⟩ => ⟨S128x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_cst_12 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_13 : Ref sig .tc := ⟨.hbm, 99, rfl⟩
abbrev main_v65 : Ref sig .tc := ⟨.hbm, 100, rfl⟩
abbrev main_v66 : Ref sig .tc := ⟨.hbm, 101, rfl⟩
abbrev main_c_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_16 : Ref sig .tc := ⟨.hbm, 118, rfl⟩
abbrev main_v81 : Ref sig .tc := ⟨.hbm, 119, rfl⟩
abbrev main_cst_17 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_18 : Ref sig .tc := ⟨.hbm, 127, rfl⟩
abbrev main_v88 : Ref sig .tc := ⟨.hbm, 128, rfl⟩
abbrev main_cst_19 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_20 : Ref sig .tc := ⟨.hbm, 138, rfl⟩
abbrev main_v97 : Ref sig .tc := ⟨.hbm, 139, rfl⟩
abbrev main_v98 : Ref sig .tc := ⟨.hbm, 140, rfl⟩
abbrev main_c_21 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_22 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_23 : Ref sig .tc := ⟨.hbm, 157, rfl⟩
abbrev main_v113 : Ref sig .tc := ⟨.hbm, 158, rfl⟩
abbrev main_cst_24 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_25 : Ref sig .tc := ⟨.hbm, 166, rfl⟩
abbrev main_v120 : Ref sig .tc := ⟨.hbm, 167, rfl⟩
abbrev main_cst_26 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_27 : Ref sig .tc := ⟨.hbm, 176, rfl⟩
abbrev main_v128 : Ref sig .tc := ⟨.hbm, 177, rfl⟩
abbrev main_c_28 : Ref sig .tc := ⟨.hbm, 178, rfl⟩
abbrev main_v129 : Ref sig .tc := ⟨.hbm, 179, rfl⟩
abbrev main_v130 : Ref sig .tc := ⟨.hbm, 180, rfl⟩
abbrev main_cst_29 : Ref sig .tc := ⟨.hbm, 181, rfl⟩
abbrev main_v131 : Ref sig .tc := ⟨.hbm, 182, rfl⟩
abbrev main_c_30 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg5_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc6_stg7_0 : Ref sig .tc := ⟨.vmem, 49, rfl⟩
abbrev cc6_stg7_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem5_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem2_1 : DmaSem sig := 44
abbrev cc6_sem3_0 : DmaSem sig := 45
abbrev cc6_sem4_0 : DmaSem sig := 46
abbrev cc6_sem5_0 : DmaSem sig := 47
abbrev cc6_sem6_0 : DmaSem sig := 48
abbrev cc6_sem7_0 : DmaSem sig := 49
abbrev cc6_sem7_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S384x128 : S_.BroadcastsInDim S384x128 (![] : Fin 0 → Fin S384x128.rank)
  bcast_S_S1 : S_.BroadcastsInDim S1 (![] : Fin 0 → Fin S1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128x128_S128x128 : S128x128.ShapeCasts S128x128
  slices_S100000x128_S100000x10_0_0 : S100000x128.Slices ![0, 0] S100000x10
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S384x128_S1_S384x10_01_n_1_0_wf : ScatterDims.WF S384x128 S1 S384x10 [0, 1] [] [1] 0
  scatter_S128_S1_S10_0_n_0_0_wf : ScatterDims.WF S128 S1 S10 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S100000x128.size a
  hwx6_7 : ∀ i : grid6.Coords, EltTy.bits .f32 = 32 ∨ (Rect.block (s := S100000x128) S5000x128.size (cc6_transform_7 i) (hinb6_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S384x128_S1_S384x10_01_n_1_0 : ScatterDims S384x128 S1 S384x10 where
  updateWindowDims := [0, 1]
  insertedWindowDims := []
  scatterDimsToOperandDims := [1]
  indexVectorDim := 0
  wf := scatter_S384x128_S1_S384x10_01_n_1_0_wf
def scatter_S128_S1_S10_0_n_0_0 : ScatterDims S128 S1 S10 where
  updateWindowDims := [0]
  insertedWindowDims := []
  scatterDimsToOperandDims := [0]
  indexVectorDim := 0
  wf := scatter_S128_S1_S10_0_n_0_0_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v95) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v112) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v123) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v124) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v125) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v126) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v63) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v95) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v127) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v134) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v135) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v136) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v137) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v138) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x10 : Shape := ⟨2, ![384, 10]⟩
abbrev S10 : Shape := ⟨1, ![10]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x384 : Shape := ⟨2, ![100000, 384]⟩
abbrev S100000x10 : Shape := ⟨2, ![100000, 10]⟩
abbrev S1x10 : Shape := ⟨2, ![1, 10]⟩

abbrev nBuf : Space → Nat
  | .hbm => 223
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S384x10, .f32⟩
  | 16 => ⟨S10, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S100000, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x128, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S100000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S_, .f32⟩
  | 97 => ⟨S128, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x1, .f32⟩
  | 123 => ⟨S1700000x128, .f32⟩
  | 124 => ⟨S1700000x128, .f32⟩
  | 125 => ⟨S_, .f32⟩
  | 126 => ⟨S100000x128, .f32⟩
  | 127 => ⟨S1700000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S_, .f32⟩
  | 22 => ⟨S128, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x128, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000x128, .f32⟩
  | 47 => ⟨S1700000x1, .f32⟩
  | 48 => ⟨S1700000x128, .f32⟩
  | 49 => ⟨S1700000x128, .f32⟩
  | 50 => ⟨S_, .f32⟩
  | 51 => ⟨S100000x128, .f32⟩
  | 52 => ⟨S1700000x1, .i32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x384, .f32⟩
  | 91 => ⟨S100000x10, .f32⟩
  | 92 => ⟨S1x10, .f32⟩
  | 93 => ⟨S100000x10, .f32⟩
  | 94 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_cst_12 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call1_cst : Ref sig .tc := ⟨.hbm, 109, rfl⟩
abbrev main_call1_v0 : Ref sig .tc := ⟨.hbm, 110, rfl⟩
abbrev main_v74 : Ref sig .tc := ⟨.hbm, 111, rfl⟩
abbrev main_v75 : Ref sig .tc := ⟨.hbm, 112, rfl⟩
abbrev main_c_14 : Ref sig .tc := ⟨.hbm, 113, rfl⟩
abbrev main_v76 : Ref sig .tc := ⟨.hbm, 114, rfl⟩
abbrev main_v77 : Ref sig .tc := ⟨.hbm, 115, rfl⟩
abbrev main_c_15 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_17 : Ref sig .tc := ⟨.hbm, 132, rfl⟩
abbrev main_v92 : Ref sig .tc := ⟨.hbm, 133, rfl⟩
abbrev main_cst_18 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_19 : Ref sig .tc := ⟨.hbm, 141, rfl⟩
abbrev main_v99 : Ref sig .tc := ⟨.hbm, 142, rfl⟩
abbrev main_cst_20 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_21 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_call2_cst : Ref sig .tc := ⟨.hbm, 162, rfl⟩
abbrev main_call2_v0 : Ref sig .tc := ⟨.hbm, 163, rfl⟩
abbrev main_v117 : Ref sig .tc := ⟨.hbm, 164, rfl⟩
abbrev main_v118 : Ref sig .tc := ⟨.hbm, 165, rfl⟩
abbrev main_c_22 : Ref sig .tc := ⟨.hbm, 166, rfl⟩
abbrev main_v119 : Ref sig .tc := ⟨.hbm, 167, rfl⟩
abbrev main_v120 : Ref sig .tc := ⟨.hbm, 168, rfl⟩
abbrev main_c_23 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_24 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_25 : Ref sig .tc := ⟨.hbm, 185, rfl⟩
abbrev main_v135 : Ref sig .tc := ⟨.hbm, 186, rfl⟩
abbrev main_cst_26 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_27 : Ref sig .tc := ⟨.hbm, 194, rfl⟩
abbrev main_v142 : Ref sig .tc := ⟨.hbm, 195, rfl⟩
abbrev main_cst_28 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_29 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_call3_cst : Ref sig .tc := ⟨.hbm, 215, rfl⟩
abbrev main_call3_v0 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  concatenates_S100000x128_S100000x128_S100000x128_S100000x384_d1 : Shape.Concatenates [S100000x128, S100000x128, S100000x128] S100000x384 1
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x384_S384x10_S100000x10_1_0_0_1_n_n_wf : DotDims.WF S100000x384 S384x10 S100000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x384_S384x10_S100000x10_1_0_0_1_n_n : DotDims S100000x384 S384x10 S100000x10 where
  lhsContracting := [1]
  rhsContracting := [0]
  lhsNonContracting := [0]
  rhsNonContracting := [1]
  lhsBatch := []
  rhsBatch := []
  wf := dot_S100000x384_S384x10_S100000x10_1_0_0_1_n_n_wf

class Facts : Prop extends Facts₀ where

variable [Facts]
-- ==== Proof.KernelRun.lean ====
/-
  The idealized kernel's run with its RESULT named.  @main is fifteen segments — eight stretches of host operations and the
  seven row-blocked kernels between them — and the buffer contents at the segment boundaries are the fold `W0 … W15` of the
  frame certificate: a host stretch applies its operations to the contents before it, a kernel region replaces its output
  array by what its grid points wrote back and leaves every other buffer alone.  The frame certificate keeps from the last
  boundary only that the argument arrays are as launched; here the same run is read once more at the result buffer: every
  weakly fair execution terminates, the result array `main_v139` ends at `W15`'s contents there, and the arguments end unchanged.
  What `W15` holds at the result, as a function of the arguments, is computed in the modules that follow.
-/
import proofs.«159183_j16226386444400_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates; the result array ends at the last boundary's contents
    `W15` and each argument array as launched.  The segments, their chaining and the launch are the frame certificate's; only
    the reading of the final state differs: the unscoped buffers all sit at `W15`, and the result buffer is one of them. -/
theorem run_val : θ_run defs (onTc (τ := τ) (main (F := F))) ⟨m, fun _ => 0, ρ⟩ (fun r => ∀ c : Dev nD,
      r.2.mem ((c.tc : Thread nD τ).loc main_v139) = W15 m ρ c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v139 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c)⟩)

end Cert.KernelIdeal.RunVal

end
-- ==== Proof.RefRun.lean ====
/-
  The reference program's run, read stage by stage.  @main is 206 host operations in a straight line; its run ends with every
  buffer at the operations' values folded over the launch contents.  Read in one piece, that fold for the result is a term in
  which every operation's value is spelt out at each of its uses.  Here the line is cut into ten stretches at the values that
  later stretches use — the edges' source and target lists and normalisation coefficients; per layer the pre-activation z with
  its column means and variances, and the layer's output; the result — and each such value is shown to be the stage
  `val_<buffer>` of the arguments, from the stretch's own operations applied to the stages before it.  A buffer a stretch does
  not write keeps its contents, which carries a stage from the stretch that makes it to the stretch that reads it.
-/
import proofs.«159183_j16226386444400_1_alg».proof.Proof.RefRunP
import proofs.«159183_j16226386444400_1_alg».proof.Proof.RefReadP

set_option maxRecDepth 16384

noncomputable section

namespace Cert.ReferenceIdeal.RunStages

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The contents after two stretches run in order are those of the second run from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Operations 0 to 18 of @main, up to `main_cst_2`. -/
abbrev stretch0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]
/-- The buffers stretch 0 writes. -/
abbrev stretch0_W : List (Ref sig .tc) := [main_v0, main_v1, main_v2, main_v3, main_v4, main_v5, main_v6, main_cst, main_v7, main_v8, main_cst_0, main_v9, main_v10, main_v11, main_cst_1, main_v12, main_v13, main_v14, main_cst_2]
theorem stretch0_writes : (stretch0 : List (HloOp τ sig (Elt F))).Forall fun op => op.writes ⊆ (stretch0_W.map (Proc.devRef (τ := τ) .tc)).toFinset := by
  simp only [stretch0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 19 to 21 of @main, up to `main_v15`. -/
abbrev stretch1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]
/-- The buffers stretch 1 writes. -/
abbrev stretch1_W : List (Ref sig .tc) := [main_call0_v0, main_call0_v1, main_v15]
theorem stretch1_writes : (stretch1 : List (HloOp τ sig (Elt F))).Forall fun op => op.writes ⊆ (stretch1_W.map (Proc.devRef (τ := τ) .tc)).toFinset := by
  simp only [stretch1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 22 to 41 of @main, up to `main_v31`. -/
abbrev stretch2 : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v8 main_v23 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]
/-- The buffers stretch 2 writes. -/
abbrev stretch2_W : List (Ref sig .tc) := [main_c, main_v16, main_v17, main_c_3, main_v18, main_v19, main_v20, main_v21, main_v22, main_v23, main_c_4, main_v24, main_v25, main_c_5, main_v26, main_v27, main_v28, main_v29, main_v30, main_v31]
theorem stretch2_writes : (stretch2 : List (HloOp τ sig (Elt F))).Forall fun op => op.writes ⊆ (stretch2_W.map (Proc.devRef (τ := τ) .tc)).toFinset := by
  simp only [stretch2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 42 to 75 of @main, up to `main_v58`. -/
abbrev stretch3 : List (HloOp τ sig (Elt F)) :=
  [ binary main_arg0 main_arg3 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v48 main_cst_9 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)),
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v48 main_v53 main_v54 (subf : (⟨S100000x128, .f32⟩ : BufTy).Contents (Elt F) → (⟨S100000x128, .f32⟩ : BufTy).Contents (Elt F) → (⟨S100000x128, .f32⟩ : BufTy).Contents (Elt F)),
    binary main_v54 main_v54 main_v55 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v55 main_cst_11 main_v56 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)) ]
/-- The buffers stretch 3 writes. -/
abbrev stretch3_W : List (Ref sig .tc) := [main_v32, main_c_6, main_v33, main_v34, main_c_7, main_v35, main_v36, main_v37, main_v38, main_v39, main_v40, main_v41, main_v42, main_cst_8, main_v43, main_v44, main_v45, main_v46, main_v47, main_v48, main_cst_9, main_v49, main_cst_10, main_v50, main_v51, main_v52, main_v53, main_v54, main_v55, main_cst_11, main_v56, main_cst_12, main_v57, main_v58]
theorem stretch3_writes : (stretch3 : List (HloOp τ sig (Elt F))).Forall fun op => op.writes ⊆ (stretch3_W.map (Proc.devRef (τ := τ) .tc)).toFinset := by
  simp only [stretch3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 76 to 94 of @main, up to `main_v74`. -/
abbrev stretch4 : List (HloOp τ sig (Elt F)) :=
  [ unary main_v51 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v48 main_v60 main_v61 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v62 (broadcastInDim S128 ![] bcast_S_S128 : (⟨S_, .f32⟩ : BufTy).Contents (Elt F) → (⟨S128, .f32⟩ : BufTy).Contents (Elt F)),
    binary main_v58 main_v62 main_v63 (addf : (⟨S128, .f32⟩ : BufTy).Contents (Elt F) → (⟨S128, .f32⟩ : BufTy).Contents (Elt F) → (⟨S128, .f32⟩ : BufTy).Contents (Elt F)),
    unary main_v63 main_v64 (Host.rsqrt : (⟨S128, .f32⟩ : BufTy).Contents (Elt F) → (⟨S128, .f32⟩ : BufTy).Contents (Elt F)),
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v61 main_v66 main_v67 (mulf : (⟨S100000x128, .f32⟩ : BufTy).Contents (Elt F) → (⟨S100000x128, .f32⟩ : BufTy).Contents (Elt F) → (⟨S100000x128, .f32⟩ : BufTy).Contents (Elt F)),
    unary main_arg5 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v67 main_v69 main_v70 (mulf : (⟨S100000x128, .f32⟩ : BufTy).Contents (Elt F) → (⟨S100000x128, .f32⟩ : BufTy).Contents (Elt F) → (⟨S100000x128, .f32⟩ : BufTy).Contents (Elt F)),
    unary main_arg6 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v73) (TRef.of (T := ⟨S100000x128, .f32⟩) main_call1_v0) (TRef.of (T := ⟨S100000x128, .f32⟩) main_v74) maximumf ]
/-- The buffers stretch 4 writes. -/
abbrev stretch4_W : List (Ref sig .tc) := [main_v59, main_v60, main_v61, main_cst_13, main_v62, main_v63, main_v64, main_v65, main_v66, main_v67, main_v68, main_v69, main_v70, main_v71, main_v72, main_v73, main_call1_cst, main_call1_v0, main_v74]
theorem stretch4_writes : (stretch4 : List (HloOp τ sig (Elt F))).Forall fun op => op.writes ⊆ (stretch4_W.map (Proc.devRef (τ := τ) .tc)).toFinset := by
  simp only [stretch4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 95 to 128 of @main, up to `main_v101`. -/
abbrev stretch5 : List (HloOp τ sig (Elt F)) :=
  [ binary main_v74 main_arg7 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_14 (constantI S_ 32 0#32),
    unary main_c_14 main_v76 (broadcastInDim S1700000 ![] bcast_S_S1700000 : (⟨S_, .i32⟩ : BufTy).Contents (Elt F) → (⟨S1700000, .i32⟩ : BufTy).Contents (Elt F)),
    binary main_v3 main_v76 main_v77 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v78 (broadcastInDim S1700000 ![] bcast_S_S1700000 : (⟨S_, .i32⟩ : BufTy).Contents (Elt F) → (⟨S1700000, .i32⟩ : BufTy).Contents (Elt F)),
    binary main_v3 main_v78 main_v79 (addi : (⟨S1700000, .i32⟩ : BufTy).Contents (Elt F) → (⟨S1700000, .i32⟩ : BufTy).Contents (Elt F) → (⟨S1700000, .i32⟩ : BufTy).Contents (Elt F)),
    ternary main_v77 main_v79 main_v3 main_v80 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v80 main_v81 (broadcastInDim S1700000x1 ![0] bcast_S1700000_S1700000x1_0 : (⟨S1700000, .i32⟩ : BufTy).Contents (Elt F) → (⟨S1700000x1, .i32⟩ : BufTy).Contents (Elt F)),
    binary main_v75 main_v81 main_v82 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v83 (broadcastInDim S1700000x1 ![0] bcast_S1700000_S1700000x1_0 : (⟨S1700000, .f32⟩ : BufTy).Contents (Elt F) → (⟨S1700000x1, .f32⟩ : BufTy).Contents (Elt F)),
    unary main_v83 main_v84 (broadcastInDim S1700000x128 ![0, 1] bcast_S1700000x1_S1700000x128_0_1 : (⟨S1700000x1, .f32⟩ : BufTy).Contents (Elt F) → (⟨S1700000x128, .f32⟩ : BufTy).Contents (Elt F)),
    binary main_v82 main_v84 main_v85 (mulf : (⟨S1700000x128, .f32⟩ : BufTy).Contents (Elt F) → (⟨S1700000x128, .f32⟩ : BufTy).Contents (Elt F) → (⟨S1700000x128, .f32⟩ : BufTy).Contents (Elt F)),
    nullary main_cst_16 (constant S_ .f32 0x00000000#32),
    unary main_cst_16 main_v86 (broadcastInDim S100000x128 ![] bcast_S_S100000x128 : (⟨S_, .f32⟩ : BufTy).Contents (Elt F) → (⟨S100000x128, .f32⟩ : BufTy).Contents (Elt F)),
    unary main_v6 main_v87 (broadcastInDim S1700000x1 ![0] bcast_S1700000_S1700000x1_0 : (⟨S1700000, .i32⟩ : BufTy).Contents (Elt F) → (⟨S1700000x1, .i32⟩ : BufTy).Contents (Elt F)),
    ternary main_v86 main_v87 main_v85 main_v88 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v89 (broadcastInDim S1x128 ![1] bcast_S128_S1x128_1 : (⟨S128, .f32⟩ : BufTy).Contents (Elt F) → (⟨S1x128, .f32⟩ : BufTy).Contents (Elt F)),
    unary main_v89 main_v90 (broadcastInDim S100000x128 ![0, 1] bcast_S1x128_S100000x128_0_1 : (⟨S1x128, .f32⟩ : BufTy).Contents (Elt F) → (⟨S100000x128, .f32⟩ : BufTy).Contents (Elt F)),
    binary main_v88 main_v90 main_v91 (addf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x00000000#32),
    binary main_v91 main_cst_17 main_v92 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_18 (constant S_ .f32 0x47C35000#32),
    unary main_cst_18 main_v93 (broadcastInDim S128 ![] bcast_S_S128 : (⟨S_, .f32⟩ : BufTy).Contents (Elt F) → (⟨S128, .f32⟩ : BufTy).Contents (Elt F)),
    binary main_v92 main_v93 main_v94 (Host.divf : (⟨S128, .f32⟩ : BufTy).Contents (Elt F) → (⟨S128, .f32⟩ : BufTy).Contents (Elt F) → (⟨S128, .f32⟩ : BufTy).Contents (Elt F)),
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v91 main_v96 main_v97 (subf : (⟨S100000x128, .f32⟩ : BufTy).Contents (Elt F) → (⟨S100000x128, .f32⟩ : BufTy).Contents (Elt F) → (⟨S100000x128, .f32⟩ : BufTy).Contents (Elt F)),
    binary main_v97 main_v97 main_v98 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v98 main_cst_19 main_v99 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_20 (constant S_ .f32 0x47C35000#32),
    unary main_cst_20 main_v100 (broadcastInDim S128 ![] bcast_S_S128 : (⟨S_, .f32⟩ : BufTy).Contents (Elt F) → (⟨S128, .f32⟩ : BufTy).Contents (Elt F)),
    binary main_v99 main_v100 main_v101 (Host.divf : (⟨S128, .f32⟩ : BufTy).Contents (Elt F) → (⟨S128, .f32⟩ : BufTy).Contents (Elt F) → (⟨S128, .f32⟩ : BufTy).Contents (Elt F)) ]
/-- The buffers stretch 5 writes. -/
abbrev stretch5_W : List (Ref sig .tc) := [main_v75, main_c_14, main_v76, main_v77, main_c_15, main_v78, main_v79, main_v80, main_v81, main_v82, main_v83, main_v84, main_v85, main_cst_16, main_v86, main_v87, main_v88, main_v89, main_v90, main_v91, main_cst_17, main_v92, main_cst_18, main_v93, main_v94, main_v95, main_v96, main_v97, main_v98, main_cst_19, main_v99, main_cst_20, main_v100, main_v101]
theorem stretch5_writes : (stretch5 : List (HloOp τ sig (Elt F))).Forall fun op => op.writes ⊆ (stretch5_W.map (Proc.devRef (τ := τ) .tc)).toFinset := by
  simp only [stretch5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 129 to 147 of @main, up to `main_v117`. -/
abbrev stretch6 : List (HloOp τ sig (Elt F)) :=
  [ unary main_v94 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v91 main_v103 main_v104 (subf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3727C5AC#32),
    unary main_cst_21 main_v105 (broadcastInDim S128 ![] bcast_S_S128 : (⟨S_, .f32⟩ : BufTy).Contents (Elt F) → (⟨S128, .f32⟩ : BufTy).Contents (Elt F)),
    binary main_v101 main_v105 main_v106 (addf : (⟨S128, .f32⟩ : BufTy).Contents (Elt F) → (⟨S128, .f32⟩ : BufTy).Contents (Elt F) → (⟨S128, .f32⟩ : BufTy).Contents (Elt F)),
    unary main_v106 main_v107 (Host.rsqrt : (⟨S128, .f32⟩ : BufTy).Contents (Elt F) → (⟨S128, .f32⟩ : BufTy).Contents (Elt F)),
    unary main_v107 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v104 main_v109 main_v110 (mulf : (⟨S100000x128, .f32⟩ : BufTy).Contents (Elt F) → (⟨S100000x128, .f32⟩ : BufTy).Contents (Elt F) → (⟨S100000x128, .f32⟩ : BufTy).Contents (Elt F)),
    unary main_arg9 main_v111 (broadcastInDim S1x128 ![1] bcast_S128_S1x128_1 : (⟨S128, .f32⟩ : BufTy).Contents (Elt F) → (⟨S1x128, .f32⟩ : BufTy).Contents (Elt F)),
    unary main_v111 main_v112 (broadcastInDim S100000x128 ![0, 1] bcast_S1x128_S100000x128_0_1 : (⟨S1x128, .f32⟩ : BufTy).Contents (Elt F) → (⟨S100000x128, .f32⟩ : BufTy).Contents (Elt F)),
    binary main_v110 main_v112 main_v113 (mulf : (⟨S100000x128, .f32⟩ : BufTy).Contents (Elt F) → (⟨S100000x128, .f32⟩ : BufTy).Contents (Elt F) → (⟨S100000x128, .f32⟩ : BufTy).Contents (Elt F)),
    unary main_arg10 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v113 main_v115 main_v116 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v116) (TRef.of (T := ⟨S100000x128, .f32⟩) main_call2_v0) (TRef.of (T := ⟨S100000x128, .f32⟩) main_v117) maximumf ]
/-- The buffers stretch 6 writes. -/
abbrev stretch6_W : List (Ref sig .tc) := [main_v102, main_v103, main_v104, main_cst_21, main_v105, main_v106, main_v107, main_v108, main_v109, main_v110, main_v111, main_v112, main_v113, main_v114, main_v115, main_v116, main_call2_cst, main_call2_v0, main_v117]
theorem stretch6_writes : (stretch6 : List (HloOp τ sig (Elt F))).Forall fun op => op.writes ⊆ (stretch6_W.map (Proc.devRef (τ := τ) .tc)).toFinset := by
  simp only [stretch6, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 148 to 181 of @main, up to `main_v144`. -/
abbrev stretch7 : List (HloOp τ sig (Elt F)) :=
  [ binary main_v117 main_arg11 main_v118 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_22 (constantI S_ 32 0#32),
    unary main_c_22 main_v119 (broadcastInDim S1700000 ![] bcast_S_S1700000 : (⟨S_, .i32⟩ : BufTy).Contents (Elt F) → (⟨S1700000, .i32⟩ : BufTy).Contents (Elt F)),
    binary main_v3 main_v119 main_v120 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v121 (broadcastInDim S1700000 ![] bcast_S_S1700000 : (⟨S_, .i32⟩ : BufTy).Contents (Elt F) → (⟨S1700000, .i32⟩ : BufTy).Contents (Elt F)),
    binary main_v3 main_v121 main_v122 (addi : (⟨S1700000, .i32⟩ : BufTy).Contents (Elt F) → (⟨S1700000, .i32⟩ : BufTy).Contents (Elt F) → (⟨S1700000, .i32⟩ : BufTy).Contents (Elt F)),
    ternary main_v120 main_v122 main_v3 main_v123 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v123 main_v124 (broadcastInDim S1700000x1 ![0] bcast_S1700000_S1700000x1_0 : (⟨S1700000, .i32⟩ : BufTy).Contents (Elt F) → (⟨S1700000x1, .i32⟩ : BufTy).Contents (Elt F)),
    binary main_v118 main_v124 main_v125 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v126 (broadcastInDim S1700000x1 ![0] bcast_S1700000_S1700000x1_0 : (⟨S1700000, .f32⟩ : BufTy).Contents (Elt F) → (⟨S1700000x1, .f32⟩ : BufTy).Contents (Elt F)),
    unary main_v126 main_v127 (broadcastInDim S1700000x128 ![0, 1] bcast_S1700000x1_S1700000x128_0_1 : (⟨S1700000x1, .f32⟩ : BufTy).Contents (Elt F) → (⟨S1700000x128, .f32⟩ : BufTy).Contents (Elt F)),
    binary main_v125 main_v127 main_v128 (mulf : (⟨S1700000x128, .f32⟩ : BufTy).Contents (Elt F) → (⟨S1700000x128, .f32⟩ : BufTy).Contents (Elt F) → (⟨S1700000x128, .f32⟩ : BufTy).Contents (Elt F)),
    nullary main_cst_24 (constant S_ .f32 0x00000000#32),
    unary main_cst_24 main_v129 (broadcastInDim S100000x128 ![] bcast_S_S100000x128 : (⟨S_, .f32⟩ : BufTy).Contents (Elt F) → (⟨S100000x128, .f32⟩ : BufTy).Contents (Elt F)),
    unary main_v6 main_v130 (broadcastInDim S1700000x1 ![0] bcast_S1700000_S1700000x1_0 : (⟨S1700000, .i32⟩ : BufTy).Contents (Elt F) → (⟨S1700000x1, .i32⟩ : BufTy).Contents (Elt F)),
    ternary main_v129 main_v130 main_v128 main_v131 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg12 main_v132 (broadcastInDim S1x128 ![1] bcast_S128_S1x128_1 : (⟨S128, .f32⟩ : BufTy).Contents (Elt F) → (⟨S1x128, .f32⟩ : BufTy).Contents (Elt F)),
    unary main_v132 main_v133 (broadcastInDim S100000x128 ![0, 1] bcast_S1x128_S100000x128_0_1 : (⟨S1x128, .f32⟩ : BufTy).Contents (Elt F) → (⟨S100000x128, .f32⟩ : BufTy).Contents (Elt F)),
    binary main_v131 main_v133 main_v134 (addf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x00000000#32),
    binary main_v134 main_cst_25 main_v135 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_26 (constant S_ .f32 0x47C35000#32),
    unary main_cst_26 main_v136 (broadcastInDim S128 ![] bcast_S_S128 : (⟨S_, .f32⟩ : BufTy).Contents (Elt F) → (⟨S128, .f32⟩ : BufTy).Contents (Elt F)),
    binary main_v135 main_v136 main_v137 (Host.divf : (⟨S128, .f32⟩ : BufTy).Contents (Elt F) → (⟨S128, .f32⟩ : BufTy).Contents (Elt F) → (⟨S128, .f32⟩ : BufTy).Contents (Elt F)),
    unary main_v137 main_v138 (broadcastInDim S1x128 ![1] bcast_S128_S1x128_1 : (⟨S128, .f32⟩ : BufTy).Contents (Elt F) → (⟨S1x128, .f32⟩ : BufTy).Contents (Elt F)),
    unary main_v138 main_v139 (broadcastInDim S100000x128 ![0, 1] bcast_S1x128_S100000x128_0_1 : (⟨S1x128, .f32⟩ : BufTy).Contents (Elt F) → (⟨S100000x128, .f32⟩ : BufTy).Contents (Elt F)),
    binary main_v134 main_v139 main_v140 (subf : (⟨S100000x128, .f32⟩ : BufTy).Contents (Elt F) → (⟨S100000x128, .f32⟩ : BufTy).Contents (Elt F) → (⟨S100000x128, .f32⟩ : BufTy).Contents (Elt F)),
    binary main_v140 main_v140 main_v141 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v141 main_cst_27 main_v142 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_28 (constant S_ .f32 0x47C35000#32),
    unary main_cst_28 main_v143 (broadcastInDim S128 ![] bcast_S_S128 : (⟨S_, .f32⟩ : BufTy).Contents (Elt F) → (⟨S128, .f32⟩ : BufTy).Contents (Elt F)),
    binary main_v142 main_v143 main_v144 (Host.divf : (⟨S128, .f32⟩ : BufTy).Contents (Elt F) → (⟨S128, .f32⟩ : BufTy).Contents (Elt F) → (⟨S128, .f32⟩ : BufTy).Contents (Elt F)) ]
/-- The buffers stretch 7 writes. -/
abbrev stretch7_W : List (Ref sig .tc) := [main_v118, main_c_22, main_v119, main_v120, main_c_23, main_v121, main_v122, main_v123, main_v124, main_v125, main_v126, main_v127, main_v128, main_cst_24, main_v129, main_v130, main_v131, main_v132, main_v133, main_v134, main_cst_25, main_v135, main_cst_26, main_v136, main_v137, main_v138, main_v139, main_v140, main_v141, main_cst_27, main_v142, main_cst_28, main_v143, main_v144]
theorem stretch7_writes : (stretch7 : List (HloOp τ sig (Elt F))).Forall fun op => op.writes ⊆ (stretch7_W.map (Proc.devRef (τ := τ) .tc)).toFinset := by
  simp only [stretch7, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 182 to 200 of @main, up to `main_v160`. -/
abbrev stretch8 : List (HloOp τ sig (Elt F)) :=
  [ unary main_v137 main_v145 (broadcastInDim S1x128 ![1] bcast_S128_S1x128_1 : (⟨S128, .f32⟩ : BufTy).Contents (Elt F) → (⟨S1x128, .f32⟩ : BufTy).Contents (Elt F)),
    unary main_v145 main_v146 (broadcastInDim S100000x128 ![0, 1] bcast_S1x128_S100000x128_0_1 : (⟨S1x128, .f32⟩ : BufTy).Contents (Elt F) → (⟨S100000x128, .f32⟩ : BufTy).Contents (Elt F)),
    binary main_v134 main_v146 main_v147 (subf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v148 (broadcastInDim S128 ![] bcast_S_S128 : (⟨S_, .f32⟩ : BufTy).Contents (Elt F) → (⟨S128, .f32⟩ : BufTy).Contents (Elt F)),
    binary main_v144 main_v148 main_v149 (addf : (⟨S128, .f32⟩ : BufTy).Contents (Elt F) → (⟨S128, .f32⟩ : BufTy).Contents (Elt F) → (⟨S128, .f32⟩ : BufTy).Contents (Elt F)),
    unary main_v149 main_v150 (Host.rsqrt : (⟨S128, .f32⟩ : BufTy).Contents (Elt F) → (⟨S128, .f32⟩ : BufTy).Contents (Elt F)),
    unary main_v150 main_v151 (broadcastInDim S1x128 ![1] bcast_S128_S1x128_1 : (⟨S128, .f32⟩ : BufTy).Contents (Elt F) → (⟨S1x128, .f32⟩ : BufTy).Contents (Elt F)),
    unary main_v151 main_v152 (broadcastInDim S100000x128 ![0, 1] bcast_S1x128_S100000x128_0_1 : (⟨S1x128, .f32⟩ : BufTy).Contents (Elt F) → (⟨S100000x128, .f32⟩ : BufTy).Contents (Elt F)),
    binary main_v147 main_v152 main_v153 (mulf : (⟨S100000x128, .f32⟩ : BufTy).Contents (Elt F) → (⟨S100000x128, .f32⟩ : BufTy).Contents (Elt F) → (⟨S100000x128, .f32⟩ : BufTy).Contents (Elt F)),
    unary main_arg13 main_v154 (broadcastInDim S1x128 ![1] bcast_S128_S1x128_1 : (⟨S128, .f32⟩ : BufTy).Contents (Elt F) → (⟨S1x128, .f32⟩ : BufTy).Contents (Elt F)),
    unary main_v154 main_v155 (broadcastInDim S100000x128 ![0, 1] bcast_S1x128_S100000x128_0_1 : (⟨S1x128, .f32⟩ : BufTy).Contents (Elt F) → (⟨S100000x128, .f32⟩ : BufTy).Contents (Elt F)),
    binary main_v153 main_v155 main_v156 (mulf : (⟨S100000x128, .f32⟩ : BufTy).Contents (Elt F) → (⟨S100000x128, .f32⟩ : BufTy).Contents (Elt F) → (⟨S100000x128, .f32⟩ : BufTy).Contents (Elt F)),
    unary main_arg14 main_v157 (broadcastInDim S1x128 ![1] bcast_S128_S1x128_1 : (⟨S128, .f32⟩ : BufTy).Contents (Elt F) → (⟨S1x128, .f32⟩ : BufTy).Contents (Elt F)),
    unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v156 main_v158 main_v159 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v159) (TRef.of (T := ⟨S100000x128, .f32⟩) main_call3_v0) (TRef.of (T := ⟨S100000x128, .f32⟩) main_v160) maximumf ]
/-- The buffers stretch 8 writes. -/
abbrev stretch8_W : List (Ref sig .tc) := [main_v145, main_v146, main_v147, main_cst_29, main_v148, main_v149, main_v150, main_v151, main_v152, main_v153, main_v154, main_v155, main_v156, main_v157, main_v158, main_v159, main_call3_cst, main_call3_v0, main_v160]
theorem stretch8_writes : (stretch8 : List (HloOp τ sig (Elt F))).Forall fun op => op.writes ⊆ (stretch8_W.map (Proc.devRef (τ := τ) .tc)).toFinset := by
  simp only [stretch8, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- Operations 201 to 205 of @main, up to `main_v165`. -/
abbrev stretch9 : List (HloOp τ sig (Elt F)) :=
  [ nary ![main_v74, main_v117, main_v160] main_v161 (fun u => concatenate S100000x384 1 [⟨S100000x128, u 0⟩, ⟨S100000x128, u 1⟩, ⟨S100000x128, u 2⟩] concatenates_S100000x128_S100000x128_S100000x128_S100000x384_d1),
    binary main_v161 main_arg15 main_v162 ((fun l r => Host.dotGeneral dot_S100000x384_S384x10_S100000x10_1_0_0_1_n_n none l r) : (⟨S100000x384, .f32⟩ : BufTy).Contents (Elt F) → (⟨S384x10, .f32⟩ : BufTy).Contents (Elt F) → (⟨S100000x10, .f32⟩ : BufTy).Contents (Elt F)),
    unary main_arg16 main_v163 (broadcastInDim S1x10 ![1] bcast_S10_S1x10_1 : (⟨S10, .f32⟩ : BufTy).Contents (Elt F) → (⟨S1x10, .f32⟩ : BufTy).Contents (Elt F)),
    unary main_v163 main_v164 (broadcastInDim S100000x10 ![0, 1] bcast_S1x10_S100000x10_0_1 : (⟨S1x10, .f32⟩ : BufTy).Contents (Elt F) → (⟨S100000x10, .f32⟩ : BufTy).Contents (Elt F)),
    binary main_v162 main_v164 main_v165 (addf : (⟨S100000x10, .f32⟩ : BufTy).Contents (Elt F) → (⟨S100000x10, .f32⟩ : BufTy).Contents (Elt F) → (⟨S100000x10, .f32⟩ : BufTy).Contents (Elt F)) ]
/-- The buffers stretch 9 writes. -/
abbrev stretch9_W : List (Ref sig .tc) := [main_v161, main_v162, main_v163, main_v164, main_v165]
theorem stretch9_writes : (stretch9 : List (HloOp τ sig (Elt F))).Forall fun op => op.writes ⊆ (stretch9_W.map (Proc.devRef (τ := τ) .tc)).toFinset := by
  simp only [stretch9, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- @main's operations are the ten stretches in order. -/
theorem ops_split : (ops : List (HloOp τ sig (Elt F))) = stretch0 ++ (stretch1 ++ (stretch2 ++ (stretch3 ++ (stretch4 ++ (stretch5 ++ (stretch6 ++ (stretch7 ++ (stretch8 ++ (stretch9))))))))) := rfl

variable (m : (ℓ : Loc nD τ sig) → Buf (Elt F) ℓ) (c : Dev nD)

/-- The buffers' contents at launch. -/
abbrev U0 : Valuation τ sig (Elt F) := launchContents m c
/-- The buffers' contents after stretch 0. -/
def U1 : Valuation τ sig (Elt F) := after stretch0 (U0 m c)
theorem U1_keep (r : Ref sig .tc) (h : r ∉ (stretch0_W : List (Ref sig .tc))) : U1 m c (Proc.devRef .tc r) = U0 m c (Proc.devRef .tc r) :=
  after_of_writes_sub stretch0 _ stretch0_writes h
/-- The buffers' contents after stretch 1. -/
def U2 : Valuation τ sig (Elt F) := after stretch1 (U1 m c)
theorem U2_keep (r : Ref sig .tc) (h : r ∉ (stretch1_W : List (Ref sig .tc))) : U2 m c (Proc.devRef .tc r) = U1 m c (Proc.devRef .tc r) :=
  after_of_writes_sub stretch1 _ stretch1_writes h
/-- The buffers' contents after stretch 2. -/
def U3 : Valuation τ sig (Elt F) := after stretch2 (U2 m c)
theorem U3_keep (r : Ref sig .tc) (h : r ∉ (stretch2_W : List (Ref sig .tc))) : U3 m c (Proc.devRef .tc r) = U2 m c (Proc.devRef .tc r) :=
  after_of_writes_sub stretch2 _ stretch2_writes h
/-- The buffers' contents after stretch 3. -/
def U4 : Valuation τ sig (Elt F) := after stretch3 (U3 m c)
theorem U4_keep (r : Ref sig .tc) (h : r ∉ (stretch3_W : List (Ref sig .tc))) : U4 m c (Proc.devRef .tc r) = U3 m c (Proc.devRef .tc r) :=
  after_of_writes_sub stretch3 _ stretch3_writes h
/-- The buffers' contents after stretch 4. -/
def U5 : Valuation τ sig (Elt F) := after stretch4 (U4 m c)
theorem U5_keep (r : Ref sig .tc) (h : r ∉ (stretch4_W : List (Ref sig .tc))) : U5 m c (Proc.devRef .tc r) = U4 m c (Proc.devRef .tc r) :=
  after_of_writes_sub stretch4 _ stretch4_writes h
/-- The buffers' contents after stretch 5. -/
def U6 : Valuation τ sig (Elt F) := after stretch5 (U5 m c)
theorem U6_keep (r : Ref sig .tc) (h : r ∉ (stretch5_W : List (Ref sig .tc))) : U6 m c (Proc.devRef .tc r) = U5 m c (Proc.devRef .tc r) :=
  after_of_writes_sub stretch5 _ stretch5_writes h
/-- The buffers' contents after stretch 6. -/
def U7 : Valuation τ sig (Elt F) := after stretch6 (U6 m c)
theorem U7_keep (r : Ref sig .tc) (h : r ∉ (stretch6_W : List (Ref sig .tc))) : U7 m c (Proc.devRef .tc r) = U6 m c (Proc.devRef .tc r) :=
  after_of_writes_sub stretch6 _ stretch6_writes h
/-- The buffers' contents after stretch 7. -/
def U8 : Valuation τ sig (Elt F) := after stretch7 (U7 m c)
theorem U8_keep (r : Ref sig .tc) (h : r ∉ (stretch7_W : List (Ref sig .tc))) : U8 m c (Proc.devRef .tc r) = U7 m c (Proc.devRef .tc r) :=
  after_of_writes_sub stretch7 _ stretch7_writes h
/-- The buffers' contents after stretch 8. -/
def U9 : Valuation τ sig (Elt F) := after stretch8 (U8 m c)
theorem U9_keep (r : Ref sig .tc) (h : r ∉ (stretch8_W : List (Ref sig .tc))) : U9 m c (Proc.devRef .tc r) = U8 m c (Proc.devRef .tc r) :=
  after_of_writes_sub stretch8 _ stretch8_writes h
/-- The buffers' contents after stretch 9. -/
def U10 : Valuation τ sig (Elt F) := after stretch9 (U9 m c)
theorem U10_keep (r : Ref sig .tc) (h : r ∉ (stretch9_W : List (Ref sig .tc))) : U10 m c (Proc.devRef .tc r) = U9 m c (Proc.devRef .tc r) :=
  after_of_writes_sub stretch9 _ stretch9_writes h

/-- The run's fold over all of @main is the last stretch's contents. -/
theorem after_ops : after ops (launchContents m c) = U10 m c := by
  rw [ops_split]; simp only [after_append]; rfl

/-- After stretch 0 the buffer `main_v3` holds its stage. -/
theorem at_v3 : U1 m c (Proc.devRef .tc main_v3) = Cert.ReferenceIdeal.ReadP.val_main_v3 (F := F) (m ((c.tc : Thread nD τ).loc main_arg1)) := by
  show after stretch0 (U0 m c) (Proc.devRef .tc main_v3) = _
  after_results_simp
  rfl
/-- After stretch 0 the buffer `main_v6` holds its stage. -/
theorem at_v6 : U1 m c (Proc.devRef .tc main_v6) = Cert.ReferenceIdeal.ReadP.val_main_v6 (F := F) (m ((c.tc : Thread nD τ).loc main_arg1)) := by
  show after stretch0 (U0 m c) (Proc.devRef .tc main_v6) = _
  after_results_simp
  rfl
/-- After stretch 0 the buffer `main_v8` holds its stage. -/
theorem at_v8 : U1 m c (Proc.devRef .tc main_v8) = Cert.ReferenceIdeal.ReadP.val_main_v8 (F := F) (m ((c.tc : Thread nD τ).loc main_arg2)) := by
  show after stretch0 (U0 m c) (Proc.devRef .tc main_v8) = _
  after_results_simp
  rfl
/-- After stretch 0 the buffer `main_v13` holds its stage. -/
theorem at_v13 : U1 m c (Proc.devRef .tc main_v13) = Cert.ReferenceIdeal.ReadP.val_main_v13 (F := F) (m ((c.tc : Thread nD τ).loc main_arg1)) (m ((c.tc : Thread nD τ).loc main_arg2)) := by
  show after stretch0 (U0 m c) (Proc.devRef .tc main_v13) = _
  after_results_simp
  rfl
/-- After stretch 0 the buffer `main_v14` holds its stage. -/
theorem at_v14 : U1 m c (Proc.devRef .tc main_v14) = Cert.ReferenceIdeal.ReadP.val_main_v14 (F := F) (m ((c.tc : Thread nD τ).loc main_arg1)) (m ((c.tc : Thread nD τ).loc main_arg2)) := by
  show after stretch0 (U0 m c) (Proc.devRef .tc main_v14) = _
  after_results_simp
  rfl
/-- After stretch 0 the buffer `main_cst_2` holds its stage. -/
theorem at_cst_2 : U1 m c (Proc.devRef .tc main_cst_2) = Cert.ReferenceIdeal.ReadP.val_main_cst_2 (F := F)  := by
  show after stretch0 (U0 m c) (Proc.devRef .tc main_cst_2) = _
  after_results_simp
  rfl

theorem cst_2_in1 : U1 m c (Proc.devRef .tc main_cst_2) = Cert.ReferenceIdeal.ReadP.val_main_cst_2 (F := F)  := (at_cst_2 m c)
theorem v13_in1 : U1 m c (Proc.devRef .tc main_v13) = Cert.ReferenceIdeal.ReadP.val_main_v13 (F := F) (m ((c.tc : Thread nD τ).loc main_arg1)) (m ((c.tc : Thread nD τ).loc main_arg2)) := (at_v13 m c)
theorem v14_in1 : U1 m c (Proc.devRef .tc main_v14) = Cert.ReferenceIdeal.ReadP.val_main_v14 (F := F) (m ((c.tc : Thread nD τ).loc main_arg1)) (m ((c.tc : Thread nD τ).loc main_arg2)) := (at_v14 m c)
/-- After stretch 1 the buffer `main_v15` holds its stage. -/
theorem at_v15 : U2 m c (Proc.devRef .tc main_v15) = Cert.ReferenceIdeal.ReadP.val_main_v15 (F := F) (m ((c.tc : Thread nD τ).loc main_arg1)) (m ((c.tc : Thread nD τ).loc main_arg2)) := by
  show after stretch1 (U1 m c) (Proc.devRef .tc main_v15) = _
  after_results_simp
  simp only [cst_2_in1 m c, v13_in1 m c, v14_in1 m c]
  rfl

theorem v3_in2 : U2 m c (Proc.devRef .tc main_v3) = Cert.ReferenceIdeal.ReadP.val_main_v3 (F := F) (m ((c.tc : Thread nD τ).loc main_arg1)) := (U2_keep m c main_v3 (by decide)).trans (at_v3 m c)
theorem v15_in2 : U2 m c (Proc.devRef .tc main_v15) = Cert.ReferenceIdeal.ReadP.val_main_v15 (F := F) (m ((c.tc : Thread nD τ).loc main_arg1)) (m ((c.tc : Thread nD τ).loc main_arg2)) := (at_v15 m c)
theorem v8_in2 : U2 m c (Proc.devRef .tc main_v8) = Cert.ReferenceIdeal.ReadP.val_main_v8 (F := F) (m ((c.tc : Thread nD τ).loc main_arg2)) := (U2_keep m c main_v8 (by decide)).trans (at_v8 m c)
theorem v6_in2 : U2 m c (Proc.devRef .tc main_v6) = Cert.ReferenceIdeal.ReadP.val_main_v6 (F := F) (m ((c.tc : Thread nD τ).loc main_arg1)) := (U2_keep m c main_v6 (by decide)).trans (at_v6 m c)
/-- After stretch 2 the buffer `main_v31` holds its stage. -/
theorem at_v31 : U3 m c (Proc.devRef .tc main_v31) = Cert.ReferenceIdeal.ReadP.val_main_v31 (F := F) (m ((c.tc : Thread nD τ).loc main_arg1)) (m ((c.tc : Thread nD τ).loc main_arg2)) := by
  show after stretch2 (U2 m c) (Proc.devRef .tc main_v31) = _
  after_results_simp
  simp only [v3_in2 m c, v15_in2 m c, v8_in2 m c, v6_in2 m c]
  rfl

theorem arg0_in3 : U3 m c (Proc.devRef .tc main_arg0) = (m ((c.tc : Thread nD τ).loc main_arg0)) := (((U3_keep m c main_arg0 (by decide)).trans ((U2_keep m c main_arg0 (by decide)).trans (U1_keep m c main_arg0 (by decide)))).trans rfl)
theorem arg3_in3 : U3 m c (Proc.devRef .tc main_arg3) = (m ((c.tc : Thread nD τ).loc main_arg3)) := (((U3_keep m c main_arg3 (by decide)).trans ((U2_keep m c main_arg3 (by decide)).trans (U1_keep m c main_arg3 (by decide)))).trans rfl)
theorem v3_in3 : U3 m c (Proc.devRef .tc main_v3) = Cert.ReferenceIdeal.ReadP.val_main_v3 (F := F) (m ((c.tc : Thread nD τ).loc main_arg1)) := ((U3_keep m c main_v3 (by decide)).trans (U2_keep m c main_v3 (by decide))).trans (at_v3 m c)
theorem v31_in3 : U3 m c (Proc.devRef .tc main_v31) = Cert.ReferenceIdeal.ReadP.val_main_v31 (F := F) (m ((c.tc : Thread nD τ).loc main_arg1)) (m ((c.tc : Thread nD τ).loc main_arg2)) := (at_v31 m c)
theorem v6_in3 : U3 m c (Proc.devRef .tc main_v6) = Cert.ReferenceIdeal.ReadP.val_main_v6 (F := F) (m ((c.tc : Thread nD τ).loc main_arg1)) := ((U3_keep m c main_v6 (by decide)).trans (U2_keep m c main_v6 (by decide))).trans (at_v6 m c)
theorem arg4_in3 : U3 m c (Proc.devRef .tc main_arg4) = (m ((c.tc : Thread nD τ).loc main_arg4)) := (((U3_keep m c main_arg4 (by decide)).trans ((U2_keep m c main_arg4 (by decide)).trans (U1_keep m c main_arg4 (by decide)))).trans rfl)
/-- After stretch 3 the buffer `main_v48` holds its stage. -/
theorem at_v48 : U4 m c (Proc.devRef .tc main_v48) = Cert.ReferenceIdeal.ReadP.val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after stretch3 (U3 m c) (Proc.devRef .tc main_v48) = _
  after_results_simp
  simp only [arg0_in3 m c, arg3_in3 m c, v3_in3 m c, v31_in3 m c, v6_in3 m c, arg4_in3 m c]
  rfl
/-- After stretch 3 the buffer `main_v51` holds its stage. -/
theorem at_v51 : U4 m c (Proc.devRef .tc main_v51) = Cert.ReferenceIdeal.ReadP.val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after stretch3 (U3 m c) (Proc.devRef .tc main_v51) = _
  after_results_simp
  simp only [arg0_in3 m c, arg3_in3 m c, v3_in3 m c, v31_in3 m c, v6_in3 m c, arg4_in3 m c]
  rfl
/-- After stretch 3 the buffer `main_v58` holds its stage. -/
theorem at_v58 : U4 m c (Proc.devRef .tc main_v58) = Cert.ReferenceIdeal.ReadP.val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after stretch3 (U3 m c) (Proc.devRef .tc main_v58) = _
  after_results_simp
  simp only [arg0_in3 m c, arg3_in3 m c, v3_in3 m c, v31_in3 m c, v6_in3 m c, arg4_in3 m c]
  rfl

theorem v51_in4 : U4 m c (Proc.devRef .tc main_v51) = Cert.ReferenceIdeal.ReadP.val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (at_v51 m c)
theorem v48_in4 : U4 m c (Proc.devRef .tc main_v48) = Cert.ReferenceIdeal.ReadP.val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (at_v48 m c)
theorem v58_in4 : U4 m c (Proc.devRef .tc main_v58) = Cert.ReferenceIdeal.ReadP.val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (at_v58 m c)
theorem arg5_in4 : U4 m c (Proc.devRef .tc main_arg5) = (m ((c.tc : Thread nD τ).loc main_arg5)) := (((U4_keep m c main_arg5 (by decide)).trans ((U3_keep m c main_arg5 (by decide)).trans ((U2_keep m c main_arg5 (by decide)).trans (U1_keep m c main_arg5 (by decide))))).trans rfl)
theorem arg6_in4 : U4 m c (Proc.devRef .tc main_arg6) = (m ((c.tc : Thread nD τ).loc main_arg6)) := (((U4_keep m c main_arg6 (by decide)).trans ((U3_keep m c main_arg6 (by decide)).trans ((U2_keep m c main_arg6 (by decide)).trans (U1_keep m c main_arg6 (by decide))))).trans rfl)
/-- After stretch 4 the buffer `main_v74` holds its stage. -/
theorem at_v74 : U5 m c (Proc.devRef .tc main_v74) = Cert.ReferenceIdeal.ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after stretch4 (U4 m c) (Proc.devRef .tc main_v74) = _
  after_results_simp
  simp only [v51_in4 m c, v48_in4 m c, v58_in4 m c, arg5_in4 m c, arg6_in4 m c]
  rfl

theorem v74_in5 : U5 m c (Proc.devRef .tc main_v74) = Cert.ReferenceIdeal.ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := (at_v74 m c)
theorem arg7_in5 : U5 m c (Proc.devRef .tc main_arg7) = (m ((c.tc : Thread nD τ).loc main_arg7)) := (((U5_keep m c main_arg7 (by decide)).trans ((U4_keep m c main_arg7 (by decide)).trans ((U3_keep m c main_arg7 (by decide)).trans ((U2_keep m c main_arg7 (by decide)).trans (U1_keep m c main_arg7 (by decide)))))).trans rfl)
theorem v3_in5 : U5 m c (Proc.devRef .tc main_v3) = Cert.ReferenceIdeal.ReadP.val_main_v3 (F := F) (m ((c.tc : Thread nD τ).loc main_arg1)) := ((U5_keep m c main_v3 (by decide)).trans ((U4_keep m c main_v3 (by decide)).trans ((U3_keep m c main_v3 (by decide)).trans (U2_keep m c main_v3 (by decide))))).trans (at_v3 m c)
theorem v31_in5 : U5 m c (Proc.devRef .tc main_v31) = Cert.ReferenceIdeal.ReadP.val_main_v31 (F := F) (m ((c.tc : Thread nD τ).loc main_arg1)) (m ((c.tc : Thread nD τ).loc main_arg2)) := ((U5_keep m c main_v31 (by decide)).trans (U4_keep m c main_v31 (by decide))).trans (at_v31 m c)
theorem v6_in5 : U5 m c (Proc.devRef .tc main_v6) = Cert.ReferenceIdeal.ReadP.val_main_v6 (F := F) (m ((c.tc : Thread nD τ).loc main_arg1)) := ((U5_keep m c main_v6 (by decide)).trans ((U4_keep m c main_v6 (by decide)).trans ((U3_keep m c main_v6 (by decide)).trans (U2_keep m c main_v6 (by decide))))).trans (at_v6 m c)
theorem arg8_in5 : U5 m c (Proc.devRef .tc main_arg8) = (m ((c.tc : Thread nD τ).loc main_arg8)) := (((U5_keep m c main_arg8 (by decide)).trans ((U4_keep m c main_arg8 (by decide)).trans ((U3_keep m c main_arg8 (by decide)).trans ((U2_keep m c main_arg8 (by decide)).trans (U1_keep m c main_arg8 (by decide)))))).trans rfl)
/-- After stretch 5 the buffer `main_v91` holds its stage. -/
theorem at_v91 : U6 m c (Proc.devRef .tc main_v91) = Cert.ReferenceIdeal.ReadP.val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show after stretch5 (U5 m c) (Proc.devRef .tc main_v91) = _
  after_results_simp
  simp only [v74_in5 m c, arg7_in5 m c, v3_in5 m c, v31_in5 m c, v6_in5 m c, arg8_in5 m c]
  rfl
/-- After stretch 5 the buffer `main_v94` holds its stage. -/
theorem at_v94 : U6 m c (Proc.devRef .tc main_v94) = Cert.ReferenceIdeal.ReadP.val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show after stretch5 (U5 m c) (Proc.devRef .tc main_v94) = _
  after_results_simp
  simp only [v74_in5 m c, arg7_in5 m c, v3_in5 m c, v31_in5 m c, v6_in5 m c, arg8_in5 m c]
  rfl
/-- After stretch 5 the buffer `main_v101` holds its stage. -/
theorem at_v101 : U6 m c (Proc.devRef .tc main_v101) = Cert.ReferenceIdeal.ReadP.val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show after stretch5 (U5 m c) (Proc.devRef .tc main_v101) = _
  after_results_simp
  simp only [v74_in5 m c, arg7_in5 m c, v3_in5 m c, v31_in5 m c, v6_in5 m c, arg8_in5 m c]
  rfl

theorem v94_in6 : U6 m c (Proc.devRef .tc main_v94) = Cert.ReferenceIdeal.ReadP.val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := (at_v94 m c)
theorem v91_in6 : U6 m c (Proc.devRef .tc main_v91) = Cert.ReferenceIdeal.ReadP.val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := (at_v91 m c)
theorem v101_in6 : U6 m c (Proc.devRef .tc main_v101) = Cert.ReferenceIdeal.ReadP.val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := (at_v101 m c)
theorem arg9_in6 : U6 m c (Proc.devRef .tc main_arg9) = (m ((c.tc : Thread nD τ).loc main_arg9)) := (((U6_keep m c main_arg9 (by decide)).trans ((U5_keep m c main_arg9 (by decide)).trans ((U4_keep m c main_arg9 (by decide)).trans ((U3_keep m c main_arg9 (by decide)).trans ((U2_keep m c main_arg9 (by decide)).trans (U1_keep m c main_arg9 (by decide))))))).trans rfl)
theorem arg10_in6 : U6 m c (Proc.devRef .tc main_arg10) = (m ((c.tc : Thread nD τ).loc main_arg10)) := (((U6_keep m c main_arg10 (by decide)).trans ((U5_keep m c main_arg10 (by decide)).trans ((U4_keep m c main_arg10 (by decide)).trans ((U3_keep m c main_arg10 (by decide)).trans ((U2_keep m c main_arg10 (by decide)).trans (U1_keep m c main_arg10 (by decide))))))).trans rfl)
/-- After stretch 6 the buffer `main_v117` holds its stage. -/
theorem at_v117 : U7 m c (Proc.devRef .tc main_v117) = Cert.ReferenceIdeal.ReadP.val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show after stretch6 (U6 m c) (Proc.devRef .tc main_v117) = _
  after_results_simp
  simp only [v94_in6 m c, v91_in6 m c, v101_in6 m c, arg9_in6 m c, arg10_in6 m c]
  rfl

theorem v117_in7 : U7 m c (Proc.devRef .tc main_v117) = Cert.ReferenceIdeal.ReadP.val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := (at_v117 m c)
theorem arg11_in7 : U7 m c (Proc.devRef .tc main_arg11) = (m ((c.tc : Thread nD τ).loc main_arg11)) := (((U7_keep m c main_arg11 (by decide)).trans ((U6_keep m c main_arg11 (by decide)).trans ((U5_keep m c main_arg11 (by decide)).trans ((U4_keep m c main_arg11 (by decide)).trans ((U3_keep m c main_arg11 (by decide)).trans ((U2_keep m c main_arg11 (by decide)).trans (U1_keep m c main_arg11 (by decide)))))))).trans rfl)
theorem v3_in7 : U7 m c (Proc.devRef .tc main_v3) = Cert.ReferenceIdeal.ReadP.val_main_v3 (F := F) (m ((c.tc : Thread nD τ).loc main_arg1)) := ((U7_keep m c main_v3 (by decide)).trans ((U6_keep m c main_v3 (by decide)).trans ((U5_keep m c main_v3 (by decide)).trans ((U4_keep m c main_v3 (by decide)).trans ((U3_keep m c main_v3 (by decide)).trans (U2_keep m c main_v3 (by decide))))))).trans (at_v3 m c)
theorem v31_in7 : U7 m c (Proc.devRef .tc main_v31) = Cert.ReferenceIdeal.ReadP.val_main_v31 (F := F) (m ((c.tc : Thread nD τ).loc main_arg1)) (m ((c.tc : Thread nD τ).loc main_arg2)) := ((U7_keep m c main_v31 (by decide)).trans ((U6_keep m c main_v31 (by decide)).trans ((U5_keep m c main_v31 (by decide)).trans (U4_keep m c main_v31 (by decide))))).trans (at_v31 m c)
theorem v6_in7 : U7 m c (Proc.devRef .tc main_v6) = Cert.ReferenceIdeal.ReadP.val_main_v6 (F := F) (m ((c.tc : Thread nD τ).loc main_arg1)) := ((U7_keep m c main_v6 (by decide)).trans ((U6_keep m c main_v6 (by decide)).trans ((U5_keep m c main_v6 (by decide)).trans ((U4_keep m c main_v6 (by decide)).trans ((U3_keep m c main_v6 (by decide)).trans (U2_keep m c main_v6 (by decide))))))).trans (at_v6 m c)
theorem arg12_in7 : U7 m c (Proc.devRef .tc main_arg12) = (m ((c.tc : Thread nD τ).loc main_arg12)) := (((U7_keep m c main_arg12 (by decide)).trans ((U6_keep m c main_arg12 (by decide)).trans ((U5_keep m c main_arg12 (by decide)).trans ((U4_keep m c main_arg12 (by decide)).trans ((U3_keep m c main_arg12 (by decide)).trans ((U2_keep m c main_arg12 (by decide)).trans (U1_keep m c main_arg12 (by decide)))))))).trans rfl)
/-- After stretch 7 the buffer `main_v134` holds its stage. -/
theorem at_v134 : U8 m c (Proc.devRef .tc main_v134) = Cert.ReferenceIdeal.ReadP.val_main_v134 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show after stretch7 (U7 m c) (Proc.devRef .tc main_v134) = _
  after_results_simp
  simp only [v117_in7 m c, arg11_in7 m c, v3_in7 m c, v31_in7 m c, v6_in7 m c, arg12_in7 m c]
  rfl
/-- After stretch 7 the buffer `main_v137` holds its stage. -/
theorem at_v137 : U8 m c (Proc.devRef .tc main_v137) = Cert.ReferenceIdeal.ReadP.val_main_v137 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show after stretch7 (U7 m c) (Proc.devRef .tc main_v137) = _
  after_results_simp
  simp only [v117_in7 m c, arg11_in7 m c, v3_in7 m c, v31_in7 m c, v6_in7 m c, arg12_in7 m c]
  rfl
/-- After stretch 7 the buffer `main_v144` holds its stage. -/
theorem at_v144 : U8 m c (Proc.devRef .tc main_v144) = Cert.ReferenceIdeal.ReadP.val_main_v144 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show after stretch7 (U7 m c) (Proc.devRef .tc main_v144) = _
  after_results_simp
  simp only [v117_in7 m c, arg11_in7 m c, v3_in7 m c, v31_in7 m c, v6_in7 m c, arg12_in7 m c]
  rfl

theorem v137_in8 : U8 m c (Proc.devRef .tc main_v137) = Cert.ReferenceIdeal.ReadP.val_main_v137 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := (at_v137 m c)
theorem v134_in8 : U8 m c (Proc.devRef .tc main_v134) = Cert.ReferenceIdeal.ReadP.val_main_v134 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := (at_v134 m c)
theorem v144_in8 : U8 m c (Proc.devRef .tc main_v144) = Cert.ReferenceIdeal.ReadP.val_main_v144 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := (at_v144 m c)
theorem arg13_in8 : U8 m c (Proc.devRef .tc main_arg13) = (m ((c.tc : Thread nD τ).loc main_arg13)) := (((U8_keep m c main_arg13 (by decide)).trans ((U7_keep m c main_arg13 (by decide)).trans ((U6_keep m c main_arg13 (by decide)).trans ((U5_keep m c main_arg13 (by decide)).trans ((U4_keep m c main_arg13 (by decide)).trans ((U3_keep m c main_arg13 (by decide)).trans ((U2_keep m c main_arg13 (by decide)).trans (U1_keep m c main_arg13 (by decide))))))))).trans rfl)
theorem arg14_in8 : U8 m c (Proc.devRef .tc main_arg14) = (m ((c.tc : Thread nD τ).loc main_arg14)) := (((U8_keep m c main_arg14 (by decide)).trans ((U7_keep m c main_arg14 (by decide)).trans ((U6_keep m c main_arg14 (by decide)).trans ((U5_keep m c main_arg14 (by decide)).trans ((U4_keep m c main_arg14 (by decide)).trans ((U3_keep m c main_arg14 (by decide)).trans ((U2_keep m c main_arg14 (by decide)).trans (U1_keep m c main_arg14 (by decide))))))))).trans rfl)
/-- After stretch 8 the buffer `main_v160` holds its stage. -/
theorem at_v160 : U9 m c (Proc.devRef .tc main_v160) = Cert.ReferenceIdeal.ReadP.val_main_v160 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show after stretch8 (U8 m c) (Proc.devRef .tc main_v160) = _
  after_results_simp
  simp only [v137_in8 m c, v134_in8 m c, v144_in8 m c, arg13_in8 m c, arg14_in8 m c]
  rfl

theorem v74_in9 : U9 m c (Proc.devRef .tc main_v74) = Cert.ReferenceIdeal.ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := ((U9_keep m c main_v74 (by decide)).trans ((U8_keep m c main_v74 (by decide)).trans ((U7_keep m c main_v74 (by decide)).trans (U6_keep m c main_v74 (by decide))))).trans (at_v74 m c)
theorem v117_in9 : U9 m c (Proc.devRef .tc main_v117) = Cert.ReferenceIdeal.ReadP.val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := ((U9_keep m c main_v117 (by decide)).trans (U8_keep m c main_v117 (by decide))).trans (at_v117 m c)
theorem v160_in9 : U9 m c (Proc.devRef .tc main_v160) = Cert.ReferenceIdeal.ReadP.val_main_v160 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := (at_v160 m c)
theorem arg15_in9 : U9 m c (Proc.devRef .tc main_arg15) = (m ((c.tc : Thread nD τ).loc main_arg15)) := (((U9_keep m c main_arg15 (by decide)).trans ((U8_keep m c main_arg15 (by decide)).trans ((U7_keep m c main_arg15 (by decide)).trans ((U6_keep m c main_arg15 (by decide)).trans ((U5_keep m c main_arg15 (by decide)).trans ((U4_keep m c main_arg15 (by decide)).trans ((U3_keep m c main_arg15 (by decide)).trans ((U2_keep m c main_arg15 (by decide)).trans (U1_keep m c main_arg15 (by decide)))))))))).trans rfl)
theorem arg16_in9 : U9 m c (Proc.devRef .tc main_arg16) = (m ((c.tc : Thread nD τ).loc main_arg16)) := (((U9_keep m c main_arg16 (by decide)).trans ((U8_keep m c main_arg16 (by decide)).trans ((U7_keep m c main_arg16 (by decide)).trans ((U6_keep m c main_arg16 (by decide)).trans ((U5_keep m c main_arg16 (by decide)).trans ((U4_keep m c main_arg16 (by decide)).trans ((U3_keep m c main_arg16 (by decide)).trans ((U2_keep m c main_arg16 (by decide)).trans (U1_keep m c main_arg16 (by decide)))))))))).trans rfl)
/-- After stretch 9 the buffer `main_v165` holds its stage. -/
theorem at_v165 : U10 m c (Proc.devRef .tc main_v165) = Cert.ReferenceIdeal.ReadP.val_main_v165 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  show after stretch9 (U9 m c) (Proc.devRef .tc main_v165) = _
  after_results_simp
  rw [show U9 m c (Proc.devRef .tc (![main_v74, main_v117, main_v160] 0)) = Cert.ReferenceIdeal.ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) from v74_in9 m c,
    show U9 m c (Proc.devRef .tc (![main_v74, main_v117, main_v160] 1)) = Cert.ReferenceIdeal.ReadP.val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) from v117_in9 m c,
    show U9 m c (Proc.devRef .tc (![main_v74, main_v117, main_v160] 2)) = Cert.ReferenceIdeal.ReadP.val_main_v160 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) from v160_in9 m c,
    arg15_in9 m c, arg16_in9 m c]
  rfl

/-- No operation of @main writes an argument. -/
abbrev ops_W : List (Ref sig .tc) := [main_v0, main_v1, main_v2, main_v3, main_v4, main_v5, main_v6, main_cst, main_v7, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_v23, main_c_4, main_v24, main_v25, main_c_5, main_v26, main_v27, main_v28, main_v29, main_v30, main_v31, main_v32, main_c_6, main_v33, main_v34, main_c_7, main_v35, main_v36, main_v37, main_v38, main_v39, main_v40, main_v41, main_v42, main_cst_8, main_v43, main_v44, main_v45, main_v46, main_v47, main_v48, main_cst_9, main_v49, main_cst_10, main_v50, main_v51, main_v52, main_v53, main_v54, main_v55, main_cst_11, main_v56, main_cst_12, main_v57, main_v58, main_v59, main_v60, main_v61, main_cst_13, main_v62, main_v63, main_v64, main_v65, main_v66, main_v67, main_v68, main_v69, main_v70, main_v71, main_v72, main_v73, main_call1_cst, main_call1_v0, main_v74, main_v75, main_c_14, main_v76, main_v77, main_c_15, main_v78, main_v79, main_v80, main_v81, main_v82, main_v83, main_v84, main_v85, main_cst_16, main_v86, main_v87, main_v88, main_v89, main_v90, main_v91, main_cst_17, main_v92, main_cst_18, main_v93, main_v94, main_v95, main_v96, main_v97, main_v98, main_cst_19, main_v99, main_cst_20, main_v100, main_v101, main_v102, main_v103, main_v104, main_cst_21, main_v105, main_v106, main_v107, main_v108, main_v109, main_v110, main_v111, main_v112, main_v113, main_v114, main_v115, main_v116, main_call2_cst, main_call2_v0, main_v117, main_v118, main_c_22, main_v119, main_v120, main_c_23, main_v121, main_v122, main_v123, main_v124, main_v125, main_v126, main_v127, main_v128, main_cst_24, main_v129, main_v130, main_v131, main_v132, main_v133, main_v134, main_cst_25, main_v135, main_cst_26, main_v136, main_v137, main_v138, main_v139, main_v140, main_v141, main_cst_27, main_v142, main_cst_28, main_v143, main_v144, main_v145, main_v146, main_v147, main_cst_29, main_v148, main_v149, main_v150, main_v151, main_v152, main_v153, main_v154, main_v155, main_v156, main_v157, main_v158, main_v159, main_call3_cst, main_call3_v0, main_v160, main_v161, main_v162, main_v163, main_v164, main_v165]
theorem ops_writes : (ops : List (HloOp τ sig (Elt F))).Forall fun op => op.writes ⊆ (ops_W.map (Proc.devRef (τ := τ) .tc)).toFinset := by
  simp only [ops, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (ρ : Dev nD → PrngReg)

/-- On every device, from any memory with zero counters: every weakly fair execution of the reference's @main terminates, the
    result buffer at the stage `val_main_v165` of the arguments' launch contents and the arguments unchanged. -/
theorem run : θ_run defs (onTc (τ := τ) (main (F := F))) ⟨m, fun _ => 0, ρ⟩ fun r => ∀ c : Dev nD,
      r.2.mem ((c.tc : Thread nD τ).loc main_v165) = Cert.ReferenceIdeal.ReadP.val_main_v165 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v165).trans ((congrFun (after_ops m c) _).trans (at_v165 m c)),
      (h c main_arg0).trans (after_of_writes_sub ops _ ops_writes (by decide)),
      (h c main_arg1).trans (after_of_writes_sub ops _ ops_writes (by decide)),
      (h c main_arg2).trans (after_of_writes_sub ops _ ops_writes (by decide)),
      (h c main_arg3).trans (after_of_writes_sub ops _ ops_writes (by decide)),
      (h c main_arg4).trans (after_of_writes_sub ops _ ops_writes (by decide)),
      (h c main_arg5).trans (after_of_writes_sub ops _ ops_writes (by decide)),
      (h c main_arg6).trans (after_of_writes_sub ops _ ops_writes (by decide)),
      (h c main_arg7).trans (after_of_writes_sub ops _ ops_writes (by decide)),
      (h c main_arg8).trans (after_of_writes_sub ops _ ops_writes (by decide)),
      (h c main_arg9).trans (after_of_writes_sub ops _ ops_writes (by decide)),
      (h c main_arg10).trans (after_of_writes_sub ops _ ops_writes (by decide)),
      (h c main_arg11).trans (after_of_writes_sub ops _ ops_writes (by decide)),
      (h c main_arg12).trans (after_of_writes_sub ops _ ops_writes (by decide)),
      (h c main_arg13).trans (after_of_writes_sub ops _ ops_writes (by decide)),
      (h c main_arg14).trans (after_of_writes_sub ops _ ops_writes (by decide)),
      (h c main_arg15).trans (after_of_writes_sub ops _ ops_writes (by decide)),
      (h c main_arg16).trans (after_of_writes_sub ops _ ops_writes (by decide))⟩)
    (run_seq scopedRefs_eq scopedSems_eq defs main (fun _ => ops) main_eq (fun _ => ops_sub) m ρ)

end Cert.ReferenceIdeal.RunStages

end
-- ==== Proof.Keep.lean ====
/-
  Which buffers a stretch of host operations leaves alone.  Each of the eight host stretches of the kernel program writes only
  its own operations' result buffers (listed here per stretch); every other buffer holds after the stretch what it held before.
  Together with the kernel regions' own statement (a region rewrites its output array and nothing else) this carries the values
  that outlive a segment — the edge lists and edge weights of the graph, each layer's activations, the parameters — from the
  boundary where they are made to the boundary where they are read.
-/
import proofs.«159183_j16226386444400_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers the operations of `hostOps0` write: one result buffer each. -/
abbrev hostOps0_W : List (Ref sig .tc) := [main_v0, main_v1, main_v2, main_v3, main_v4, main_v5, main_v6, main_cst, main_v7, main_v8, main_cst_0, main_v9, main_v10, main_v11, main_cst_1, main_v12, main_v13, main_v14, main_cst_2]
theorem hostOps0_writes : (hostOps0 : List (HloOp τ sig (Elt F))).Forall fun op => op.writes ⊆ (hostOps0_W.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0` does not write holds after it what it held before. -/
theorem W1_keep (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

/-- The buffers the operations of `hostOps0_1` write: one result buffer each. -/
abbrev hostOps0_1_W : List (Ref sig .tc) := [main_call0_v0, main_call0_v1, main_v15]
theorem hostOps0_1_writes : (hostOps0_1 : List (HloOp τ sig (Elt F))).Forall fun op => op.writes ⊆ (hostOps0_1_W.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_1` does not write holds after it what it held before. -/
theorem W2_keep (c : Dev nD) (r : Ref sig .tc) (h : r ∉ (hostOps0_1_W : List (Ref sig .tc))) :
    W2 m ρ c (Proc.devRef .tc r) = W1 m ρ c (Proc.devRef .tc r) :=
  StableHlo.after_of_writes_sub hostOps0_1 _ hostOps0_1_writes h

/-- The buffers the operations of `hostOps0_2` write: one result buffer each. -/
abbrev hostOps0_2_W : List (Ref sig .tc) := [main_c, main_v16, main_v17, main_c_3, main_v18, main_v19, main_v20, main_v21, main_v22, main_v23, main_c_4, main_v24, main_v25, main_c_5, main_v26, main_v27, main_v28, main_v29, main_v30, main_v31]
theorem hostOps0_2_writes : (hostOps0_2 : List (HloOp τ sig (Elt F))).Forall fun op => op.writes ⊆ (hostOps0_2_W.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps0_2` does not write holds after it what it held before. -/
theorem W3_keep (c : Dev nD) (r : Ref sig .tc) (h : r ∉ (hostOps0_2_W : List (Ref sig .tc))) :
    W3 m ρ c (Proc.devRef .tc r) = W2 m ρ c (Proc.devRef .tc r) :=
  StableHlo.after_of_writes_sub hostOps0_2 _ hostOps0_2_writes h

/-- The buffers the operations of `hostOps1` write: one result buffer each. -/
abbrev hostOps1_W : List (Ref sig .tc) := [main_c_6, main_v33, main_v34, main_c_7, main_v35, main_v36, main_v37, main_v38, main_v39, main_v40, main_v41, main_v42, main_cst_8, main_v43, main_v44, main_v45, main_v46, main_v47, main_v48, main_cst_9, main_v49, main_cst_10, main_v50, main_v51, main_v52, main_v53, main_v54, main_v55, main_cst_11, main_v56, main_cst_12, main_v57, main_v58, main_v59, main_v60, main_v61, main_v62]
theorem hostOps1_writes : (hostOps1 : List (HloOp τ sig (Elt F))).Forall fun op => op.writes ⊆ (hostOps1_W.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps1` does not write holds after it what it held before. -/
theorem W5_keep (c : Dev nD) (r : Ref sig .tc) (h : r ∉ (hostOps1_W : List (Ref sig .tc))) :
    W5 m ρ c (Proc.devRef .tc r) = W4 m ρ c (Proc.devRef .tc r) :=
  StableHlo.after_of_writes_sub hostOps1 _ hostOps1_writes h

/-- The buffers the operations of `hostOps3` write: one result buffer each. -/
abbrev hostOps3_W : List (Ref sig .tc) := [main_c_13, main_v65, main_v66, main_c_14, main_v67, main_v68, main_v69, main_v70, main_v71, main_v72, main_v73, main_v74, main_cst_15, main_v75, main_v76, main_v77, main_v78, main_v79, main_v80, main_cst_16, main_v81, main_cst_17, main_v82, main_v83, main_v84, main_v85, main_v86, main_v87, main_cst_18, main_v88, main_cst_19, main_v89, main_v90, main_v91, main_v92, main_v93, main_v94]
theorem hostOps3_writes : (hostOps3 : List (HloOp τ sig (Elt F))).Forall fun op => op.writes ⊆ (hostOps3_W.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps3` does not write holds after it what it held before. -/
theorem W8_keep (c : Dev nD) (r : Ref sig .tc) (h : r ∉ (hostOps3_W : List (Ref sig .tc))) :
    W8 m ρ c (Proc.devRef .tc r) = W7 m ρ c (Proc.devRef .tc r) :=
  StableHlo.after_of_writes_sub hostOps3 _ hostOps3_writes h

/-- The buffers the operations of `hostOps5` write: one result buffer each. -/
abbrev hostOps5_W : List (Ref sig .tc) := [main_c_20, main_v97, main_v98, main_c_21, main_v99, main_v100, main_v101, main_v102, main_v103, main_v104, main_v105, main_v106, main_cst_22, main_v107, main_v108, main_v109, main_v110, main_v111, main_v112, main_cst_23, main_v113, main_cst_24, main_v114, main_v115, main_v116, main_v117, main_v118, main_v119, main_cst_25, main_v120, main_cst_26, main_v121, main_v122, main_v123, main_v124, main_v125, main_v126]
theorem hostOps5_writes : (hostOps5 : List (HloOp τ sig (Elt F))).Forall fun op => op.writes ⊆ (hostOps5_W.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps5` does not write holds after it what it held before. -/
theorem W11_keep (c : Dev nD) (r : Ref sig .tc) (h : r ∉ (hostOps5_W : List (Ref sig .tc))) :
    W11 m ρ c (Proc.devRef .tc r) = W10 m ρ c (Proc.devRef .tc r) :=
  StableHlo.after_of_writes_sub hostOps5 _ hostOps5_writes h

/-- The buffers the operations of `hostOps6` write: one result buffer each. -/
abbrev hostOps6_W : List (Ref sig .tc) := [main_cst_27, main_v128, main_c_28, main_v129, main_v130, main_cst_29, main_v131, main_c_30, main_v132, main_v133, main_v134, main_v135, main_v136, main_v137]
theorem hostOps6_writes : (hostOps6 : List (HloOp τ sig (Elt F))).Forall fun op => op.writes ⊆ (hostOps6_W.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps6` does not write holds after it what it held before. -/
theorem W13_keep (c : Dev nD) (r : Ref sig .tc) (h : r ∉ (hostOps6_W : List (Ref sig .tc))) :
    W13 m ρ c (Proc.devRef .tc r) = W12 m ρ c (Proc.devRef .tc r) :=
  StableHlo.after_of_writes_sub hostOps6 _ hostOps6_writes h

/-- The buffers the operations of `hostOps7` write: one result buffer each. -/
abbrev hostOps7_W : List (Ref sig .tc) := [main_v139]
theorem hostOps7_writes : (hostOps7 : List (HloOp τ sig (Elt F))).Forall fun op => op.writes ⊆ (hostOps7_W.map (Proc.devRef (τ := τ) .tc)).toFinset := by
  simp only [hostOps7, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer `hostOps7` does not write holds after it what it held before. -/
theorem W15_keep (c : Dev nD) (r : Ref sig .tc) (h : r ∉ (hostOps7_W : List (Ref sig .tc))) :
    W15 m ρ c (Proc.devRef .tc r) = W14 m ρ c (Proc.devRef .tc r) :=
  StableHlo.after_of_writes_sub hostOps7 _ hostOps7_writes h

end Cert.KernelIdeal.Keep

end
-- ==== Proof.ChainBase.lean ====
/-
  The graph normalisation, which both programs compute with the same host operations before any kernel runs: the
  source list (row) and target list (col) of the edges with one self loop per node appended, the edge weights with a 1 per self
  loop, the weighted in-degree deg of every node, deg^(-1/2) where deg > 0 and 0 elsewhere, and the symmetric normalisation
  coefficient of each edge, deg^(-1/2)[row] · w · deg^(-1/2)[col].  The kernel program computes them in three stretches of host
  operations; after each stretch its buffers hold the reference's stages for these arrays, from the stretch's own operations
  applied to the stages before it.
-/
import proofs.«159183_j16226386444400_1_alg».proof.Proof.Gen.KernelIdeal.Frame
import proofs.«159183_j16226386444400_1_alg».proof.Proof.Keep
import proofs.«159183_j16226386444400_1_alg».proof.Proof.RefReadP
import Idealize.ShloMosaic.PureOps.Ideal
import Idealize.ShloMosaic.PureOps.Ideal.Laws

set_option maxRecDepth 16384

noncomputable section

namespace Cert.Bridge.Base

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The edges' source list with the self loops, after the first stretch. -/
theorem row_at_1 : W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  after_results_simp
  rfl
/-- The edges' target list with the self loops. -/
theorem col_at_1 : W1 m ρ c (Proc.devRef .tc main_v6) = Cert.ReferenceIdeal.ReadP.val_main_v6 (F := F) (m ((c : Thread nD τ).loc main_arg1)) := by
  show StableHlo.after hostOps0 (W0 m ρ c) (Proc.devRef .tc main_v6) = _
  after_results_simp
  rfl
/-- The edge weights with a 1 per self loop. -/
theorem ew_at_1 : W1 m ρ c (Proc.devRef .tc main_v8) = Cert.ReferenceIdeal.ReadP.val_main_v8 (F := F) (m ((c : Thread nD τ).loc main_arg2)) := by
  show StableHlo.after hostOps0 (W0 m ρ c) (Proc.devRef .tc main_v8) = _
  after_results_simp
  rfl
/-- Where the weighted in-degree is positive. -/
theorem pos_at_1 : W1 m ρ c (Proc.devRef .tc main_v13) = Cert.ReferenceIdeal.ReadP.val_main_v13 (F := F) (m ((c : Thread nD τ).loc main_arg1)) (m ((c : Thread nD τ).loc main_arg2)) := by
  show StableHlo.after hostOps0 (W0 m ρ c) (Proc.devRef .tc main_v13) = _
  after_results_simp
  rfl
/-- The inverse square root of the weighted in-degree. -/
theorem rs_at_1 : W1 m ρ c (Proc.devRef .tc main_v14) = Cert.ReferenceIdeal.ReadP.val_main_v14 (F := F) (m ((c : Thread nD τ).loc main_arg1)) (m ((c : Thread nD τ).loc main_arg2)) := by
  show StableHlo.after hostOps0 (W0 m ρ c) (Proc.devRef .tc main_v14) = _
  after_results_simp
  rfl
/-- The constant 0 that stands where the degree is not positive. -/
theorem zero_at_1 : W1 m ρ c (Proc.devRef .tc main_cst_2) = Cert.ReferenceIdeal.ReadP.val_main_cst_2 (F := F)  := by
  show StableHlo.after hostOps0 (W0 m ρ c) (Proc.devRef .tc main_cst_2) = _
  after_results_simp
  rfl

/-- deg^(-1/2) where the degree is positive and 0 elsewhere: the select of the second stretch, from the first stretch's stages. -/
theorem dis_at_2 : W2 m ρ c (Proc.devRef .tc main_v15) = Cert.ReferenceIdeal.ReadP.val_main_v15 (F := F) (m ((c : Thread nD τ).loc main_arg1)) (m ((c : Thread nD τ).loc main_arg2)) := by
  show StableHlo.after hostOps0_1 (W1 m ρ c) (Proc.devRef .tc main_v15) = _
  generalize hB : W1 m ρ c = B
  after_results_simp
  subst hB
  rw [pos_at_1 m ρ c, rs_at_1 m ρ c, zero_at_1 m ρ c]
  rfl

theorem row_at_2 : W2 m ρ c (Proc.devRef .tc main_v3) = Cert.ReferenceIdeal.ReadP.val_main_v3 (F := F) (m ((c : Thread nD τ).loc main_arg1)) := (Cert.KernelIdeal.Keep.W2_keep m ρ c main_v3 (by decide)).trans (row_at_1 m ρ c)
theorem col_at_2 : W2 m ρ c (Proc.devRef .tc main_v6) = Cert.ReferenceIdeal.ReadP.val_main_v6 (F := F) (m ((c : Thread nD τ).loc main_arg1)) := (Cert.KernelIdeal.Keep.W2_keep m ρ c main_v6 (by decide)).trans (col_at_1 m ρ c)
theorem ew_at_2 : W2 m ρ c (Proc.devRef .tc main_v8) = Cert.ReferenceIdeal.ReadP.val_main_v8 (F := F) (m ((c : Thread nD τ).loc main_arg2)) := (Cert.KernelIdeal.Keep.W2_keep m ρ c main_v8 (by decide)).trans (ew_at_1 m ρ c)

/-- The normalisation coefficient of every edge: the third stretch's gathers and products, from the stages before it. -/
theorem coef_at_3 : W3 m ρ c (Proc.devRef .tc main_v31) = Cert.ReferenceIdeal.ReadP.val_main_v31 (F := F) (m ((c : Thread nD τ).loc main_arg1)) (m ((c : Thread nD τ).loc main_arg2)) := by
  show StableHlo.after hostOps0_2 (W2 m ρ c) (Proc.devRef .tc main_v31) = _
  generalize hB : W2 m ρ c = B
  after_results_simp
  subst hB
  rw [dis_at_2 m ρ c, row_at_2 m ρ c, col_at_2 m ρ c, ew_at_2 m ρ c]
  rfl

/-- The source and target lists where the first kernel region is entered. -/
theorem row_at_3 : W3 m ρ c (Proc.devRef .tc main_v3) = Cert.ReferenceIdeal.ReadP.val_main_v3 (F := F) (m ((c : Thread nD τ).loc main_arg1)) := (Cert.KernelIdeal.Keep.W3_keep m ρ c main_v3 (by decide)).trans (row_at_2 m ρ c)
theorem col_at_3 : W3 m ρ c (Proc.devRef .tc main_v6) = Cert.ReferenceIdeal.ReadP.val_main_v6 (F := F) (m ((c : Thread nD τ).loc main_arg1)) := (Cert.KernelIdeal.Keep.W3_keep m ρ c main_v6 (by decide)).trans (col_at_2 m ρ c)

end Cert.Bridge.Base

end
-- ==== Proof.RegionMatmul.lean ====
import proofs.«159183_j16226386444400_1_alg».proof.Proof.Gen.KernelIdeal.Frame
import proofs.«159183_j16226386444400_1_alg».proof.ReferenceIdeal
import proofs.«159183_j16226386444400_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.Bridge.RegionMatmul

open Cert.KernelIdeal Cert.KernelIdeal.Gen Idealize.ShloMosaic Idealize.ShloMosaic.TcCoe Idealize.SL.Sem
open Idealize.ShloMosaic.ValueIdx

abbrev D := dot_S5000x128_S128x128_S5000x128_1_0_0_1_n_n

theorem lhsD_0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhsD_1 (i : S5000x128.Idx) (q : D.contr.Idx) : (D.lhsIdx i q 1).val = (q ⟨0, by decide⟩).val :=
  D.lhsIdx_val_of_single rfl i q
theorem rhsD_0 (i : S5000x128.Idx) (q : D.contr.Idx) : (D.rhsIdx i q 0).val = (q ⟨0, by decide⟩).val :=
  D.rhsIdx_val_of_single rfl i q
theorem rhsD_1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A block-sized product into a zero accumulator, at an index: the sum over the one contracted axis. -/
theorem blockdot_apply (a : FVec Ideal S5000x128 .bf16) (b : FVec Ideal S128x128 .bf16) (j : S5000x128.Idx) :
    matmul D none a b (constant (F := Ideal) S5000x128 .f32 0x00000000#32) j = ∑ k : Fin 128, a (ix2 (j 0) k) * b (ix2 k (j 1)) := by
  show FloatOps.matmul D none a b (constant S5000x128 .f32 0x00000000#32) j = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx j ((contrEquiv1 D 128 rfl rfl).symm k) = ix2 (j 0) k := funext fun a => Fin.ext (by
    match a with
    | ⟨0, _⟩ => exact lhsD_0 _ _
    | ⟨1, _⟩ => exact (lhsD_1 _ _).trans hk)
  have er : D.rhsIdx j ((contrEquiv1 D 128 rfl rfl).symm k) = ix2 k (j 1) := funext fun a => Fin.ext (by
    match a with
    | ⟨0, _⟩ => exact (rhsD_0 _ _).trans hk
    | ⟨1, _⟩ => exact rhsD_1 _ _)
  rw [el, er]
  rfl

/-- The matmul payload at an index: bf16 casts are the identity on exact values, the zero accumulator adds nothing,
    and the single contracted axis is summed over. -/
theorem pay0_apply (x0 : Vec Ideal S5000x128 .f32) (x1 : Vec Ideal S128x128 .f32) (j : S5000x128.Idx) :
    k0_pay1 (F := Ideal) x0 x1 j = ∑ k : Fin 128, x0 (ix2 (j 0) k) * x1 (ix2 k (j 1)) := by
  unfold k0_pay1
  exact blockdot_apply _ _ j

theorem pay2_apply (x0 : Vec Ideal S5000x128 .f32) (x1 : Vec Ideal S128x128 .f32) (j : S5000x128.Idx) :
    k2_pay1 (F := Ideal) x0 x1 j = ∑ k : Fin 128, x0 (ix2 (j 0) k) * x1 (ix2 k (j 1)) := by
  unfold k2_pay1
  rw [shapeCast_self]
  exact blockdot_apply _ _ j

theorem pay4_apply (x0 : Vec Ideal S5000x128 .f32) (x1 : Vec Ideal S128x128 .f32) (j : S5000x128.Idx) :
    k4_pay1 (F := Ideal) x0 x1 j = ∑ k : Fin 128, x0 (ix2 (j 0) k) * x1 (ix2 k (j 1)) := by
  unfold k4_pay1
  rw [shapeCast_self]
  exact blockdot_apply _ _ j

variable (V : (c : Dev nD) → (b : Ref sig .tc) → Buf (Elt Ideal) ((c : Thread nD τ).loc b))

theorem hz : (![0, 0] : Fin 2 → Nat) = fun _ => 0 := funext fun a => by fin_cases a <;> rfl

/-- The whole-array product: row `i 0` of `A` against column `i 1` of `B`. -/
abbrev G (A : S100000x128.Idx → EReal) (B : S128x128.Idx → EReal) : S100000x128.Idx → EReal :=
  fun i => ∑ k : Fin 128, A (ix2 (i 0) k) * B (ix2 k (i 1))

abbrev DR := Cert.ReferenceIdeal.dot_S100000x128_S128x128_S100000x128_1_0_0_1_n_n

theorem lhsDR_0 (i : S100000x128.Idx) (q : DR.contr.Idx) : (DR.lhsIdx i q 0).val = (i 0).val := by
  unfold DotDims.lhsIdx
  rw [dif_neg (show ¬(0 : Fin S100000x128.rank) ∈ DR.lhsBatch by decide), dif_pos (show (0 : Fin S100000x128.rank) ∈ DR.lhsNonContracting by decide)]
  rfl
theorem lhsDR_1 (i : S100000x128.Idx) (q : DR.contr.Idx) : (DR.lhsIdx i q 1).val = (q ⟨0, by decide⟩).val :=
  DR.lhsIdx_val_of_single rfl i q
theorem rhsDR_0 (i : S100000x128.Idx) (q : DR.contr.Idx) : (DR.rhsIdx i q 0).val = (q ⟨0, by decide⟩).val :=
  DR.rhsIdx_val_of_single rfl i q
theorem rhsDR_1 (i : S100000x128.Idx) (q : DR.contr.Idx) : (DR.rhsIdx i q 1).val = (i 1).val := by
  unfold DotDims.rhsIdx
  rw [dif_neg (show ¬(1 : Fin S128x128.rank) ∈ DR.rhsBatch by decide), dif_pos (show (1 : Fin S128x128.rank) ∈ DR.rhsNonContracting by decide)]
  rfl

/-- The host's whole-array contraction is the same function: at an index, the sum over the contracted axis. -/
theorem hostdot_eq (A : FVec Ideal S100000x128 .f32) (B : FVec Ideal S128x128 .f32) :
    Host.dotGeneral (F := Ideal) (φ₁ := .f32) (φ₂ := .f32) DR none A B = G A B := by
  funext i
  show FloatOps.dotGeneral DR none .single A B i = _
  rw [Ideal.dotGeneral_apply, ← Equiv.sum_comp (contrEquiv1 DR 128 rfl rfl).symm]
  refine Finset.sum_congr rfl fun k _ => ?_
  have hk := contrEquiv1_symm_val DR 128 rfl rfl k
  have el : DR.lhsIdx i ((contrEquiv1 DR 128 rfl rfl).symm k) = ix2 (i 0) k := funext fun a => Fin.ext (by
    match a with
    | ⟨0, _⟩ => exact lhsDR_0 _ _
    | ⟨1, _⟩ => exact (lhsDR_1 _ _).trans hk)
  have er : DR.rhsIdx i ((contrEquiv1 DR 128 rfl rfl).symm k) = ix2 k (i 1) := funext fun a => Fin.ext (by
    match a with
    | ⟨0, _⟩ => exact (rhsDR_0 _ _).trans hk
    | ⟨1, _⟩ => exact rhsDR_1 _ _)
  rw [el, er]
  rfl

/-! ## Region 0 -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One output element from the blocks a grid point holds: when row `j 0` of the activation block is row `i 0` of
    `A` and the weight block is `B` with `j 1 = i 1`, the payload's element `j` is the whole-array product's element `i`. -/
theorem point0 (A : S100000x128.Idx → EReal) (B : S128x128.Idx → EReal) (x0 : Vec Ideal S5000x128 .f32) (x1 : Vec Ideal S128x128 .f32)
    (j : S5000x128.Idx) (i : S100000x128.Idx)
    (h0 : ∀ k : Fin 128, x0 (ix2 (j 0) k) = A (ix2 (i 0) k))
    (h1 : ∀ k : Fin 128, x1 (ix2 k (j 1)) = B (ix2 k (i 1))) :
    k0_pay1 (F := Ideal) x0 x1 j = G A B i := by
  rw [pay0_apply]
  exact Finset.sum_congr rfl fun k _ => by rw [h0, h1]

theorem flushed0_eq (c : Dev nD) (t : Fin cfg0.N) :
    (dat0 (F := Ideal) V c).flushed 2 t = ((cfg0.win 2).blk t).view.read (Elt Ideal) (G (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts0 t
  funext j
  show k0_pay1 (F := Ideal) (iblk0 V c 0 t) (iblk0 V c 1 t) j = G (V c main_arg0) (V c main_arg3) (((cfg0.win 2).blk t).view.emb j)
  refine point0 _ _ _ _ _ _ (fun k => ?_) (fun k => ?_)
  · unfold iblk0
    rw [View.read_apply]
    show V c main_arg0 (((cfg0.win 0).blk t).view.emb (ix2 (j 0) k)) = V c main_arg0 (ix2 ((((cfg0.win 2).blk t).view.emb j) 0) k)
    congr 1
    funext a
    apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · unfold iblk0
    rw [View.read_apply]
    show V c main_arg3 (((cfg0.win 1).blk t).view.emb (ix2 k (j 1))) = V c main_arg3 (ix2 k ((((cfg0.win 2).blk t).view.emb j) 1))
    congr 1
    funext a
    apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index lies in point `t`'s output block iff each coordinate lies in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every row is in the block of the point numbered by its quotient by the block height. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨_, _, _, _, e20, e21⟩ := idx_facts0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e21]; omega

/-- The output array after the region, index by index. -/
theorem matmul_region0_apply (c : Dev nD) :
    ((dat0 (F := Ideal) V c).arrAt 2 cfg0.N : S100000x128.Idx → EReal) = G (V c main_arg0) (V c main_arg3) :=
  (dat0 (F := Ideal) V c).arrAt_eq_of_cover 2 (G (V c main_arg0) (V c main_arg3)) (fun t _ => flushed0_eq V c t) cover0

theorem matmul_region0 (c : Dev nD) :
    ((dat0 (F := Ideal) V c).arrAt 2 cfg0.N : S100000x128.Idx → EReal)
      = Host.dotGeneral (F := Ideal) (φ₁ := .f32) (φ₂ := .f32) Cert.ReferenceIdeal.dot_S100000x128_S128x128_S100000x128_1_0_0_1_n_n none (V c main_arg0) (V c main_arg3) :=
  (matmul_region0_apply V c).trans (hostdot_eq _ _).symm

/-! ## Region 2 -/

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One output element from the blocks a grid point holds: when row `j 0` of the activation block is row `i 0` of
    `A` and the weight block is `B` with `j 1 = i 1`, the payload's element `j` is the whole-array product's element `i`. -/
theorem point2 (A : S100000x128.Idx → EReal) (B : S128x128.Idx → EReal) (x0 : Vec Ideal S5000x128 .f32) (x1 : Vec Ideal S128x128 .f32)
    (j : S5000x128.Idx) (i : S100000x128.Idx)
    (h0 : ∀ k : Fin 128, x0 (ix2 (j 0) k) = A (ix2 (i 0) k))
    (h1 : ∀ k : Fin 128, x1 (ix2 k (j 1)) = B (ix2 k (i 1))) :
    k2_pay1 (F := Ideal) x0 x1 j = G A B i := by
  rw [pay2_apply]
  exact Finset.sum_congr rfl fun k _ => by rw [h0, h1]

theorem flushed2_eq (c : Dev nD) (t : Fin cfg2.N) :
    (dat2 (F := Ideal) V c).flushed 2 t = ((cfg2.win 2).blk t).view.read (Elt Ideal) (G (V c main_v63) (V c main_arg7)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e00, e01, e10, e11, e20, e21⟩ := idx_facts2 t
  funext j
  show k2_pay1 (F := Ideal) (iblk2 V c 0 t) (iblk2 V c 1 t) j = G (V c main_v63) (V c main_arg7) (((cfg2.win 2).blk t).view.emb j)
  refine point2 _ _ _ _ _ _ (fun k => ?_) (fun k => ?_)
  · unfold iblk2
    rw [View.read_apply]
    show V c main_v63 (((cfg2.win 0).blk t).view.emb (ix2 (j 0) k)) = V c main_v63 (ix2 ((((cfg2.win 2).blk t).view.emb j) 0) k)
    congr 1
    funext a
    apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · unfold iblk2
    rw [View.read_apply]
    show V c main_arg7 (((cfg2.win 1).blk t).view.emb (ix2 k (j 1))) = V c main_arg7 (ix2 k ((((cfg2.win 2).blk t).view.emb j) 1))
    congr 1
    funext a
    apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index lies in point `t`'s output block iff each coordinate lies in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v64).slice (win2_2.rect t)).set ↔ _
  rw [View.set_slice_whole, Rect.mem_set_unit]
  exact Iff.rfl

/-- Every row is in the block of the point numbered by its quotient by the block height. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨_, _, _, _, e20, e21⟩ := idx_facts2 ⟨(i 0).val / 5000, hlt⟩
  refine ⟨⟨(i 0).val / 5000, hlt⟩, flush2_2 _, ?_⟩
  rw [mem_blk2]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win2_2.index ⟨(i 0).val / 5000, hlt⟩ (1 : Fin 2) * 128 ≤ (i 1).val ∧ (i 1).val < win2_2.index ⟨(i 0).val / 5000, hlt⟩ (1 : Fin 2) * 128 + 128
    rw [e21]; omega

/-- The output array after the region, index by index. -/
theorem matmul_region2_apply (c : Dev nD) :
    ((dat2 (F := Ideal) V c).arrAt 2 cfg2.N : S100000x128.Idx → EReal) = G (V c main_v63) (V c main_arg7) :=
  (dat2 (F := Ideal) V c).arrAt_eq_of_cover 2 (G (V c main_v63) (V c main_arg7)) (fun t _ => flushed2_eq V c t) cover2

theorem matmul_region2 (c : Dev nD) :
    ((dat2 (F := Ideal) V c).arrAt 2 cfg2.N : S100000x128.Idx → EReal)
      = Host.dotGeneral (F := Ideal) (φ₁ := .f32) (φ₂ := .f32) Cert.ReferenceIdeal.dot_S100000x128_S128x128_S100000x128_1_0_0_1_n_n none (V c main_v63) (V c main_arg7) :=
  (matmul_region2_apply V c).trans (hostdot_eq _ _).symm

/-! ## Region 4 -/

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- One output element from the blocks a grid point holds: when row `j 0` of the activation block is row `i 0` of
    `A` and the weight block is `B` with `j 1 = i 1`, the payload's element `j` is the whole-array product's element `i`. -/
theorem point4 (A : S100000x128.Idx → EReal) (B : S128x128.Idx → EReal) (x0 : Vec Ideal S5000x128 .f32) (x1 : Vec Ideal S128x128 .f32)
    (j : S5000x128.Idx) (i : S100000x128.Idx)
    (h0 : ∀ k : Fin 128, x0 (ix2 (j 0) k) = A (ix2 (i 0) k))
    (h1 : ∀ k : Fin 128, x1 (ix2 k (j 1)) = B (ix2 k (i 1))) :
    k4_pay1 (F := Ideal) x0 x1 j = G A B i := by
  rw [pay4_apply]
  exact Finset.sum_congr rfl fun k _ => by rw [h0, h1]

theorem flushed4_eq (c : Dev nD) (t : Fin cfg4.N) :
    (dat4 (F := Ideal) V c).flushed 2 t = ((cfg4.win 2).blk t).view.read (Elt Ideal) (G (V c main_v95) (V c main_arg11)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e00, e01, e10, e11, e20, e21⟩ := idx_facts4 t
  funext j
  show k4_pay1 (F := Ideal) (iblk4 V c 0 t) (iblk4 V c 1 t) j = G (V c main_v95) (V c main_arg11) (((cfg4.win 2).blk t).view.emb j)
  refine point4 _ _ _ _ _ _ (fun k => ?_) (fun k => ?_)
  · unfold iblk4
    rw [View.read_apply]
    show V c main_v95 (((cfg4.win 0).blk t).view.emb (ix2 (j 0) k)) = V c main_v95 (ix2 ((((cfg4.win 2).blk t).view.emb j) 0) k)
    congr 1
    funext a
    apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · unfold iblk4
    rw [View.read_apply]
    show V c main_arg11 (((cfg4.win 1).blk t).view.emb (ix2 k (j 1))) = V c main_arg11 (ix2 k ((((cfg4.win 2).blk t).view.emb j) 1))
    congr 1
    funext a
    apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega

/-- An index lies in point `t`'s output block iff each coordinate lies in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v96).slice (win4_2.rect t)).set ↔ _
  rw [View.set_slice_whole, Rect.mem_set_unit]
  exact Iff.rfl

/-- Every row is in the block of the point numbered by its quotient by the block height. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  have hlt : (i 0).val / 5000 < cfg4.N := by rw [hN]; omega
  obtain ⟨_, _, _, _, e20, e21⟩ := idx_facts4 ⟨(i 0).val / 5000, hlt⟩
  refine ⟨⟨(i 0).val / 5000, hlt⟩, flush4_2 _, ?_⟩
  rw [mem_blk4]
  intro a
  match a with
  | ⟨0, _⟩ =>
    show win4_2.index ⟨(i 0).val / 5000, hlt⟩ (0 : Fin 2) * 5000 ≤ (i 0).val ∧ (i 0).val < win4_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win4_2.index ⟨(i 0).val / 5000, hlt⟩ (1 : Fin 2) * 128 ≤ (i 1).val ∧ (i 1).val < win4_2.index ⟨(i 0).val / 5000, hlt⟩ (1 : Fin 2) * 128 + 128
    rw [e21]; omega

/-- The output array after the region, index by index. -/
theorem matmul_region4_apply (c : Dev nD) :
    ((dat4 (F := Ideal) V c).arrAt 2 cfg4.N : S100000x128.Idx → EReal) = G (V c main_v95) (V c main_arg11) :=
  (dat4 (F := Ideal) V c).arrAt_eq_of_cover 2 (G (V c main_v95) (V c main_arg11)) (fun t _ => flushed4_eq V c t) cover4

theorem matmul_region4 (c : Dev nD) :
    ((dat4 (F := Ideal) V c).arrAt 2 cfg4.N : S100000x128.Idx → EReal)
      = Host.dotGeneral (F := Ideal) (φ₁ := .f32) (φ₂ := .f32) Cert.ReferenceIdeal.dot_S100000x128_S128x128_S100000x128_1_0_0_1_n_n none (V c main_v95) (V c main_arg11) :=
  (matmul_region4_apply V c).trans (hostdot_eq _ _).symm

end Cert.Bridge.RegionMatmul
end
-- ==== Proof.RegionBn.lean ====
import proofs.«159183_j16226386444400_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.RegionBn

open Cert.KernelIdeal Cert.KernelIdeal.Gen Idealize.ShloMosaic Idealize.ShloMosaic.TcCoe Idealize.SL.Sem
open Idealize.ShloMosaic.ValueIdx

/-- One element of normalize–scale–shift–clamp: `max (((z - μ) · rsqrt (σ² + ε)) · γ + β) 0`, the constants kept as their words. -/
abbrev bnrelu (z g b mu var : EReal) : EReal :=
  max ((z - mu) * Ideal.rsqrt (var + Ideal.ofBits .f32 0x3727C5AC#32) * g + b) (Ideal.ofBits .f32 0x00000000#32)

/-- The same element spelt with the instance's scalar operations (all of them are the arithmetic above by definition). -/
theorem bnrelu_eq_ops (z g b mu var : Ideal .f32) :
    bnrelu z g b mu var = FloatOps.maximumf (FloatOps.addf (FloatOps.mulf (FloatOps.mulf (FloatOps.subf z mu)
        (FloatOps.hostUnary .rsqrt (FloatOps.addf var (FloatOps.ofBits .f32 0x3727C5AC#32)))) g) b) (FloatOps.ofBits .f32 0x00000000#32) := rfl

/-- The whole-array function: element `i` from `Z i` and the four rows at row 0, column `i 1`. -/
abbrev Gbn (Z : S100000x128.Idx → EReal) (Mg Mb Mm Mv : S1x128.Idx → EReal) : S100000x128.Idx → EReal :=
  fun i => bnrelu (Z i) (Mg (ix2 (0 : Fin 1) (i 1))) (Mb (ix2 (0 : Fin 1) (i 1))) (Mm (ix2 (0 : Fin 1) (i 1))) (Mv (ix2 (0 : Fin 1) (i 1)))

theorem hz : (![0, 0] : Fin 2 → Nat) = fun _ => 0 := funext fun a => by fin_cases a <;> rfl

/-- A one-row vector broadcast down a block reads, at `j`, the row at column `j 1`. -/
theorem bcast_row {α : Type} (v : S1x128.Idx → α) (j : S5000x128.Idx) :
    broadcastTo S5000x128 v broadcasts_S1x128_S5000x128 j = v (ix2 (0 : Fin 1) (j 1)) := by
  refine broadcastTo_apply v broadcasts_S1x128_S5000x128 j (ix2 (0 : Fin 1) (j 1)) fun ax => ?_
  match ax with
  | ⟨0, _⟩ => rfl
  | ⟨1, _⟩ => show (j 1).val = if (128 : Nat) = 1 then 0 else (j 1).val; rw [if_neg (by decide)]

/-! ## Region 1 -/

/-- The payload at an index: every step is pointwise, the rows read at row 0 and the element's column. -/
theorem pay1_apply (v0 : Vec Ideal S5000x128 .f32) (v2 v4 v6 v8 : Vec Ideal S1x128 .f32) (j : S5000x128.Idx) :
    k1_pay1 (F := Ideal) v0 v2 v4 v6 v8 j
      = bnrelu (v0 j) (v6 (ix2 (0 : Fin 1) (j 1))) (v8 (ix2 (0 : Fin 1) (j 1))) (v2 (ix2 (0 : Fin 1) (j 1))) (v4 (ix2 (0 : Fin 1) (j 1))) := by
  unfold k1_pay1
  simp only [shapeCast_self, maximumf_apply, addf_apply, mulf_apply, subf_apply, bcast_row, broadcast_apply]
  rfl

/-- One output element from the blocks a grid point holds. -/
theorem point1 (Z : S100000x128.Idx → EReal) (Mg Mb Mm Mv : S1x128.Idx → EReal)
    (v0 : Vec Ideal S5000x128 .f32) (v2 v4 v6 v8 : Vec Ideal S1x128 .f32) (j : S5000x128.Idx) (i : S100000x128.Idx)
    (h0 : v0 j = Z i)
    (hg : v6 (ix2 (0 : Fin 1) (j 1)) = Mg (ix2 (0 : Fin 1) (i 1)))
    (hb : v8 (ix2 (0 : Fin 1) (j 1)) = Mb (ix2 (0 : Fin 1) (i 1)))
    (hm : v2 (ix2 (0 : Fin 1) (j 1)) = Mm (ix2 (0 : Fin 1) (i 1)))
    (hv : v4 (ix2 (0 : Fin 1) (j 1)) = Mv (ix2 (0 : Fin 1) (i 1))) :
    k1_pay1 (F := Ideal) v0 v2 v4 v6 v8 j = Gbn Z Mg Mb Mm Mv i := by
  rw [pay1_apply, h0, hg, hb, hm, hv]

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The activation window's block at a point is the output block's rows of its array. -/
theorem z1_read (c : Dev nD) (t : Fin cfg1.N) (j : S5000x128.Idx) :
    (iblk1 V c 0 t : Vec Ideal S5000x128 .f32) j = V c main_v48 (((cfg1.win 5).blk t).view.emb j) := by
  obtain ⟨e00, e01, e10, e11, e20, e21, e30, e31, e40, e41, e50, e51⟩ := idx_facts1 t
  unfold iblk1
  rw [View.read_apply]
  show V c main_v48 (((cfg1.win 0).blk t).view.emb j) = V c main_v48 (((cfg1.win 5).blk t).view.emb j)
  refine congrArg _ (funext fun a => Fin.ext ?_)
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 128 + 1 * (j 1).val = win1_5.index t (1 : Fin 2) * 128 + 1 * (j 1).val; omega

/-- Row window 1's block is its whole array: read at row 0 and a column of the output block, it is the array at row 0 and
    that element's column. -/
theorem row1_1_read (c : Dev nD) (t : Fin cfg1.N) (j : S5000x128.Idx) :
    (iblk1 V c 1 t : Vec Ideal S1x128 .f32) (ix2 (0 : Fin 1) (j 1))
      = V c main_v59 (ix2 (0 : Fin 1) ((((cfg1.win 5).blk t).view.emb j) 1)) := by
  obtain ⟨e00, e01, e10, e11, e20, e21, e30, e31, e40, e41, e50, e51⟩ := idx_facts1 t
  unfold iblk1
  rw [View.read_apply]
  show V c main_v59 (((cfg1.win 1).blk t).view.emb (ix2 (0 : Fin 1) (j 1))) = V c main_v59 (ix2 (0 : Fin 1) ((((cfg1.win 5).blk t).view.emb j) 1))
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * (j 1).val = win1_5.index t (1 : Fin 2) * 128 + 1 * (j 1).val; omega

/-- Row window 2's block is its whole array: read at row 0 and a column of the output block, it is the array at row 0 and
    that element's column. -/
theorem row1_2_read (c : Dev nD) (t : Fin cfg1.N) (j : S5000x128.Idx) :
    (iblk1 V c 2 t : Vec Ideal S1x128 .f32) (ix2 (0 : Fin 1) (j 1))
      = V c main_v60 (ix2 (0 : Fin 1) ((((cfg1.win 5).blk t).view.emb j) 1)) := by
  obtain ⟨e00, e01, e10, e11, e20, e21, e30, e31, e40, e41, e50, e51⟩ := idx_facts1 t
  unfold iblk1
  rw [View.read_apply]
  show V c main_v60 (((cfg1.win 2).blk t).view.emb (ix2 (0 : Fin 1) (j 1))) = V c main_v60 (ix2 (0 : Fin 1) ((((cfg1.win 5).blk t).view.emb j) 1))
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * (j 1).val = win1_5.index t (1 : Fin 2) * 128 + 1 * (j 1).val; omega

/-- Row window 3's block is its whole array: read at row 0 and a column of the output block, it is the array at row 0 and
    that element's column. -/
theorem row1_3_read (c : Dev nD) (t : Fin cfg1.N) (j : S5000x128.Idx) :
    (iblk1 V c 3 t : Vec Ideal S1x128 .f32) (ix2 (0 : Fin 1) (j 1))
      = V c main_v61 (ix2 (0 : Fin 1) ((((cfg1.win 5).blk t).view.emb j) 1)) := by
  obtain ⟨e00, e01, e10, e11, e20, e21, e30, e31, e40, e41, e50, e51⟩ := idx_facts1 t
  unfold iblk1
  rw [View.read_apply]
  show V c main_v61 (((cfg1.win 3).blk t).view.emb (ix2 (0 : Fin 1) (j 1))) = V c main_v61 (ix2 (0 : Fin 1) ((((cfg1.win 5).blk t).view.emb j) 1))
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * (j 1).val = win1_5.index t (1 : Fin 2) * 128 + 1 * (j 1).val; omega

/-- Row window 4's block is its whole array: read at row 0 and a column of the output block, it is the array at row 0 and
    that element's column. -/
theorem row1_4_read (c : Dev nD) (t : Fin cfg1.N) (j : S5000x128.Idx) :
    (iblk1 V c 4 t : Vec Ideal S1x128 .f32) (ix2 (0 : Fin 1) (j 1))
      = V c main_v62 (ix2 (0 : Fin 1) ((((cfg1.win 5).blk t).view.emb j) 1)) := by
  obtain ⟨e00, e01, e10, e11, e20, e21, e30, e31, e40, e41, e50, e51⟩ := idx_facts1 t
  unfold iblk1
  rw [View.read_apply]
  show V c main_v62 (((cfg1.win 4).blk t).view.emb (ix2 (0 : Fin 1) (j 1))) = V c main_v62 (ix2 (0 : Fin 1) ((((cfg1.win 5).blk t).view.emb j) 1))
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * (j 1).val = win1_5.index t (1 : Fin 2) * 128 + 1 * (j 1).val; omega

theorem flushed1_eq (c : Dev nD) (t : Fin cfg1.N) :
    (dat1 (F := Ideal) V c).flushed 5 t
      = ((cfg1.win 5).blk t).view.read (Elt Ideal) (Gbn (V c main_v48) (V c main_v59) (V c main_v60) (V c main_v61) (V c main_v62)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  show k1_pay1 (F := Ideal) (iblk1 V c 0 t) (iblk1 V c 3 t) (iblk1 V c 4 t) (iblk1 V c 1 t) (iblk1 V c 2 t) j
      = Gbn (V c main_v48) (V c main_v59) (V c main_v60) (V c main_v61) (V c main_v62) (((cfg1.win 5).blk t).view.emb j)
  exact point1 _ _ _ _ _ _ _ _ _ _ _ _ (z1_read V c t j) (row1_1_read V c t j) (row1_2_read V c t j) (row1_3_read V c t j) (row1_4_read V c t j)

/-- An index lies in point `t`'s output block iff each coordinate lies in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v63).slice (win1_5.rect t)).set ↔ _
  rw [View.set_slice_whole, Rect.mem_set_unit]
  exact Iff.rfl

/-- Every row is in the block of the point numbered by its quotient by the block height. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨_, _, _, _, _, _, _, _, _, _, e50, e51⟩ := idx_facts1 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e51]; omega

/-- The output array after the region, as one function of the region's input arrays. -/
theorem bn_region1_eq (c : Dev nD) :
    ((dat1 (F := Ideal) V c).arrAt 5 cfg1.N : S100000x128.Idx → EReal)
      = Gbn (V c main_v48) (V c main_v59) (V c main_v60) (V c main_v61) (V c main_v62) :=
  (dat1 (F := Ideal) V c).arrAt_eq_of_cover 5 (Gbn (V c main_v48) (V c main_v59) (V c main_v60) (V c main_v61) (V c main_v62)) (fun t _ => flushed1_eq V c t) cover1

/-- The same, at an index: the input element, the four rows at row 0 and the element's column. -/
theorem bn_region1 (c : Dev nD) (i : S100000x128.Idx) :
    ((dat1 (F := Ideal) V c).arrAt 5 cfg1.N : S100000x128.Idx → EReal) i
      = bnrelu ((V c main_v48 : S100000x128.Idx → EReal) i) ((V c main_v59 : S1x128.Idx → EReal) (ix2 (0 : Fin 1) (i 1)))
          ((V c main_v60 : S1x128.Idx → EReal) (ix2 (0 : Fin 1) (i 1))) ((V c main_v61 : S1x128.Idx → EReal) (ix2 (0 : Fin 1) (i 1)))
          ((V c main_v62 : S1x128.Idx → EReal) (ix2 (0 : Fin 1) (i 1))) :=
  congrFun (bn_region1_eq V c) i

/-! ## Region 3 -/

/-- The payload at an index: every step is pointwise, the rows read at row 0 and the element's column. -/
theorem pay3_apply (v0 : Vec Ideal S5000x128 .f32) (v2 v4 v6 v8 : Vec Ideal S1x128 .f32) (j : S5000x128.Idx) :
    k3_pay1 (F := Ideal) v0 v2 v4 v6 v8 j
      = bnrelu (v0 j) (v6 (ix2 (0 : Fin 1) (j 1))) (v8 (ix2 (0 : Fin 1) (j 1))) (v2 (ix2 (0 : Fin 1) (j 1))) (v4 (ix2 (0 : Fin 1) (j 1))) := by
  unfold k3_pay1
  simp only [shapeCast_self, maximumf_apply, addf_apply, mulf_apply, subf_apply, bcast_row, broadcast_apply]
  rfl

/-- One output element from the blocks a grid point holds. -/
theorem point3 (Z : S100000x128.Idx → EReal) (Mg Mb Mm Mv : S1x128.Idx → EReal)
    (v0 : Vec Ideal S5000x128 .f32) (v2 v4 v6 v8 : Vec Ideal S1x128 .f32) (j : S5000x128.Idx) (i : S100000x128.Idx)
    (h0 : v0 j = Z i)
    (hg : v6 (ix2 (0 : Fin 1) (j 1)) = Mg (ix2 (0 : Fin 1) (i 1)))
    (hb : v8 (ix2 (0 : Fin 1) (j 1)) = Mb (ix2 (0 : Fin 1) (i 1)))
    (hm : v2 (ix2 (0 : Fin 1) (j 1)) = Mm (ix2 (0 : Fin 1) (i 1)))
    (hv : v4 (ix2 (0 : Fin 1) (j 1)) = Mv (ix2 (0 : Fin 1) (i 1))) :
    k3_pay1 (F := Ideal) v0 v2 v4 v6 v8 j = Gbn Z Mg Mb Mm Mv i := by
  rw [pay3_apply, h0, hg, hb, hm, hv]

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The activation window's block at a point is the output block's rows of its array. -/
theorem z3_read (c : Dev nD) (t : Fin cfg3.N) (j : S5000x128.Idx) :
    (iblk3 V c 0 t : Vec Ideal S5000x128 .f32) j = V c main_v80 (((cfg3.win 5).blk t).view.emb j) := by
  obtain ⟨e00, e01, e10, e11, e20, e21, e30, e31, e40, e41, e50, e51⟩ := idx_facts3 t
  unfold iblk3
  rw [View.read_apply]
  show V c main_v80 (((cfg3.win 0).blk t).view.emb j) = V c main_v80 (((cfg3.win 5).blk t).view.emb j)
  refine congrArg _ (funext fun a => Fin.ext ?_)
  match a with
  | ⟨0, _⟩ => show win3_0.index t (0 : Fin 2) * 5000 + 1 * (j 0).val = win3_5.index t (0 : Fin 2) * 5000 + 1 * (j 0).val; omega
  | ⟨1, _⟩ => show win3_0.index t (1 : Fin 2) * 128 + 1 * (j 1).val = win3_5.index t (1 : Fin 2) * 128 + 1 * (j 1).val; omega

/-- Row window 1's block is its whole array: read at row 0 and a column of the output block, it is the array at row 0 and
    that element's column. -/
theorem row3_1_read (c : Dev nD) (t : Fin cfg3.N) (j : S5000x128.Idx) :
    (iblk3 V c 1 t : Vec Ideal S1x128 .f32) (ix2 (0 : Fin 1) (j 1))
      = V c main_v91 (ix2 (0 : Fin 1) ((((cfg3.win 5).blk t).view.emb j) 1)) := by
  obtain ⟨e00, e01, e10, e11, e20, e21, e30, e31, e40, e41, e50, e51⟩ := idx_facts3 t
  unfold iblk3
  rw [View.read_apply]
  show V c main_v91 (((cfg3.win 1).blk t).view.emb (ix2 (0 : Fin 1) (j 1))) = V c main_v91 (ix2 (0 : Fin 1) ((((cfg3.win 5).blk t).view.emb j) 1))
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * (j 1).val = win3_5.index t (1 : Fin 2) * 128 + 1 * (j 1).val; omega

/-- Row window 2's block is its whole array: read at row 0 and a column of the output block, it is the array at row 0 and
    that element's column. -/
theorem row3_2_read (c : Dev nD) (t : Fin cfg3.N) (j : S5000x128.Idx) :
    (iblk3 V c 2 t : Vec Ideal S1x128 .f32) (ix2 (0 : Fin 1) (j 1))
      = V c main_v92 (ix2 (0 : Fin 1) ((((cfg3.win 5).blk t).view.emb j) 1)) := by
  obtain ⟨e00, e01, e10, e11, e20, e21, e30, e31, e40, e41, e50, e51⟩ := idx_facts3 t
  unfold iblk3
  rw [View.read_apply]
  show V c main_v92 (((cfg3.win 2).blk t).view.emb (ix2 (0 : Fin 1) (j 1))) = V c main_v92 (ix2 (0 : Fin 1) ((((cfg3.win 5).blk t).view.emb j) 1))
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * (j 1).val = win3_5.index t (1 : Fin 2) * 128 + 1 * (j 1).val; omega

/-- Row window 3's block is its whole array: read at row 0 and a column of the output block, it is the array at row 0 and
    that element's column. -/
theorem row3_3_read (c : Dev nD) (t : Fin cfg3.N) (j : S5000x128.Idx) :
    (iblk3 V c 3 t : Vec Ideal S1x128 .f32) (ix2 (0 : Fin 1) (j 1))
      = V c main_v93 (ix2 (0 : Fin 1) ((((cfg3.win 5).blk t).view.emb j) 1)) := by
  obtain ⟨e00, e01, e10, e11, e20, e21, e30, e31, e40, e41, e50, e51⟩ := idx_facts3 t
  unfold iblk3
  rw [View.read_apply]
  show V c main_v93 (((cfg3.win 3).blk t).view.emb (ix2 (0 : Fin 1) (j 1))) = V c main_v93 (ix2 (0 : Fin 1) ((((cfg3.win 5).blk t).view.emb j) 1))
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * (j 1).val = win3_5.index t (1 : Fin 2) * 128 + 1 * (j 1).val; omega

/-- Row window 4's block is its whole array: read at row 0 and a column of the output block, it is the array at row 0 and
    that element's column. -/
theorem row3_4_read (c : Dev nD) (t : Fin cfg3.N) (j : S5000x128.Idx) :
    (iblk3 V c 4 t : Vec Ideal S1x128 .f32) (ix2 (0 : Fin 1) (j 1))
      = V c main_v94 (ix2 (0 : Fin 1) ((((cfg3.win 5).blk t).view.emb j) 1)) := by
  obtain ⟨e00, e01, e10, e11, e20, e21, e30, e31, e40, e41, e50, e51⟩ := idx_facts3 t
  unfold iblk3
  rw [View.read_apply]
  show V c main_v94 (((cfg3.win 4).blk t).view.emb (ix2 (0 : Fin 1) (j 1))) = V c main_v94 (ix2 (0 : Fin 1) ((((cfg3.win 5).blk t).view.emb j) 1))
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * (j 1).val = win3_5.index t (1 : Fin 2) * 128 + 1 * (j 1).val; omega

theorem flushed3_eq (c : Dev nD) (t : Fin cfg3.N) :
    (dat3 (F := Ideal) V c).flushed 5 t
      = ((cfg3.win 5).blk t).view.read (Elt Ideal) (Gbn (V c main_v80) (V c main_v91) (V c main_v92) (V c main_v93) (V c main_v94)) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  funext j
  show k3_pay1 (F := Ideal) (iblk3 V c 0 t) (iblk3 V c 3 t) (iblk3 V c 4 t) (iblk3 V c 1 t) (iblk3 V c 2 t) j
      = Gbn (V c main_v80) (V c main_v91) (V c main_v92) (V c main_v93) (V c main_v94) (((cfg3.win 5).blk t).view.emb j)
  exact point3 _ _ _ _ _ _ _ _ _ _ _ _ (z3_read V c t j) (row3_1_read V c t j) (row3_2_read V c t j) (row3_3_read V c t j) (row3_4_read V c t j)

/-- An index lies in point `t`'s output block iff each coordinate lies in the block's range on its axis. -/
theorem mem_blk3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v95).slice (win3_5.rect t)).set ↔ _
  rw [View.set_slice_whole, Rect.mem_set_unit]
  exact Iff.rfl

/-- Every row is in the block of the point numbered by its quotient by the block height. -/
theorem cover3 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have hlt : (i 0).val / 5000 < cfg3.N := by rw [hN]; omega
  obtain ⟨_, _, _, _, _, _, _, _, _, _, e50, e51⟩ := idx_facts3 ⟨(i 0).val / 5000, hlt⟩
  refine ⟨⟨(i 0).val / 5000, hlt⟩, flush3_5 _, ?_⟩
  rw [mem_blk3]
  intro a
  match a with
  | ⟨0, _⟩ =>
    show win3_5.index ⟨(i 0).val / 5000, hlt⟩ (0 : Fin 2) * 5000 ≤ (i 0).val ∧ (i 0).val < win3_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, hlt⟩ (1 : Fin 2) * 128 ≤ (i 1).val ∧ (i 1).val < win3_5.index ⟨(i 0).val / 5000, hlt⟩ (1 : Fin 2) * 128 + 128
    rw [e51]; omega

/-- The output array after the region, as one function of the region's input arrays. -/
theorem bn_region3_eq (c : Dev nD) :
    ((dat3 (F := Ideal) V c).arrAt 5 cfg3.N : S100000x128.Idx → EReal)
      = Gbn (V c main_v80) (V c main_v91) (V c main_v92) (V c main_v93) (V c main_v94) :=
  (dat3 (F := Ideal) V c).arrAt_eq_of_cover 5 (Gbn (V c main_v80) (V c main_v91) (V c main_v92) (V c main_v93) (V c main_v94)) (fun t _ => flushed3_eq V c t) cover3

/-- The same, at an index: the input element, the four rows at row 0 and the element's column. -/
theorem bn_region3 (c : Dev nD) (i : S100000x128.Idx) :
    ((dat3 (F := Ideal) V c).arrAt 5 cfg3.N : S100000x128.Idx → EReal) i
      = bnrelu ((V c main_v80 : S100000x128.Idx → EReal) i) ((V c main_v91 : S1x128.Idx → EReal) (ix2 (0 : Fin 1) (i 1)))
          ((V c main_v92 : S1x128.Idx → EReal) (ix2 (0 : Fin 1) (i 1))) ((V c main_v93 : S1x128.Idx → EReal) (ix2 (0 : Fin 1) (i 1)))
          ((V c main_v94 : S1x128.Idx → EReal) (ix2 (0 : Fin 1) (i 1))) :=
  congrFun (bn_region3_eq V c) i

/-! ## Region 5 -/

/-- The payload at an index: every step is pointwise, the rows read at row 0 and the element's column. -/
theorem pay5_apply (v0 : Vec Ideal S5000x128 .f32) (v2 v4 v6 v8 : Vec Ideal S1x128 .f32) (j : S5000x128.Idx) :
    k5_pay1 (F := Ideal) v0 v2 v4 v6 v8 j
      = bnrelu (v0 j) (v6 (ix2 (0 : Fin 1) (j 1))) (v8 (ix2 (0 : Fin 1) (j 1))) (v2 (ix2 (0 : Fin 1) (j 1))) (v4 (ix2 (0 : Fin 1) (j 1))) := by
  unfold k5_pay1
  simp only [shapeCast_self, maximumf_apply, addf_apply, mulf_apply, subf_apply, bcast_row, broadcast_apply]
  rfl

/-- One output element from the blocks a grid point holds. -/
theorem point5 (Z : S100000x128.Idx → EReal) (Mg Mb Mm Mv : S1x128.Idx → EReal)
    (v0 : Vec Ideal S5000x128 .f32) (v2 v4 v6 v8 : Vec Ideal S1x128 .f32) (j : S5000x128.Idx) (i : S100000x128.Idx)
    (h0 : v0 j = Z i)
    (hg : v6 (ix2 (0 : Fin 1) (j 1)) = Mg (ix2 (0 : Fin 1) (i 1)))
    (hb : v8 (ix2 (0 : Fin 1) (j 1)) = Mb (ix2 (0 : Fin 1) (i 1)))
    (hm : v2 (ix2 (0 : Fin 1) (j 1)) = Mm (ix2 (0 : Fin 1) (i 1)))
    (hv : v4 (ix2 (0 : Fin 1) (j 1)) = Mv (ix2 (0 : Fin 1) (i 1))) :
    k5_pay1 (F := Ideal) v0 v2 v4 v6 v8 j = Gbn Z Mg Mb Mm Mv i := by
  rw [pay5_apply, h0, hg, hb, hm, hv]

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The activation window's block at a point is the output block's rows of its array. -/
theorem z5_read (c : Dev nD) (t : Fin cfg5.N) (j : S5000x128.Idx) :
    (iblk5 V c 0 t : Vec Ideal S5000x128 .f32) j = V c main_v112 (((cfg5.win 5).blk t).view.emb j) := by
  obtain ⟨e00, e01, e10, e11, e20, e21, e30, e31, e40, e41, e50, e51⟩ := idx_facts5 t
  unfold iblk5
  rw [View.read_apply]
  show V c main_v112 (((cfg5.win 0).blk t).view.emb j) = V c main_v112 (((cfg5.win 5).blk t).view.emb j)
  refine congrArg _ (funext fun a => Fin.ext ?_)
  match a with
  | ⟨0, _⟩ => show win5_0.index t (0 : Fin 2) * 5000 + 1 * (j 0).val = win5_5.index t (0 : Fin 2) * 5000 + 1 * (j 0).val; omega
  | ⟨1, _⟩ => show win5_0.index t (1 : Fin 2) * 128 + 1 * (j 1).val = win5_5.index t (1 : Fin 2) * 128 + 1 * (j 1).val; omega

/-- Row window 1's block is its whole array: read at row 0 and a column of the output block, it is the array at row 0 and
    that element's column. -/
theorem row5_1_read (c : Dev nD) (t : Fin cfg5.N) (j : S5000x128.Idx) :
    (iblk5 V c 1 t : Vec Ideal S1x128 .f32) (ix2 (0 : Fin 1) (j 1))
      = V c main_v123 (ix2 (0 : Fin 1) ((((cfg5.win 5).blk t).view.emb j) 1)) := by
  obtain ⟨e00, e01, e10, e11, e20, e21, e30, e31, e40, e41, e50, e51⟩ := idx_facts5 t
  unfold iblk5
  rw [View.read_apply]
  show V c main_v123 (((cfg5.win 1).blk t).view.emb (ix2 (0 : Fin 1) (j 1))) = V c main_v123 (ix2 (0 : Fin 1) ((((cfg5.win 5).blk t).view.emb j) 1))
  refine congrArg _ (funext fun a => Fin.ext ?_)
  match a with
  | ⟨0, _⟩ => show win5_1.index t (0 : Fin 2) * 1 + 1 * 0 = 0; omega
  | ⟨1, _⟩ => show win5_1.index t (1 : Fin 2) * 128 + 1 * (j 1).val = win5_5.index t (1 : Fin 2) * 128 + 1 * (j 1).val; omega

/-- Row window 2's block is its whole array: read at row 0 and a column of the output block, it is the array at row 0 and
    that element's column. -/
theorem row5_2_read (c : Dev nD) (t : Fin cfg5.N) (j : S5000x128.Idx) :
    (iblk5 V c 2 t : Vec Ideal S1x128 .f32) (ix2 (0 : Fin 1) (j 1))
      = V c main_v124 (ix2 (0 : Fin 1) ((((cfg5.win 5).blk t).view.emb j) 1)) := by
  obtain ⟨e00, e01, e10, e11, e20, e21, e30, e31, e40, e41, e50, e51⟩ := idx_facts5 t
  unfold iblk5
  rw [View.read_apply]
  show V c main_v124 (((cfg5.win 2).blk t).view.emb (ix2 (0 : Fin 1) (j 1))) = V c main_v124 (ix2 (0 : Fin 1) ((((cfg5.win 5).blk t).view.emb j) 1))
  refine congrArg _ (funext fun a => Fin.ext ?_)
  match a with
  | ⟨0, _⟩ => show win5_2.index t (0 : Fin 2) * 1 + 1 * 0 = 0; omega
  | ⟨1, _⟩ => show win5_2.index t (1 : Fin 2) * 128 + 1 * (j 1).val = win5_5.index t (1 : Fin 2) * 128 + 1 * (j 1).val; omega

/-- Row window 3's block is its whole array: read at row 0 and a column of the output block, it is the array at row 0 and
    that element's column. -/
theorem row5_3_read (c : Dev nD) (t : Fin cfg5.N) (j : S5000x128.Idx) :
    (iblk5 V c 3 t : Vec Ideal S1x128 .f32) (ix2 (0 : Fin 1) (j 1))
      = V c main_v125 (ix2 (0 : Fin 1) ((((cfg5.win 5).blk t).view.emb j) 1)) := by
  obtain ⟨e00, e01, e10, e11, e20, e21, e30, e31, e40, e41, e50, e51⟩ := idx_facts5 t
  unfold iblk5
  rw [View.read_apply]
  show V c main_v125 (((cfg5.win 3).blk t).view.emb (ix2 (0 : Fin 1) (j 1))) = V c main_v125 (ix2 (0 : Fin 1) ((((cfg5.win 5).blk t).view.emb j) 1))
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * (j 1).val = win5_5.index t (1 : Fin 2) * 128 + 1 * (j 1).val; omega

/-- Row window 4's block is its whole array: read at row 0 and a column of the output block, it is the array at row 0 and
    that element's column. -/
theorem row5_4_read (c : Dev nD) (t : Fin cfg5.N) (j : S5000x128.Idx) :
    (iblk5 V c 4 t : Vec Ideal S1x128 .f32) (ix2 (0 : Fin 1) (j 1))
      = V c main_v126 (ix2 (0 : Fin 1) ((((cfg5.win 5).blk t).view.emb j) 1)) := by
  obtain ⟨e00, e01, e10, e11, e20, e21, e30, e31, e40, e41, e50, e51⟩ := idx_facts5 t
  unfold iblk5
  rw [View.read_apply]
  show V c main_v126 (((cfg5.win 4).blk t).view.emb (ix2 (0 : Fin 1) (j 1))) = V c main_v126 (ix2 (0 : Fin 1) ((((cfg5.win 5).blk t).view.emb j) 1))
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * (j 1).val = win5_5.index t (1 : Fin 2) * 128 + 1 * (j 1).val; omega

theorem flushed5_eq (c : Dev nD) (t : Fin cfg5.N) :
    (dat5 (F := Ideal) V c).flushed 5 t
      = ((cfg5.win 5).blk t).view.read (Elt Ideal) (Gbn (V c main_v112) (V c main_v123) (V c main_v124) (V c main_v125) (V c main_v126)) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  funext j
  show k5_pay1 (F := Ideal) (iblk5 V c 0 t) (iblk5 V c 3 t) (iblk5 V c 4 t) (iblk5 V c 1 t) (iblk5 V c 2 t) j
      = Gbn (V c main_v112) (V c main_v123) (V c main_v124) (V c main_v125) (V c main_v126) (((cfg5.win 5).blk t).view.emb j)
  exact point5 _ _ _ _ _ _ _ _ _ _ _ _ (z5_read V c t j) (row5_1_read V c t j) (row5_2_read V c t j) (row5_3_read V c t j) (row5_4_read V c t j)

/-- An index lies in point `t`'s output block iff each coordinate lies in the block's range on its axis. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v127).slice (win5_5.rect t)).set ↔ _
  rw [View.set_slice_whole, Rect.mem_set_unit]
  exact Iff.rfl

/-- Every row is in the block of the point numbered by its quotient by the block height. -/
theorem cover5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  have hlt : (i 0).val / 5000 < cfg5.N := by rw [hN]; omega
  obtain ⟨_, _, _, _, _, _, _, _, _, _, e50, e51⟩ := idx_facts5 ⟨(i 0).val / 5000, hlt⟩
  refine ⟨⟨(i 0).val / 5000, hlt⟩, flush5_5 _, ?_⟩
  rw [mem_blk5]
  intro a
  match a with
  | ⟨0, _⟩ =>
    show win5_5.index ⟨(i 0).val / 5000, hlt⟩ (0 : Fin 2) * 5000 ≤ (i 0).val ∧ (i 0).val < win5_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win5_5.index ⟨(i 0).val / 5000, hlt⟩ (1 : Fin 2) * 128 ≤ (i 1).val ∧ (i 1).val < win5_5.index ⟨(i 0).val / 5000, hlt⟩ (1 : Fin 2) * 128 + 128
    rw [e51]; omega

/-- The output array after the region, as one function of the region's input arrays. -/
theorem bn_region5_eq (c : Dev nD) :
    ((dat5 (F := Ideal) V c).arrAt 5 cfg5.N : S100000x128.Idx → EReal)
      = Gbn (V c main_v112) (V c main_v123) (V c main_v124) (V c main_v125) (V c main_v126) :=
  (dat5 (F := Ideal) V c).arrAt_eq_of_cover 5 (Gbn (V c main_v112) (V c main_v123) (V c main_v124) (V c main_v125) (V c main_v126)) (fun t _ => flushed5_eq V c t) cover5

/-- The same, at an index: the input element, the four rows at row 0 and the element's column. -/
theorem bn_region5 (c : Dev nD) (i : S100000x128.Idx) :
    ((dat5 (F := Ideal) V c).arrAt 5 cfg5.N : S100000x128.Idx → EReal) i
      = bnrelu ((V c main_v112 : S100000x128.Idx → EReal) i) ((V c main_v123 : S1x128.Idx → EReal) (ix2 (0 : Fin 1) (i 1)))
          ((V c main_v124 : S1x128.Idx → EReal) (ix2 (0 : Fin 1) (i 1))) ((V c main_v125 : S1x128.Idx → EReal) (ix2 (0 : Fin 1) (i 1)))
          ((V c main_v126 : S1x128.Idx → EReal) (ix2 (0 : Fin 1) (i 1))) :=
  congrFun (bn_region5_eq V c) i

end Cert.Bridge.RegionBn
end
-- ==== Proof.RefBnRead.lean ====
import proofs.«159183_j16226386444400_1_alg».proof.Proof.RefReadP
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

/-!
# The reference's normalisation stage, read at an index

Each of the three layers of the reference ends with the same elementwise stage over a
`[100000, 128]` array `z`, from per-column vectors `mean`, `var`, `gamma`, `beta` of length `128`:

  `out (r, c) = max (((z (r, c) - mean c) * rsqrt (var c + ε)) * gamma c + beta c) 0`.

In the program every per-column vector is first broadcast to `[1, 128]` and then to `[100000, 128]`;
both broadcasts read their operand at the column coordinate, so their composition reads the vector
at the column of the index. The theorems below unfold the stage one operation at a time and
identify each composed index map with the column index; `z`, `mean` and `var` stay opaque.
-/

noncomputable section

namespace Cert.Bridge.RefBn

open Cert.ReferenceIdeal Cert.ReferenceIdeal.ReadP Idealize.ShloMosaic Idealize.ShloMosaic.ValueIdx

/-- The column of a `[100000, 128]` index, as an index of a length-`128` vector. -/
abbrev col (i : S100000x128.Idx) : S128.Idx := ix1 (i 1)

/-! ## Layer 1 -/

/-- The two broadcasts of a per-column vector read it at the column (mean). -/
theorem col_v59 (i : S100000x128.Idx) : idx_main_v59 (idx_main_v60 i) = col i := by
  funext a; match a with | ⟨0, _⟩ => rfl
/-- The two broadcasts of a per-column vector read it at the column (reciprocal root). -/
theorem col_v65 (i : S100000x128.Idx) : idx_main_v65 (idx_main_v66 i) = col i := by
  funext a; match a with | ⟨0, _⟩ => rfl
/-- The two broadcasts of a per-column vector read it at the column (scale). -/
theorem col_v68 (i : S100000x128.Idx) : idx_main_v68 (idx_main_v69 i) = col i := by
  funext a; match a with | ⟨0, _⟩ => rfl
/-- The two broadcasts of a per-column vector read it at the column (shift). -/
theorem col_v71 (i : S100000x128.Idx) : idx_main_v71 (idx_main_v72 i) = col i := by
  funext a; match a with | ⟨0, _⟩ => rfl

/-- Layer 1's normalisation stage at an index: `z` there, the column's mean, variance, scale and shift. -/
theorem bn1_apply (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 x5 x6 : (⟨S128, .f32⟩ : BufTy).Contents (Elt Ideal)) (i : S100000x128.Idx) :
    val_main_v74 (F := Ideal) x0 x1 x2 x3 x4 x5 x6 i =
      FloatOps.maximumf
        (FloatOps.addf
          (FloatOps.mulf
            (FloatOps.mulf
              (FloatOps.subf (val_main_v48 (F := Ideal) x0 x1 x2 x3 x4 i) (val_main_v51 (F := Ideal) x0 x1 x2 x3 x4 (ix1 (i 1))))
              (Ideal.rsqrt (FloatOps.addf (val_main_v58 (F := Ideal) x0 x1 x2 x3 x4 (ix1 (i 1))) (Ideal.ofBits .f32 0x3727C5AC#32))))
            (x5 (ix1 (i 1))))
          (x6 (ix1 (i 1))))
        (Ideal.ofBits .f32 0x00000000#32) := by
  rw [val_main_v74_apply, val_main_v73_apply, val_main_v70_apply, val_main_v67_apply, val_main_v61_apply,
    val_main_v60_apply, val_main_v59_apply, val_main_v66_apply, val_main_v65_apply, val_main_v64_apply,
    val_main_v63_apply, val_main_v62_apply, val_main_cst_13_apply, val_main_v69_apply, val_main_v68_apply,
    val_main_v72_apply, val_main_v71_apply, val_main_call1_v0_apply, val_main_call1_cst_apply,
    col_v59, col_v65, col_v68, col_v71]
  rfl

/-- The same in extended-real arithmetic. -/
theorem bn1_apply' (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 x5 x6 : (⟨S128, .f32⟩ : BufTy).Contents (Elt Ideal)) (i : S100000x128.Idx) :
    val_main_v74 (F := Ideal) x0 x1 x2 x3 x4 x5 x6 i =
      max (((val_main_v48 (F := Ideal) x0 x1 x2 x3 x4 i - val_main_v51 (F := Ideal) x0 x1 x2 x3 x4 (ix1 (i 1)))
            * Ideal.rsqrt (val_main_v58 (F := Ideal) x0 x1 x2 x3 x4 (ix1 (i 1)) + Ideal.ofBits .f32 0x3727C5AC#32))
          * x5 (ix1 (i 1)) + x6 (ix1 (i 1)))
        (Ideal.ofBits .f32 0x00000000#32) :=
  bn1_apply x0 x1 x2 x3 x4 x5 x6 i

/-! ## Layer 2 -/

/-- The two broadcasts of a per-column vector read it at the column (mean). -/
theorem col_v102 (i : S100000x128.Idx) : idx_main_v102 (idx_main_v103 i) = col i := by
  funext a; match a with | ⟨0, _⟩ => rfl
/-- The two broadcasts of a per-column vector read it at the column (reciprocal root). -/
theorem col_v108 (i : S100000x128.Idx) : idx_main_v108 (idx_main_v109 i) = col i := by
  funext a; match a with | ⟨0, _⟩ => rfl
/-- The two broadcasts of a per-column vector read it at the column (scale). -/
theorem col_v111 (i : S100000x128.Idx) : idx_main_v111 (idx_main_v112 i) = col i := by
  funext a; match a with | ⟨0, _⟩ => rfl
/-- The two broadcasts of a per-column vector read it at the column (shift). -/
theorem col_v114 (i : S100000x128.Idx) : idx_main_v114 (idx_main_v115 i) = col i := by
  funext a; match a with | ⟨0, _⟩ => rfl

/-- Layer 2's normalisation stage at an index: `z` there, the column's mean, variance, scale and shift. -/
theorem bn2_apply (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (i : S100000x128.Idx) :
    val_main_v117 (F := Ideal) x0 x1 x2 x3 x4 x5 x6 x7 x8 x9 x10 i =
      FloatOps.maximumf
        (FloatOps.addf
          (FloatOps.mulf
            (FloatOps.mulf
              (FloatOps.subf (val_main_v91 (F := Ideal) x0 x1 x2 x3 x4 x5 x6 x7 x8 i) (val_main_v94 (F := Ideal) x0 x1 x2 x3 x4 x5 x6 x7 x8 (ix1 (i 1))))
              (Ideal.rsqrt (FloatOps.addf (val_main_v101 (F := Ideal) x0 x1 x2 x3 x4 x5 x6 x7 x8 (ix1 (i 1))) (Ideal.ofBits .f32 0x3727C5AC#32))))
            (x9 (ix1 (i 1))))
          (x10 (ix1 (i 1))))
        (Ideal.ofBits .f32 0x00000000#32) := by
  rw [val_main_v117_apply, val_main_v116_apply, val_main_v113_apply, val_main_v110_apply, val_main_v104_apply,
    val_main_v103_apply, val_main_v102_apply, val_main_v109_apply, val_main_v108_apply, val_main_v107_apply,
    val_main_v106_apply, val_main_v105_apply, val_main_cst_21_apply, val_main_v112_apply, val_main_v111_apply,
    val_main_v115_apply, val_main_v114_apply, val_main_call2_v0_apply, val_main_call2_cst_apply,
    col_v102, col_v108, col_v111, col_v114]
  rfl

/-- The same in extended-real arithmetic. -/
theorem bn2_apply' (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (i : S100000x128.Idx) :
    val_main_v117 (F := Ideal) x0 x1 x2 x3 x4 x5 x6 x7 x8 x9 x10 i =
      max (((val_main_v91 (F := Ideal) x0 x1 x2 x3 x4 x5 x6 x7 x8 i - val_main_v94 (F := Ideal) x0 x1 x2 x3 x4 x5 x6 x7 x8 (ix1 (i 1)))
            * Ideal.rsqrt (val_main_v101 (F := Ideal) x0 x1 x2 x3 x4 x5 x6 x7 x8 (ix1 (i 1)) + Ideal.ofBits .f32 0x3727C5AC#32))
          * x9 (ix1 (i 1)) + x10 (ix1 (i 1)))
        (Ideal.ofBits .f32 0x00000000#32) :=
  bn2_apply x0 x1 x2 x3 x4 x5 x6 x7 x8 x9 x10 i

/-! ## Layer 3 -/

/-- The two broadcasts of a per-column vector read it at the column (mean). -/
theorem col_v145 (i : S100000x128.Idx) : idx_main_v145 (idx_main_v146 i) = col i := by
  funext a; match a with | ⟨0, _⟩ => rfl
/-- The two broadcasts of a per-column vector read it at the column (reciprocal root). -/
theorem col_v151 (i : S100000x128.Idx) : idx_main_v151 (idx_main_v152 i) = col i := by
  funext a; match a with | ⟨0, _⟩ => rfl
/-- The two broadcasts of a per-column vector read it at the column (scale). -/
theorem col_v154 (i : S100000x128.Idx) : idx_main_v154 (idx_main_v155 i) = col i := by
  funext a; match a with | ⟨0, _⟩ => rfl
/-- The two broadcasts of a per-column vector read it at the column (shift). -/
theorem col_v157 (i : S100000x128.Idx) : idx_main_v157 (idx_main_v158 i) = col i := by
  funext a; match a with | ⟨0, _⟩ => rfl

/-- Layer 3's normalisation stage at an index: `z` there, the column's mean, variance, scale and shift. -/
theorem bn3_apply (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x128, .f32⟩ : BufTy).Contents (Elt Ideal)) (x12 x13 x14 : (⟨S128, .f32⟩ : BufTy).Contents (Elt Ideal)) (i : S100000x128.Idx) :
    val_main_v160 (F := Ideal) x0 x1 x2 x3 x4 x5 x6 x7 x8 x9 x10 x11 x12 x13 x14 i =
      FloatOps.maximumf
        (FloatOps.addf
          (FloatOps.mulf
            (FloatOps.mulf
              (FloatOps.subf (val_main_v134 (F := Ideal) x0 x1 x2 x3 x4 x5 x6 x7 x8 x9 x10 x11 x12 i) (val_main_v137 (F := Ideal) x0 x1 x2 x3 x4 x5 x6 x7 x8 x9 x10 x11 x12 (ix1 (i 1))))
              (Ideal.rsqrt (FloatOps.addf (val_main_v144 (F := Ideal) x0 x1 x2 x3 x4 x5 x6 x7 x8 x9 x10 x11 x12 (ix1 (i 1))) (Ideal.ofBits .f32 0x3727C5AC#32))))
            (x13 (ix1 (i 1))))
          (x14 (ix1 (i 1))))
        (Ideal.ofBits .f32 0x00000000#32) := by
  rw [val_main_v160_apply, val_main_v159_apply, val_main_v156_apply, val_main_v153_apply, val_main_v147_apply,
    val_main_v146_apply, val_main_v145_apply, val_main_v152_apply, val_main_v151_apply, val_main_v150_apply,
    val_main_v149_apply, val_main_v148_apply, val_main_cst_29_apply, val_main_v155_apply, val_main_v154_apply,
    val_main_v158_apply, val_main_v157_apply, val_main_call3_v0_apply, val_main_call3_cst_apply,
    col_v145, col_v151, col_v154, col_v157]
  rfl

/-- The same in extended-real arithmetic. -/
theorem bn3_apply' (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x128, .f32⟩ : BufTy).Contents (Elt Ideal)) (x12 x13 x14 : (⟨S128, .f32⟩ : BufTy).Contents (Elt Ideal)) (i : S100000x128.Idx) :
    val_main_v160 (F := Ideal) x0 x1 x2 x3 x4 x5 x6 x7 x8 x9 x10 x11 x12 x13 x14 i =
      max (((val_main_v134 (F := Ideal) x0 x1 x2 x3 x4 x5 x6 x7 x8 x9 x10 x11 x12 i - val_main_v137 (F := Ideal) x0 x1 x2 x3 x4 x5 x6 x7 x8 x9 x10 x11 x12 (ix1 (i 1)))
            * Ideal.rsqrt (val_main_v144 (F := Ideal) x0 x1 x2 x3 x4 x5 x6 x7 x8 x9 x10 x11 x12 (ix1 (i 1)) + Ideal.ofBits .f32 0x3727C5AC#32))
          * x13 (ix1 (i 1)) + x14 (ix1 (i 1)))
        (Ideal.ofBits .f32 0x00000000#32) :=
  bn3_apply x0 x1 x2 x3 x4 x5 x6 x7 x8 x9 x10 x11 x12 x13 x14 i

end Cert.Bridge.RefBn
-- ==== Proof.ChainL1.lean ====
/-
  The first graph-convolution layer of the kernel program against the reference's stages.  The layer is: a projection
  h = a · W of the layer's input activations a (a row-blocked kernel, each block of 5000 rows times the whole 128×128 weight, a
  plain sum over the 128 inner indices on the extended reals), then on the host the gather of h along the edges' sources, the
  scaling by the normalisation coefficients, the scatter-add onto the edges' targets and the bias, z; the column means and
  the biased column variances of z; and a second row-blocked kernel, (z − mean) · (var + ε)^(−1/2) · γ + β clipped below at 0.
  Every host operation is the reference's own, on the same operands, so each buffer holds the reference's stage.
-/
import proofs.«159183_j16226386444400_1_alg».proof.Proof.Gen.KernelIdeal.Frame
import proofs.«159183_j16226386444400_1_alg».proof.Proof.Keep
import proofs.«159183_j16226386444400_1_alg».proof.Proof.RefReadP
import proofs.«159183_j16226386444400_1_alg».proof.Proof.ChainBase
import proofs.«159183_j16226386444400_1_alg».proof.Proof.RegionMatmul
import proofs.«159183_j16226386444400_1_alg».proof.Proof.RegionBn
import proofs.«159183_j16226386444400_1_alg».proof.Proof.RefBnRead
import Idealize.ShloMosaic.Lib.ValueLayout
import Idealize.ShloMosaic.PureOps.Ideal
import Idealize.ShloMosaic.PureOps.Ideal.Laws

set_option maxRecDepth 16384

noncomputable section

namespace Cert.Bridge.Layer1

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's input, the node features, at the projection's entry. -/
theorem act_in : W3 m ρ c (Proc.devRef .tc main_arg0) = (m ((c : Thread nD τ).loc main_arg0)) := (((Cert.KernelIdeal.Keep.W3_keep m ρ c main_arg0 (by decide)).trans ((Cert.KernelIdeal.Keep.W2_keep m ρ c main_arg0 (by decide)).trans (Cert.KernelIdeal.Keep.W1_keep m ρ c main_arg0 (by decide)))).trans rfl)
/-- The layer's weight at the projection's entry, as launched. -/
theorem w_in : W3 m ρ c (Proc.devRef .tc main_arg3) = (m ((c : Thread nD τ).loc main_arg3)) := (((Cert.KernelIdeal.Keep.W3_keep m ρ c main_arg3 (by decide)).trans ((Cert.KernelIdeal.Keep.W2_keep m ρ c main_arg3 (by decide)).trans (Cert.KernelIdeal.Keep.W1_keep m ρ c main_arg3 (by decide)))).trans rfl)

/-- The projection: what the row blocks of the matmul kernel wrote back is the reference's `dot_general` of the same operands. -/
theorem h_at : W4 m ρ c (Proc.devRef .tc main_v32) = Cert.ReferenceIdeal.ReadP.val_main_v32 (F := Ideal) (m ((c : Thread nD τ).loc main_arg0)) (m ((c : Thread nD τ).loc main_arg3)) :=
  (W4_arr m ρ c 2).trans ((Cert.Bridge.RegionMatmul.matmul_region0 (V3 m ρ) c).trans (by
    show Host.dotGeneral (F := Ideal) (φ₁ := .f32) (φ₂ := .f32) _ none (W3 m ρ c (Proc.devRef .tc main_arg0)) (W3 m ρ c (Proc.devRef .tc main_arg3)) = _
    rw [act_in m ρ c, w_in m ρ c]; rfl))

/-- The edges' sources, targets and coefficients, and the layer's bias, at the host stretch's entry. -/
theorem row_in : W4 m ρ c (Proc.devRef .tc main_v3) = Cert.ReferenceIdeal.ReadP.val_main_v3 (F := Ideal) (m ((c : Thread nD τ).loc main_arg1)) := (W4_of_ne m ρ c main_v3 (by decide)).trans (Cert.Bridge.Base.row_at_3 m ρ c)
theorem col_in : W4 m ρ c (Proc.devRef .tc main_v6) = Cert.ReferenceIdeal.ReadP.val_main_v6 (F := Ideal) (m ((c : Thread nD τ).loc main_arg1)) := (W4_of_ne m ρ c main_v6 (by decide)).trans (Cert.Bridge.Base.col_at_3 m ρ c)
theorem coef_in : W4 m ρ c (Proc.devRef .tc main_v31) = Cert.ReferenceIdeal.ReadP.val_main_v31 (F := Ideal) (m ((c : Thread nD τ).loc main_arg1)) (m ((c : Thread nD τ).loc main_arg2)) := (W4_of_ne m ρ c main_v31 (by decide)).trans (Cert.Bridge.Base.coef_at_3 m ρ c)
theorem bias_in : W4 m ρ c (Proc.devRef .tc main_arg4) = (m ((c : Thread nD τ).loc main_arg4)) := (((W4_of_ne m ρ c main_arg4 (by decide)).trans ((Cert.KernelIdeal.Keep.W3_keep m ρ c main_arg4 (by decide)).trans ((Cert.KernelIdeal.Keep.W2_keep m ρ c main_arg4 (by decide)).trans (Cert.KernelIdeal.Keep.W1_keep m ρ c main_arg4 (by decide))))).trans rfl)
theorem gamma_in : W4 m ρ c (Proc.devRef .tc main_arg5) = (m ((c : Thread nD τ).loc main_arg5)) := (((W4_of_ne m ρ c main_arg5 (by decide)).trans ((Cert.KernelIdeal.Keep.W3_keep m ρ c main_arg5 (by decide)).trans ((Cert.KernelIdeal.Keep.W2_keep m ρ c main_arg5 (by decide)).trans (Cert.KernelIdeal.Keep.W1_keep m ρ c main_arg5 (by decide))))).trans rfl)
theorem beta_in : W4 m ρ c (Proc.devRef .tc main_arg6) = (m ((c : Thread nD τ).loc main_arg6)) := (((W4_of_ne m ρ c main_arg6 (by decide)).trans ((Cert.KernelIdeal.Keep.W3_keep m ρ c main_arg6 (by decide)).trans ((Cert.KernelIdeal.Keep.W2_keep m ρ c main_arg6 (by decide)).trans (Cert.KernelIdeal.Keep.W1_keep m ρ c main_arg6 (by decide))))).trans rfl)

/-- The aggregated, biased pre-activation z. -/
theorem z_at : W5 m ρ c (Proc.devRef .tc main_v48) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W4 m ρ c) (Proc.devRef .tc main_v48) = _
  after_results_simp
  rw [h_at m ρ c, row_in m ρ c, col_in m ρ c, coef_in m ρ c, bias_in m ρ c]
  rfl
/-- The column means of z. -/
theorem mean_at : W5 m ρ c (Proc.devRef .tc main_v51) = Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W4 m ρ c) (Proc.devRef .tc main_v51) = _
  after_results_simp
  rw [h_at m ρ c, row_in m ρ c, col_in m ρ c, coef_in m ρ c, bias_in m ρ c]
  rfl
/-- The biased column variances of z. -/
theorem var_at : W5 m ρ c (Proc.devRef .tc main_v58) = Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W4 m ρ c) (Proc.devRef .tc main_v58) = _
  after_results_simp
  rw [h_at m ρ c, row_in m ρ c, col_in m ρ c, coef_in m ρ c, bias_in m ρ c]
  rfl
/-- The batchnorm kernel's operand: γ as a 1×128 row, read at row 0 and column j. -/
theorem gamma_row (j : Fin 128) : (W5 m ρ c (Proc.devRef .tc main_v59) : S1x128.Idx → EReal) (ValueIdx.ix2 (0 : Fin 1) j) = ((m ((c : Thread nD τ).loc main_arg5)) : S128.Idx → EReal) (ValueIdx.ix1 j) := by
  have e : W5 m ρ c (Proc.devRef .tc main_v59) = shapeCast S1x128 ((m ((c : Thread nD τ).loc main_arg5))) shapeCasts_S128_S1x128 := by
    show StableHlo.after hostOps1 (W4 m ρ c) (Proc.devRef .tc main_v59) = _
    after_results_simp
    rw [gamma_in m ρ c]
    rfl
  rw [e]; exact ValueIdx.shapeCast_a_1a_apply _ _ _ _
/-- The batchnorm kernel's operand: β as a 1×128 row, read at row 0 and column j. -/
theorem beta_row (j : Fin 128) : (W5 m ρ c (Proc.devRef .tc main_v60) : S1x128.Idx → EReal) (ValueIdx.ix2 (0 : Fin 1) j) = ((m ((c : Thread nD τ).loc main_arg6)) : S128.Idx → EReal) (ValueIdx.ix1 j) := by
  have e : W5 m ρ c (Proc.devRef .tc main_v60) = shapeCast S1x128 ((m ((c : Thread nD τ).loc main_arg6))) shapeCasts_S128_S1x128 := by
    show StableHlo.after hostOps1 (W4 m ρ c) (Proc.devRef .tc main_v60) = _
    after_results_simp
    rw [beta_in m ρ c]
    rfl
  rw [e]; exact ValueIdx.shapeCast_a_1a_apply _ _ _ _
/-- The batchnorm kernel's operand: the means as a 1×128 row, read at row 0 and column j. -/
theorem mean_row (j : Fin 128) : (W5 m ρ c (Proc.devRef .tc main_v61) : S1x128.Idx → EReal) (ValueIdx.ix2 (0 : Fin 1) j) = (Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S128.Idx → EReal) (ValueIdx.ix1 j) := by
  have e : W5 m ρ c (Proc.devRef .tc main_v61) = shapeCast S1x128 (Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S128_S1x128 := by
    show StableHlo.after hostOps1 (W4 m ρ c) (Proc.devRef .tc main_v61) = _
    after_results_simp
    rw [h_at m ρ c, row_in m ρ c, col_in m ρ c, coef_in m ρ c, bias_in m ρ c]
    rfl
  rw [e]; exact ValueIdx.shapeCast_a_1a_apply _ _ _ _
/-- The batchnorm kernel's operand: the variances as a 1×128 row, read at row 0 and column j. -/
theorem var_row (j : Fin 128) : (W5 m ρ c (Proc.devRef .tc main_v62) : S1x128.Idx → EReal) (ValueIdx.ix2 (0 : Fin 1) j) = (Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) : S128.Idx → EReal) (ValueIdx.ix1 j) := by
  have e : W5 m ρ c (Proc.devRef .tc main_v62) = shapeCast S1x128 (Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S128_S1x128 := by
    show StableHlo.after hostOps1 (W4 m ρ c) (Proc.devRef .tc main_v62) = _
    after_results_simp
    rw [h_at m ρ c, row_in m ρ c, col_in m ρ c, coef_in m ρ c, bias_in m ρ c]
    rfl
  rw [e]; exact ValueIdx.shapeCast_a_1a_apply _ _ _ _

/-- The layer's output.  Row r, column j of what the batchnorm kernel's blocks wrote back is
    max(((z[r,j] − mean[j]) · (var[j] + ε)^(−1/2)) · γ[j] + β[j], 0), with the four row vectors read at column j; z, the means and
    the variances are the reference's stages and γ, β the arguments, so this is the reference's stage for the layer's output, whose
    host operations compute the same expression in the same order. -/
theorem out_at : W6 m ρ c (Proc.devRef .tc main_v63) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  refine (congrFun (W6_arr m ρ c 5) i).trans ?_
  refine ((Cert.Bridge.RegionBn.bn_region1 (V5 m ρ) c i).trans ?_).trans (Cert.Bridge.RefBn.bn1_apply' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i).symm
  show Cert.Bridge.RegionBn.bnrelu ((W5 m ρ c (Proc.devRef .tc main_v48) : S100000x128.Idx → EReal) i)
      ((W5 m ρ c (Proc.devRef .tc main_v59) : S1x128.Idx → EReal) (ValueIdx.ix2 (0 : Fin 1) (i 1)))
      ((W5 m ρ c (Proc.devRef .tc main_v60) : S1x128.Idx → EReal) (ValueIdx.ix2 (0 : Fin 1) (i 1)))
      ((W5 m ρ c (Proc.devRef .tc main_v61) : S1x128.Idx → EReal) (ValueIdx.ix2 (0 : Fin 1) (i 1)))
      ((W5 m ρ c (Proc.devRef .tc main_v62) : S1x128.Idx → EReal) (ValueIdx.ix2 (0 : Fin 1) (i 1))) = _
  rw [z_at m ρ c, gamma_row m ρ c (i 1), beta_row m ρ c (i 1), mean_row m ρ c (i 1), var_row m ρ c (i 1)]

end Cert.Bridge.Layer1

end
-- ==== Proof.ChainL2.lean ====
/-
  The second graph-convolution layer of the kernel program against the reference's stages.  The layer is: a projection
  h = a · W of the layer's input activations a (a row-blocked kernel, each block of 5000 rows times the whole 128×128 weight, a
  plain sum over the 128 inner indices on the extended reals), then on the host the gather of h along the edges' sources, the
  scaling by the normalisation coefficients, the scatter-add onto the edges' targets and the bias, z; the column means and
  the biased column variances of z; and a second row-blocked kernel, (z − mean) · (var + ε)^(−1/2) · γ + β clipped below at 0.
  Every host operation is the reference's own, on the same operands, so each buffer holds the reference's stage.
-/
import proofs.«159183_j16226386444400_1_alg».proof.Proof.Gen.KernelIdeal.Frame
import proofs.«159183_j16226386444400_1_alg».proof.Proof.Keep
import proofs.«159183_j16226386444400_1_alg».proof.Proof.RefReadP
import proofs.«159183_j16226386444400_1_alg».proof.Proof.ChainBase
import proofs.«159183_j16226386444400_1_alg».proof.Proof.RegionMatmul
import proofs.«159183_j16226386444400_1_alg».proof.Proof.RegionBn
import proofs.«159183_j16226386444400_1_alg».proof.Proof.RefBnRead
import proofs.«159183_j16226386444400_1_alg».proof.Proof.ChainL1
import Idealize.ShloMosaic.Lib.ValueLayout
import Idealize.ShloMosaic.PureOps.Ideal
import Idealize.ShloMosaic.PureOps.Ideal.Laws

set_option maxRecDepth 16384

noncomputable section

namespace Cert.Bridge.Layer2

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's input, the previous layer's output, at the projection's entry. -/
theorem act_in : W6 m ρ c (Proc.devRef .tc main_v63) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (Cert.Bridge.Layer1.out_at m ρ c)
/-- The layer's weight at the projection's entry, as launched. -/
theorem w_in : W6 m ρ c (Proc.devRef .tc main_arg7) = (m ((c : Thread nD τ).loc main_arg7)) := (((W6_of_ne m ρ c main_arg7 (by decide)).trans ((Cert.KernelIdeal.Keep.W5_keep m ρ c main_arg7 (by decide)).trans ((W4_of_ne m ρ c main_arg7 (by decide)).trans ((Cert.KernelIdeal.Keep.W3_keep m ρ c main_arg7 (by decide)).trans ((Cert.KernelIdeal.Keep.W2_keep m ρ c main_arg7 (by decide)).trans (Cert.KernelIdeal.Keep.W1_keep m ρ c main_arg7 (by decide))))))).trans rfl)

/-- The projection: what the row blocks of the matmul kernel wrote back is the reference's `dot_general` of the same operands. -/
theorem h_at : W7 m ρ c (Proc.devRef .tc main_v64) = Cert.ReferenceIdeal.ReadP.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W7_arr m ρ c 2).trans ((Cert.Bridge.RegionMatmul.matmul_region2 (V6 m ρ) c).trans (by
    show Host.dotGeneral (F := Ideal) (φ₁ := .f32) (φ₂ := .f32) _ none (W6 m ρ c (Proc.devRef .tc main_v63)) (W6 m ρ c (Proc.devRef .tc main_arg7)) = _
    rw [act_in m ρ c, w_in m ρ c]; rfl))

/-- The edges' sources, targets and coefficients, and the layer's bias, at the host stretch's entry. -/
theorem row_in : W7 m ρ c (Proc.devRef .tc main_v3) = Cert.ReferenceIdeal.ReadP.val_main_v3 (F := Ideal) (m ((c : Thread nD τ).loc main_arg1)) := ((W7_of_ne m ρ c main_v3 (by decide)).trans ((W6_of_ne m ρ c main_v3 (by decide)).trans ((Cert.KernelIdeal.Keep.W5_keep m ρ c main_v3 (by decide)).trans (W4_of_ne m ρ c main_v3 (by decide))))).trans (Cert.Bridge.Base.row_at_3 m ρ c)
theorem col_in : W7 m ρ c (Proc.devRef .tc main_v6) = Cert.ReferenceIdeal.ReadP.val_main_v6 (F := Ideal) (m ((c : Thread nD τ).loc main_arg1)) := ((W7_of_ne m ρ c main_v6 (by decide)).trans ((W6_of_ne m ρ c main_v6 (by decide)).trans ((Cert.KernelIdeal.Keep.W5_keep m ρ c main_v6 (by decide)).trans (W4_of_ne m ρ c main_v6 (by decide))))).trans (Cert.Bridge.Base.col_at_3 m ρ c)
theorem coef_in : W7 m ρ c (Proc.devRef .tc main_v31) = Cert.ReferenceIdeal.ReadP.val_main_v31 (F := Ideal) (m ((c : Thread nD τ).loc main_arg1)) (m ((c : Thread nD τ).loc main_arg2)) := ((W7_of_ne m ρ c main_v31 (by decide)).trans ((W6_of_ne m ρ c main_v31 (by decide)).trans ((Cert.KernelIdeal.Keep.W5_keep m ρ c main_v31 (by decide)).trans (W4_of_ne m ρ c main_v31 (by decide))))).trans (Cert.Bridge.Base.coef_at_3 m ρ c)
theorem bias_in : W7 m ρ c (Proc.devRef .tc main_arg8) = (m ((c : Thread nD τ).loc main_arg8)) := (((W7_of_ne m ρ c main_arg8 (by decide)).trans ((W6_of_ne m ρ c main_arg8 (by decide)).trans ((Cert.KernelIdeal.Keep.W5_keep m ρ c main_arg8 (by decide)).trans ((W4_of_ne m ρ c main_arg8 (by decide)).trans ((Cert.KernelIdeal.Keep.W3_keep m ρ c main_arg8 (by decide)).trans ((Cert.KernelIdeal.Keep.W2_keep m ρ c main_arg8 (by decide)).trans (Cert.KernelIdeal.Keep.W1_keep m ρ c main_arg8 (by decide)))))))).trans rfl)
theorem gamma_in : W7 m ρ c (Proc.devRef .tc main_arg9) = (m ((c : Thread nD τ).loc main_arg9)) := (((W7_of_ne m ρ c main_arg9 (by decide)).trans ((W6_of_ne m ρ c main_arg9 (by decide)).trans ((Cert.KernelIdeal.Keep.W5_keep m ρ c main_arg9 (by decide)).trans ((W4_of_ne m ρ c main_arg9 (by decide)).trans ((Cert.KernelIdeal.Keep.W3_keep m ρ c main_arg9 (by decide)).trans ((Cert.KernelIdeal.Keep.W2_keep m ρ c main_arg9 (by decide)).trans (Cert.KernelIdeal.Keep.W1_keep m ρ c main_arg9 (by decide)))))))).trans rfl)
theorem beta_in : W7 m ρ c (Proc.devRef .tc main_arg10) = (m ((c : Thread nD τ).loc main_arg10)) := (((W7_of_ne m ρ c main_arg10 (by decide)).trans ((W6_of_ne m ρ c main_arg10 (by decide)).trans ((Cert.KernelIdeal.Keep.W5_keep m ρ c main_arg10 (by decide)).trans ((W4_of_ne m ρ c main_arg10 (by decide)).trans ((Cert.KernelIdeal.Keep.W3_keep m ρ c main_arg10 (by decide)).trans ((Cert.KernelIdeal.Keep.W2_keep m ρ c main_arg10 (by decide)).trans (Cert.KernelIdeal.Keep.W1_keep m ρ c main_arg10 (by decide)))))))).trans rfl)

/-- The aggregated, biased pre-activation z. -/
theorem z_at : W8 m ρ c (Proc.devRef .tc main_v80) = Cert.ReferenceIdeal.ReadP.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W7 m ρ c) (Proc.devRef .tc main_v80) = _
  after_results_simp
  rw [h_at m ρ c, row_in m ρ c, col_in m ρ c, coef_in m ρ c, bias_in m ρ c]
  rfl
/-- The column means of z. -/
theorem mean_at : W8 m ρ c (Proc.devRef .tc main_v83) = Cert.ReferenceIdeal.ReadP.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W7 m ρ c) (Proc.devRef .tc main_v83) = _
  after_results_simp
  rw [h_at m ρ c, row_in m ρ c, col_in m ρ c, coef_in m ρ c, bias_in m ρ c]
  rfl
/-- The biased column variances of z. -/
theorem var_at : W8 m ρ c (Proc.devRef .tc main_v90) = Cert.ReferenceIdeal.ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W7 m ρ c) (Proc.devRef .tc main_v90) = _
  after_results_simp
  rw [h_at m ρ c, row_in m ρ c, col_in m ρ c, coef_in m ρ c, bias_in m ρ c]
  rfl
/-- The batchnorm kernel's operand: γ as a 1×128 row, read at row 0 and column j. -/
theorem gamma_row (j : Fin 128) : (W8 m ρ c (Proc.devRef .tc main_v91) : S1x128.Idx → EReal) (ValueIdx.ix2 (0 : Fin 1) j) = ((m ((c : Thread nD τ).loc main_arg9)) : S128.Idx → EReal) (ValueIdx.ix1 j) := by
  have e : W8 m ρ c (Proc.devRef .tc main_v91) = shapeCast S1x128 ((m ((c : Thread nD τ).loc main_arg9))) shapeCasts_S128_S1x128 := by
    show StableHlo.after hostOps3 (W7 m ρ c) (Proc.devRef .tc main_v91) = _
    after_results_simp
    rw [gamma_in m ρ c]
    rfl
  rw [e]; exact ValueIdx.shapeCast_a_1a_apply _ _ _ _
/-- The batchnorm kernel's operand: β as a 1×128 row, read at row 0 and column j. -/
theorem beta_row (j : Fin 128) : (W8 m ρ c (Proc.devRef .tc main_v92) : S1x128.Idx → EReal) (ValueIdx.ix2 (0 : Fin 1) j) = ((m ((c : Thread nD τ).loc main_arg10)) : S128.Idx → EReal) (ValueIdx.ix1 j) := by
  have e : W8 m ρ c (Proc.devRef .tc main_v92) = shapeCast S1x128 ((m ((c : Thread nD τ).loc main_arg10))) shapeCasts_S128_S1x128 := by
    show StableHlo.after hostOps3 (W7 m ρ c) (Proc.devRef .tc main_v92) = _
    after_results_simp
    rw [beta_in m ρ c]
    rfl
  rw [e]; exact ValueIdx.shapeCast_a_1a_apply _ _ _ _
/-- The batchnorm kernel's operand: the means as a 1×128 row, read at row 0 and column j. -/
theorem mean_row (j : Fin 128) : (W8 m ρ c (Proc.devRef .tc main_v93) : S1x128.Idx → EReal) (ValueIdx.ix2 (0 : Fin 1) j) = (Cert.ReferenceIdeal.ReadP.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S128.Idx → EReal) (ValueIdx.ix1 j) := by
  have e : W8 m ρ c (Proc.devRef .tc main_v93) = shapeCast S1x128 (Cert.ReferenceIdeal.ReadP.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S128_S1x128 := by
    show StableHlo.after hostOps3 (W7 m ρ c) (Proc.devRef .tc main_v93) = _
    after_results_simp
    rw [h_at m ρ c, row_in m ρ c, col_in m ρ c, coef_in m ρ c, bias_in m ρ c]
    rfl
  rw [e]; exact ValueIdx.shapeCast_a_1a_apply _ _ _ _
/-- The batchnorm kernel's operand: the variances as a 1×128 row, read at row 0 and column j. -/
theorem var_row (j : Fin 128) : (W8 m ρ c (Proc.devRef .tc main_v94) : S1x128.Idx → EReal) (ValueIdx.ix2 (0 : Fin 1) j) = (Cert.ReferenceIdeal.ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S128.Idx → EReal) (ValueIdx.ix1 j) := by
  have e : W8 m ρ c (Proc.devRef .tc main_v94) = shapeCast S1x128 (Cert.ReferenceIdeal.ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S128_S1x128 := by
    show StableHlo.after hostOps3 (W7 m ρ c) (Proc.devRef .tc main_v94) = _
    after_results_simp
    rw [h_at m ρ c, row_in m ρ c, col_in m ρ c, coef_in m ρ c, bias_in m ρ c]
    rfl
  rw [e]; exact ValueIdx.shapeCast_a_1a_apply _ _ _ _

/-- The layer's output.  Row r, column j of what the batchnorm kernel's blocks wrote back is
    max(((z[r,j] − mean[j]) · (var[j] + ε)^(−1/2)) · γ[j] + β[j], 0), with the four row vectors read at column j; z, the means and
    the variances are the reference's stages and γ, β the arguments, so this is the reference's stage for the layer's output, whose
    host operations compute the same expression in the same order. -/
theorem out_at : W9 m ρ c (Proc.devRef .tc main_v95) = Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  refine (congrFun (W9_arr m ρ c 5) i).trans ?_
  refine ((Cert.Bridge.RegionBn.bn_region3 (V8 m ρ) c i).trans ?_).trans (Cert.Bridge.RefBn.bn2_apply' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i).symm
  show Cert.Bridge.RegionBn.bnrelu ((W8 m ρ c (Proc.devRef .tc main_v80) : S100000x128.Idx → EReal) i)
      ((W8 m ρ c (Proc.devRef .tc main_v91) : S1x128.Idx → EReal) (ValueIdx.ix2 (0 : Fin 1) (i 1)))
      ((W8 m ρ c (Proc.devRef .tc main_v92) : S1x128.Idx → EReal) (ValueIdx.ix2 (0 : Fin 1) (i 1)))
      ((W8 m ρ c (Proc.devRef .tc main_v93) : S1x128.Idx → EReal) (ValueIdx.ix2 (0 : Fin 1) (i 1)))
      ((W8 m ρ c (Proc.devRef .tc main_v94) : S1x128.Idx → EReal) (ValueIdx.ix2 (0 : Fin 1) (i 1))) = _
  rw [z_at m ρ c, gamma_row m ρ c (i 1), beta_row m ρ c (i 1), mean_row m ρ c (i 1), var_row m ρ c (i 1)]

end Cert.Bridge.Layer2

end
-- ==== Proof.ChainL3.lean ====
/-
  The third graph-convolution layer of the kernel program against the reference's stages.  The layer is: a projection
  h = a · W of the layer's input activations a (a row-blocked kernel, each block of 5000 rows times the whole 128×128 weight, a
  plain sum over the 128 inner indices on the extended reals), then on the host the gather of h along the edges' sources, the
  scaling by the normalisation coefficients, the scatter-add onto the edges' targets and the bias, z; the column means and
  the biased column variances of z; and a second row-blocked kernel, (z − mean) · (var + ε)^(−1/2) · γ + β clipped below at 0.
  Every host operation is the reference's own, on the same operands, so each buffer holds the reference's stage.
-/
import proofs.«159183_j16226386444400_1_alg».proof.Proof.Gen.KernelIdeal.Frame
import proofs.«159183_j16226386444400_1_alg».proof.Proof.Keep
import proofs.«159183_j16226386444400_1_alg».proof.Proof.RefReadP
import proofs.«159183_j16226386444400_1_alg».proof.Proof.ChainBase
import proofs.«159183_j16226386444400_1_alg».proof.Proof.RegionMatmul
import proofs.«159183_j16226386444400_1_alg».proof.Proof.RegionBn
import proofs.«159183_j16226386444400_1_alg».proof.Proof.RefBnRead
import proofs.«159183_j16226386444400_1_alg».proof.Proof.ChainL2
import Idealize.ShloMosaic.Lib.ValueLayout
import Idealize.ShloMosaic.PureOps.Ideal
import Idealize.ShloMosaic.PureOps.Ideal.Laws

set_option maxRecDepth 16384

noncomputable section

namespace Cert.Bridge.Layer3

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The layer's input, the previous layer's output, at the projection's entry. -/
theorem act_in : W9 m ρ c (Proc.devRef .tc main_v95) = Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := (Cert.Bridge.Layer2.out_at m ρ c)
/-- The layer's weight at the projection's entry, as launched. -/
theorem w_in : W9 m ρ c (Proc.devRef .tc main_arg11) = (m ((c : Thread nD τ).loc main_arg11)) := (((W9_of_ne m ρ c main_arg11 (by decide)).trans ((Cert.KernelIdeal.Keep.W8_keep m ρ c main_arg11 (by decide)).trans ((W7_of_ne m ρ c main_arg11 (by decide)).trans ((W6_of_ne m ρ c main_arg11 (by decide)).trans ((Cert.KernelIdeal.Keep.W5_keep m ρ c main_arg11 (by decide)).trans ((W4_of_ne m ρ c main_arg11 (by decide)).trans ((Cert.KernelIdeal.Keep.W3_keep m ρ c main_arg11 (by decide)).trans ((Cert.KernelIdeal.Keep.W2_keep m ρ c main_arg11 (by decide)).trans (Cert.KernelIdeal.Keep.W1_keep m ρ c main_arg11 (by decide)))))))))).trans rfl)

/-- The projection: what the row blocks of the matmul kernel wrote back is the reference's `dot_general` of the same operands. -/
theorem h_at : W10 m ρ c (Proc.devRef .tc main_v96) = Cert.ReferenceIdeal.ReadP.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W10_arr m ρ c 2).trans ((Cert.Bridge.RegionMatmul.matmul_region4 (V9 m ρ) c).trans (by
    show Host.dotGeneral (F := Ideal) (φ₁ := .f32) (φ₂ := .f32) _ none (W9 m ρ c (Proc.devRef .tc main_v95)) (W9 m ρ c (Proc.devRef .tc main_arg11)) = _
    rw [act_in m ρ c, w_in m ρ c]; rfl))

/-- The edges' sources, targets and coefficients, and the layer's bias, at the host stretch's entry. -/
theorem row_in : W10 m ρ c (Proc.devRef .tc main_v3) = Cert.ReferenceIdeal.ReadP.val_main_v3 (F := Ideal) (m ((c : Thread nD τ).loc main_arg1)) := ((W10_of_ne m ρ c main_v3 (by decide)).trans ((W9_of_ne m ρ c main_v3 (by decide)).trans ((Cert.KernelIdeal.Keep.W8_keep m ρ c main_v3 (by decide)).trans ((W7_of_ne m ρ c main_v3 (by decide)).trans ((W6_of_ne m ρ c main_v3 (by decide)).trans ((Cert.KernelIdeal.Keep.W5_keep m ρ c main_v3 (by decide)).trans (W4_of_ne m ρ c main_v3 (by decide)))))))).trans (Cert.Bridge.Base.row_at_3 m ρ c)
theorem col_in : W10 m ρ c (Proc.devRef .tc main_v6) = Cert.ReferenceIdeal.ReadP.val_main_v6 (F := Ideal) (m ((c : Thread nD τ).loc main_arg1)) := ((W10_of_ne m ρ c main_v6 (by decide)).trans ((W9_of_ne m ρ c main_v6 (by decide)).trans ((Cert.KernelIdeal.Keep.W8_keep m ρ c main_v6 (by decide)).trans ((W7_of_ne m ρ c main_v6 (by decide)).trans ((W6_of_ne m ρ c main_v6 (by decide)).trans ((Cert.KernelIdeal.Keep.W5_keep m ρ c main_v6 (by decide)).trans (W4_of_ne m ρ c main_v6 (by decide)))))))).trans (Cert.Bridge.Base.col_at_3 m ρ c)
theorem coef_in : W10 m ρ c (Proc.devRef .tc main_v31) = Cert.ReferenceIdeal.ReadP.val_main_v31 (F := Ideal) (m ((c : Thread nD τ).loc main_arg1)) (m ((c : Thread nD τ).loc main_arg2)) := ((W10_of_ne m ρ c main_v31 (by decide)).trans ((W9_of_ne m ρ c main_v31 (by decide)).trans ((Cert.KernelIdeal.Keep.W8_keep m ρ c main_v31 (by decide)).trans ((W7_of_ne m ρ c main_v31 (by decide)).trans ((W6_of_ne m ρ c main_v31 (by decide)).trans ((Cert.KernelIdeal.Keep.W5_keep m ρ c main_v31 (by decide)).trans (W4_of_ne m ρ c main_v31 (by decide)))))))).trans (Cert.Bridge.Base.coef_at_3 m ρ c)
theorem bias_in : W10 m ρ c (Proc.devRef .tc main_arg12) = (m ((c : Thread nD τ).loc main_arg12)) := (((W10_of_ne m ρ c main_arg12 (by decide)).trans ((W9_of_ne m ρ c main_arg12 (by decide)).trans ((Cert.KernelIdeal.Keep.W8_keep m ρ c main_arg12 (by decide)).trans ((W7_of_ne m ρ c main_arg12 (by decide)).trans ((W6_of_ne m ρ c main_arg12 (by decide)).trans ((Cert.KernelIdeal.Keep.W5_keep m ρ c main_arg12 (by decide)).trans ((W4_of_ne m ρ c main_arg12 (by decide)).trans ((Cert.KernelIdeal.Keep.W3_keep m ρ c main_arg12 (by decide)).trans ((Cert.KernelIdeal.Keep.W2_keep m ρ c main_arg12 (by decide)).trans (Cert.KernelIdeal.Keep.W1_keep m ρ c main_arg12 (by decide))))))))))).trans rfl)
theorem gamma_in : W10 m ρ c (Proc.devRef .tc main_arg13) = (m ((c : Thread nD τ).loc main_arg13)) := (((W10_of_ne m ρ c main_arg13 (by decide)).trans ((W9_of_ne m ρ c main_arg13 (by decide)).trans ((Cert.KernelIdeal.Keep.W8_keep m ρ c main_arg13 (by decide)).trans ((W7_of_ne m ρ c main_arg13 (by decide)).trans ((W6_of_ne m ρ c main_arg13 (by decide)).trans ((Cert.KernelIdeal.Keep.W5_keep m ρ c main_arg13 (by decide)).trans ((W4_of_ne m ρ c main_arg13 (by decide)).trans ((Cert.KernelIdeal.Keep.W3_keep m ρ c main_arg13 (by decide)).trans ((Cert.KernelIdeal.Keep.W2_keep m ρ c main_arg13 (by decide)).trans (Cert.KernelIdeal.Keep.W1_keep m ρ c main_arg13 (by decide))))))))))).trans rfl)
theorem beta_in : W10 m ρ c (Proc.devRef .tc main_arg14) = (m ((c : Thread nD τ).loc main_arg14)) := (((W10_of_ne m ρ c main_arg14 (by decide)).trans ((W9_of_ne m ρ c main_arg14 (by decide)).trans ((Cert.KernelIdeal.Keep.W8_keep m ρ c main_arg14 (by decide)).trans ((W7_of_ne m ρ c main_arg14 (by decide)).trans ((W6_of_ne m ρ c main_arg14 (by decide)).trans ((Cert.KernelIdeal.Keep.W5_keep m ρ c main_arg14 (by decide)).trans ((W4_of_ne m ρ c main_arg14 (by decide)).trans ((Cert.KernelIdeal.Keep.W3_keep m ρ c main_arg14 (by decide)).trans ((Cert.KernelIdeal.Keep.W2_keep m ρ c main_arg14 (by decide)).trans (Cert.KernelIdeal.Keep.W1_keep m ρ c main_arg14 (by decide))))))))))).trans rfl)

/-- The aggregated, biased pre-activation z. -/
theorem z_at : W11 m ρ c (Proc.devRef .tc main_v112) = Cert.ReferenceIdeal.ReadP.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps5 (W10 m ρ c) (Proc.devRef .tc main_v112) = _
  after_results_simp
  rw [h_at m ρ c, row_in m ρ c, col_in m ρ c, coef_in m ρ c, bias_in m ρ c]
  rfl
/-- The column means of z. -/
theorem mean_at : W11 m ρ c (Proc.devRef .tc main_v115) = Cert.ReferenceIdeal.ReadP.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps5 (W10 m ρ c) (Proc.devRef .tc main_v115) = _
  after_results_simp
  rw [h_at m ρ c, row_in m ρ c, col_in m ρ c, coef_in m ρ c, bias_in m ρ c]
  rfl
/-- The biased column variances of z. -/
theorem var_at : W11 m ρ c (Proc.devRef .tc main_v122) = Cert.ReferenceIdeal.ReadP.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps5 (W10 m ρ c) (Proc.devRef .tc main_v122) = _
  after_results_simp
  rw [h_at m ρ c, row_in m ρ c, col_in m ρ c, coef_in m ρ c, bias_in m ρ c]
  rfl
/-- The batchnorm kernel's operand: γ as a 1×128 row, read at row 0 and column j. -/
theorem gamma_row (j : Fin 128) : (W11 m ρ c (Proc.devRef .tc main_v123) : S1x128.Idx → EReal) (ValueIdx.ix2 (0 : Fin 1) j) = ((m ((c : Thread nD τ).loc main_arg13)) : S128.Idx → EReal) (ValueIdx.ix1 j) := by
  have e : W11 m ρ c (Proc.devRef .tc main_v123) = shapeCast S1x128 ((m ((c : Thread nD τ).loc main_arg13))) shapeCasts_S128_S1x128 := by
    show StableHlo.after hostOps5 (W10 m ρ c) (Proc.devRef .tc main_v123) = _
    after_results_simp
    rw [gamma_in m ρ c]
    rfl
  rw [e]; exact ValueIdx.shapeCast_a_1a_apply _ _ _ _
/-- The batchnorm kernel's operand: β as a 1×128 row, read at row 0 and column j. -/
theorem beta_row (j : Fin 128) : (W11 m ρ c (Proc.devRef .tc main_v124) : S1x128.Idx → EReal) (ValueIdx.ix2 (0 : Fin 1) j) = ((m ((c : Thread nD τ).loc main_arg14)) : S128.Idx → EReal) (ValueIdx.ix1 j) := by
  have e : W11 m ρ c (Proc.devRef .tc main_v124) = shapeCast S1x128 ((m ((c : Thread nD τ).loc main_arg14))) shapeCasts_S128_S1x128 := by
    show StableHlo.after hostOps5 (W10 m ρ c) (Proc.devRef .tc main_v124) = _
    after_results_simp
    rw [beta_in m ρ c]
    rfl
  rw [e]; exact ValueIdx.shapeCast_a_1a_apply _ _ _ _
/-- The batchnorm kernel's operand: the means as a 1×128 row, read at row 0 and column j. -/
theorem mean_row (j : Fin 128) : (W11 m ρ c (Proc.devRef .tc main_v125) : S1x128.Idx → EReal) (ValueIdx.ix2 (0 : Fin 1) j) = (Cert.ReferenceIdeal.ReadP.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : S128.Idx → EReal) (ValueIdx.ix1 j) := by
  have e : W11 m ρ c (Proc.devRef .tc main_v125) = shapeCast S1x128 (Cert.ReferenceIdeal.ReadP.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) shapeCasts_S128_S1x128 := by
    show StableHlo.after hostOps5 (W10 m ρ c) (Proc.devRef .tc main_v125) = _
    after_results_simp
    rw [h_at m ρ c, row_in m ρ c, col_in m ρ c, coef_in m ρ c, bias_in m ρ c]
    rfl
  rw [e]; exact ValueIdx.shapeCast_a_1a_apply _ _ _ _
/-- The batchnorm kernel's operand: the variances as a 1×128 row, read at row 0 and column j. -/
theorem var_row (j : Fin 128) : (W11 m ρ c (Proc.devRef .tc main_v126) : S1x128.Idx → EReal) (ValueIdx.ix2 (0 : Fin 1) j) = (Cert.ReferenceIdeal.ReadP.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) : S128.Idx → EReal) (ValueIdx.ix1 j) := by
  have e : W11 m ρ c (Proc.devRef .tc main_v126) = shapeCast S1x128 (Cert.ReferenceIdeal.ReadP.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) shapeCasts_S128_S1x128 := by
    show StableHlo.after hostOps5 (W10 m ρ c) (Proc.devRef .tc main_v126) = _
    after_results_simp
    rw [h_at m ρ c, row_in m ρ c, col_in m ρ c, coef_in m ρ c, bias_in m ρ c]
    rfl
  rw [e]; exact ValueIdx.shapeCast_a_1a_apply _ _ _ _

/-- The layer's output.  Row r, column j of what the batchnorm kernel's blocks wrote back is
    max(((z[r,j] − mean[j]) · (var[j] + ε)^(−1/2)) · γ[j] + β[j], 0), with the four row vectors read at column j; z, the means and
    the variances are the reference's stages and γ, β the arguments, so this is the reference's stage for the layer's output, whose
    host operations compute the same expression in the same order. -/
theorem out_at : W12 m ρ c (Proc.devRef .tc main_v127) = Cert.ReferenceIdeal.ReadP.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  funext i
  refine (congrFun (W12_arr m ρ c 5) i).trans ?_
  refine ((Cert.Bridge.RegionBn.bn_region5 (V11 m ρ) c i).trans ?_).trans (Cert.Bridge.RefBn.bn3_apply' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i).symm
  show Cert.Bridge.RegionBn.bnrelu ((W11 m ρ c (Proc.devRef .tc main_v112) : S100000x128.Idx → EReal) i)
      ((W11 m ρ c (Proc.devRef .tc main_v123) : S1x128.Idx → EReal) (ValueIdx.ix2 (0 : Fin 1) (i 1)))
      ((W11 m ρ c (Proc.devRef .tc main_v124) : S1x128.Idx → EReal) (ValueIdx.ix2 (0 : Fin 1) (i 1)))
      ((W11 m ρ c (Proc.devRef .tc main_v125) : S1x128.Idx → EReal) (ValueIdx.ix2 (0 : Fin 1) (i 1)))
      ((W11 m ρ c (Proc.devRef .tc main_v126) : S1x128.Idx → EReal) (ValueIdx.ix2 (0 : Fin 1) (i 1))) = _
  rw [z_at m ρ c, gamma_row m ρ c (i 1), beta_row m ρ c (i 1), mean_row m ρ c (i 1), var_row m ρ c (i 1)]

end Cert.Bridge.Layer3

end
-- ==== Proof.RegionFinal.lean ====
/-
  The last layer's region: the output array after the final kernel, as one function of the arrays the region finds.

  Each of the 20 grid points loads one block of 5000 rows of the three activations, the three whole 128 × 128 weights and
  the whole 1 × 128 bias row, and stores  a₁·w₁ + a₂·w₂ + a₃·w₃ + bias  (block products into zero accumulators, added
  left to right, the bias row broadcast down the rows). `payload_apply` reads that stored value at an index as three sums
  over the 128 shared coordinates; `flushed_eq` identifies what a point writes back with its block of the whole-array
  function `finalLayer`; the blocks cover the array (`cover`: row `r` is in the block of point `r / 5000`), so the array
  after the region is `finalLayer` of the entry contents (`arrAt_final`).
-/
import proofs.«159183_j16226386444400_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.Bridge.RegionFinal

open Cert.KernelIdeal Cert.KernelIdeal.Gen
open Idealize.ShloMosaic.ValueIdx (ix2 ix1)

/-- The left operand's row coordinate at output index `j` is `j`'s row. -/
theorem lhs_row (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted one. -/
theorem lhs_col (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
/-- The right operand's row coordinate is the contracted one. -/
theorem rhs_row (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
/-- The right operand's column coordinate at output index `j` is `j`'s column. -/
theorem rhs_col (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into a zero accumulator, read at an index: the sum over the 128 shared coordinates. -/
theorem blockProduct_apply (a : FVec Ideal S5000x128 .bf16) (b : FVec Ideal S128x128 .bf16) (j : S5000x128.Idx) :
    matmul dot_S5000x128_S128x128_S5000x128_1_0_0_1_n_n none a b (constant S5000x128 .f32 0x00000000#32) j
      = ∑ k : Fin 128, a (ix2 (j 0) k) * b (ix2 k (j 1)) := by
  show FloatOps.matmul dot_S5000x128_S128x128_S5000x128_1_0_0_1_n_n none a b (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ix2 (j 0) k := funext fun ax => Fin.ext (by
    match ax with
    | ⟨0, _⟩ => exact lhs_row _ _
    | ⟨1, _⟩ => exact (lhs_col _ _).trans hk)
  have er : dot_S5000x128_S128x128_S5000x128_1_0_0_1_n_n.rhsIdx j ((ValueIdx.contrEquiv1 dot_S5000x128_S128x128_S5000x128_1_0_0_1_n_n 128 rfl rfl).symm k) = ix2 k (j 1) := funext fun ax => Fin.ext (by
    match ax with
    | ⟨0, _⟩ => exact (rhs_row _ _).trans hk
    | ⟨1, _⟩ => exact rhs_col _ _)
  exact congrArg₂ (fun x y => a x * b y) el er

/-- The body's stored value at an index of the block: the three block products added left to right, then the bias row's
    entry of that column. (The casts to a 16-bit format are the identity on exact values.) -/
theorem payload_apply (v0 v3 v6 : Vec Ideal S5000x128 .f32) (v9 v12 v15 : Vec Ideal S128x128 .f32) (v23 : Vec Ideal S1x128 .f32)
    (r : Fin 5000) (q : Fin 128) :
    k6_pay1 (F := Ideal) v0 v3 v6 v9 v12 v15 v23 (ix2 r q)
      = ((∑ k : Fin 128, v0 (ix2 r k) * v9 (ix2 k q)) + (∑ k : Fin 128, v3 (ix2 r k) * v12 (ix2 k q))
          + (∑ k : Fin 128, v6 (ix2 r k) * v15 (ix2 k q))) + v23 (ix2 (0 : Fin 1) q) := by
  unfold k6_pay1
  simp only [shapeCast_self]
  have e1 := blockProduct_apply (truncf .bf16 v0 bitsLt_bf16_f32) (truncf .bf16 v9 bitsLt_bf16_f32) (ix2 r q)
  have e2 := blockProduct_apply (truncf .bf16 v3 bitsLt_bf16_f32) (truncf .bf16 v12 bitsLt_bf16_f32) (ix2 r q)
  have e3 := blockProduct_apply (truncf .bf16 v6 bitsLt_bf16_f32) (truncf .bf16 v15 bitsLt_bf16_f32) (ix2 r q)
  have e4 := ValueIdx.broadcastTo_1b_ab_apply v23 broadcasts_S1x128_S5000x128 r q
  exact congrArg₂ (· + ·) (congrArg₂ (· + ·) (congrArg₂ (· + ·) e1 e2) e3) e4

/-! ## From the blocks to the whole array -/

/-- The final layer as one function of whole arrays: at row `r` and column `q`, the three activations' rows `r` contracted
    against the three weights' columns `q`, added left to right, then the bias row's entry `q`. -/
def finalLayer (o1 o2 o3 : S100000x128.Idx → EReal) (w1 w2 w3 : S128x128.Idx → EReal) (b : S1x128.Idx → EReal) :
    S100000x128.Idx → EReal := fun i =>
  ((∑ k : Fin 128, o1 (ix2 (i 0) k) * w1 (ix2 k (i 1))) + (∑ k : Fin 128, o2 (ix2 (i 0) k) * w2 (ix2 k (i 1)))
      + (∑ k : Fin 128, o3 (ix2 (i 0) k) * w3 (ix2 k (i 1)))) + b (ix2 (0 : Fin 1) (i 1))

theorem zero_offsets : (![0, 0] : Fin 2 → Nat) = fun _ => 0 := funext fun a => by fin_cases a <;> rfl

/-- One point's stored block against the whole-array function: if the three activation blocks' rows `r` are rows
    `i 0` of `o1 o2 o3`, and the weight and bias blocks are the whole arrays, the stored value at `(r, q)` is `finalLayer`
    at the array index `i` of column `q`. -/
theorem point_eq (x0 x1 x2 : Vec Ideal S5000x128 .f32) (x3 x4 x5 : Vec Ideal S128x128 .f32) (x6 : Vec Ideal S1x128 .f32)
    (o1 o2 o3 : S100000x128.Idx → EReal) (w1 w2 w3 : S128x128.Idx → EReal) (b : S1x128.Idx → EReal)
    (r : Fin 5000) (q : Fin 128) (i : S100000x128.Idx)
    (h0 : ∀ k : Fin 128, x0 (ix2 r k) = o1 (ix2 (i 0) k)) (h1 : ∀ k : Fin 128, x1 (ix2 r k) = o2 (ix2 (i 0) k))
    (h2 : ∀ k : Fin 128, x2 (ix2 r k) = o3 (ix2 (i 0) k))
    (h3 : x3 = w1) (h4 : x4 = w2) (h5 : x5 = w3) (h6 : x6 = b) (hc : q = i 1) :
    k6_pay1 (F := Ideal) x0 x1 x2 x3 x4 x5 x6 (ix2 r q) = finalLayer o1 o2 o3 w1 w2 w3 b i := by
  subst h3 h4 h5 h6 hc
  refine (payload_apply x0 x1 x2 x3 x4 x5 x6 r (i 1)).trans ?_
  unfold finalLayer
  simp only [h0, h1, h2]

variable (V : (c : Dev nD) → (b : Ref sig .tc) → Buf (Elt Ideal) ((c : Thread nD τ).loc b))

/-- The printed index maps, decided once over the 20 grid points: the activation windows move with the output window
    along the rows and stay at column block 0; the weight and bias windows stay at block (0, 0); the output window's row
    block is the point's number. -/
theorem index_facts : ∀ t : Fin cfg6.N,
    win6_0.index t (0 : Fin 2) = win6_7.index t (0 : Fin 2) ∧ win6_0.index t (1 : Fin 2) = 0
    ∧ win6_1.index t (0 : Fin 2) = win6_7.index t (0 : Fin 2) ∧ win6_1.index t (1 : Fin 2) = 0
    ∧ win6_2.index t (0 : Fin 2) = win6_7.index t (0 : Fin 2) ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- The whole-array function at the region's entry contents. -/
abbrev finalAt (c : Dev nD) : S100000x128.Idx → EReal :=
  finalLayer (V c main_v63 : S100000x128.Idx → EReal) (V c main_v95 : S100000x128.Idx → EReal) (V c main_v127 : S100000x128.Idx → EReal)
    (V c main_v134 : S128x128.Idx → EReal) (V c main_v135 : S128x128.Idx → EReal) (V c main_v136 : S128x128.Idx → EReal)
    (V c main_v137 : S1x128.Idx → EReal)

/-- What point `t` writes back is block `t` of the whole-array function. -/
theorem flushed_eq (c : Dev nD) (t : Fin cfg6.N) :
    (dat6 (F := Ideal) V c).flushed 7 t = ((cfg6.win 7).blk t).view.read (Elt Ideal) (finalAt V c) := by
  show (cfg6.win 7).cut (grid6.coords t) ((dat6 (F := Ideal) V c).after 7 t) = _
  rw [after6_7]
  unfold out6_7
  rw [View.canon_unit_zero zero_offsets]
  simp only [View.ld_unit_zero (S := S5000x128) zero_offsets, View.ld_unit_zero (S := S128x128) zero_offsets, View.ld_unit_zero (S := S1x128) zero_offsets]
  obtain ⟨a0, a1, b0, b1, c0, c1, d0, d1, e0, e1, f0, f1, g0, g1, p0, p1⟩ := index_facts t
  funext y
  have hy : (y : S5000x128.Idx) = ix2 (⟨(y 0).val, (y 0).isLt⟩ : Fin 5000) (⟨(y 1).val, (y 1).isLt⟩ : Fin 128) := by
    funext a; match a with | ⟨0, _⟩ => rfl | ⟨1, _⟩ => rfl
  show k6_pay1 (F := Ideal) (iblk6 V c 0 t) (iblk6 V c 1 t) (iblk6 V c 2 t) (iblk6 V c 3 t) (iblk6 V c 4 t) (iblk6 V c 5 t) (iblk6 V c 6 t) y
    = finalAt V c (((cfg6.win 7).blk t).view.emb y)
  refine (congrArg (k6_pay1 (F := Ideal) (iblk6 V c 0 t) (iblk6 V c 1 t) (iblk6 V c 2 t) (iblk6 V c 3 t) (iblk6 V c 4 t) (iblk6 V c 5 t) (iblk6 V c 6 t)) hy).trans ?_
  refine point_eq (iblk6 V c 0 t) (iblk6 V c 1 t) (iblk6 V c 2 t) (iblk6 V c 3 t) (iblk6 V c 4 t) (iblk6 V c 5 t) (iblk6 V c 6 t)
    (V c main_v63) (V c main_v95) (V c main_v127) (V c main_v134) (V c main_v135) (V c main_v136) (V c main_v137)
    ⟨(y 0).val, (y 0).isLt⟩ ⟨(y 1).val, (y 1).isLt⟩ (((cfg6.win 7).blk t).view.emb y) ?_ ?_ ?_ ?_ ?_ ?_ ?_ ?_
  · intro k
    show V c main_v63 (((cfg6.win 0).blk t).view.emb (ix2 (⟨(y 0).val, (y 0).isLt⟩ : Fin 5000) k)) = V c main_v63 (ix2 ((((cfg6.win 7).blk t).view.emb y) 0) k)
    refine congrArg (V c main_v63) (funext fun a => Fin.ext ?_)
    match a with
    | ⟨0, _⟩ => show win6_0.index t (0 : Fin 2) * 5000 + 1 * (y 0).val = win6_7.index t (0 : Fin 2) * 5000 + 1 * (y 0).val; omega
    | ⟨1, _⟩ => show win6_0.index t (1 : Fin 2) * 128 + 1 * k.val = k.val; omega
  · intro k
    show V c main_v95 (((cfg6.win 1).blk t).view.emb (ix2 (⟨(y 0).val, (y 0).isLt⟩ : Fin 5000) k)) = V c main_v95 (ix2 ((((cfg6.win 7).blk t).view.emb y) 0) k)
    refine congrArg (V c main_v95) (funext fun a => Fin.ext ?_)
    match a with
    | ⟨0, _⟩ => show win6_1.index t (0 : Fin 2) * 5000 + 1 * (y 0).val = win6_7.index t (0 : Fin 2) * 5000 + 1 * (y 0).val; omega
    | ⟨1, _⟩ => show win6_1.index t (1 : Fin 2) * 128 + 1 * k.val = k.val; omega
  · intro k
    show V c main_v127 (((cfg6.win 2).blk t).view.emb (ix2 (⟨(y 0).val, (y 0).isLt⟩ : Fin 5000) k)) = V c main_v127 (ix2 ((((cfg6.win 7).blk t).view.emb y) 0) k)
    refine congrArg (V c main_v127) (funext fun a => Fin.ext ?_)
    match a with
    | ⟨0, _⟩ => show win6_2.index t (0 : Fin 2) * 5000 + 1 * (y 0).val = win6_7.index t (0 : Fin 2) * 5000 + 1 * (y 0).val; omega
    | ⟨1, _⟩ => show win6_2.index t (1 : Fin 2) * 128 + 1 * k.val = k.val; omega
  · funext z
    show V c main_v134 (((cfg6.win 3).blk t).view.emb z) = V c main_v134 z
    refine congrArg (V c main_v134) (funext fun a => Fin.ext ?_)
    match a with
    | ⟨0, _⟩ => show win6_3.index t (0 : Fin 2) * 128 + 1 * (z 0).val = (z 0).val; omega
    | ⟨1, _⟩ => show win6_3.index t (1 : Fin 2) * 128 + 1 * (z 1).val = (z 1).val; omega
  · funext z
    show V c main_v135 (((cfg6.win 4).blk t).view.emb z) = V c main_v135 z
    refine congrArg (V c main_v135) (funext fun a => Fin.ext ?_)
    match a with
    | ⟨0, _⟩ => show win6_4.index t (0 : Fin 2) * 128 + 1 * (z 0).val = (z 0).val; omega
    | ⟨1, _⟩ => show win6_4.index t (1 : Fin 2) * 128 + 1 * (z 1).val = (z 1).val; omega
  · funext z
    show V c main_v136 (((cfg6.win 5).blk t).view.emb z) = V c main_v136 z
    refine congrArg (V c main_v136) (funext fun a => Fin.ext ?_)
    match a with
    | ⟨0, _⟩ => show win6_5.index t (0 : Fin 2) * 128 + 1 * (z 0).val = (z 0).val; omega
    | ⟨1, _⟩ => show win6_5.index t (1 : Fin 2) * 128 + 1 * (z 1).val = (z 1).val; omega
  · funext z
    show V c main_v137 (((cfg6.win 6).blk t).view.emb z) = V c main_v137 z
    refine congrArg (V c main_v137) (funext fun a => Fin.ext ?_)
    match a with
    | ⟨0, _⟩ => show win6_6.index t (0 : Fin 2) * 1 + 1 * (z 0).val = (z 0).val; omega
    | ⟨1, _⟩ => show win6_6.index t (1 : Fin 2) * 128 + 1 * (z 1).val = (z 1).val; omega
  · refine Fin.ext ?_
    show (y 1).val = win6_7.index t (1 : Fin 2) * 128 + 1 * (y 1).val
    omega

/-- An index of the output array is in point `t`'s block iff each coordinate is in the block's range on its axis. -/
theorem mem_blk (t : Fin cfg6.N) (i : S100000x128.Idx) :
    i ∈ ((cfg6.win 7).blk t).view.set ↔ ∀ a : Fin 2, win6_7.index t a * S5000x128.size a ≤ (i a).val ∧ (i a).val < win6_7.index t a * S5000x128.size a + S5000x128.size a := by
  show i ∈ ((View.whole main_v138).slice (win6_7.rect t)).set ↔ _
  rw [View.set_slice_whole, Rect.mem_set_unit]
  exact Iff.rfl

/-- Every index of the output array is in the block of the point numbered by its row over 5000. -/
theorem cover (i : S100000x128.Idx) : ∃ t : Fin cfg6.N, (cfg6.win 7).flush t = true ∧ i ∈ ((cfg6.win 7).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  obtain ⟨-, -, -, -, -, -, -, -, -, -, -, -, -, -, p0, p1⟩ := index_facts t
  have ht : t.val = (i 0).val / 5000 := rfl
  refine ⟨t, flush6_7 t, ?_⟩
  rw [mem_blk]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 128 ≤ (i 1).val ∧ (i 1).val < win6_7.index t (1 : Fin 2) * 128 + 128; omega

/-- **The region's result**: after the last point the output array is the whole-array function of the region's entry
    contents, at every index. -/
theorem arrAt_final (c : Dev nD) : (dat6 (F := Ideal) V c).arrAt 7 cfg6.N = finalAt V c :=
  (dat6 (F := Ideal) V c).arrAt_eq_of_cover 7 (finalAt V c) (fun t _ => flushed_eq V c t) cover

/-- `finalLayer` read at an index (its definition, for rewriting by name). -/
theorem finalLayer_apply (o1 o2 o3 : S100000x128.Idx → EReal) (w1 w2 w3 : S128x128.Idx → EReal) (b : S1x128.Idx → EReal)
    (i : S100000x128.Idx) :
    finalLayer o1 o2 o3 w1 w2 w3 b i
      = ((∑ k : Fin 128, o1 (ix2 (i 0) k) * w1 (ix2 k (i 1))) + (∑ k : Fin 128, o2 (ix2 (i 0) k) * w2 (ix2 k (i 1)))
          + (∑ k : Fin 128, o3 (ix2 (i 0) k) * w3 (ix2 k (i 1)))) + b (ix2 (0 : Fin 1) (i 1)) := rfl

/-- The region's result read at an index. -/
theorem arrAt_final_apply (c : Dev nD) (i : S100000x128.Idx) :
    (dat6 (F := Ideal) V c).arrAt 7 cfg6.N i
      = finalLayer (V c main_v63) (V c main_v95) (V c main_v127) (V c main_v134) (V c main_v135) (V c main_v136) (V c main_v137) i :=
  congrFun (arrAt_final V c) i

end Cert.Bridge.RegionFinal
end
-- ==== Proof.LibScatterSet.lean ====
import Idealize.ShloMosaic.PureOps.ShapeOps

/-!
# Reading a replacing scatter at an index

`Host.scatter d f x idx upd` is a left fold, over the update indices in row-major order, of
single-element rewrites of the result: update index `j` rewrites the element at
`d.resultIdx? j idx` (when that is inside the operand) to `f (old) (upd j)`.

When the body `f` returns its second argument (a "set"), the value at a result index `i0` after
the whole fold is the update of the LAST update index that lands at `i0`. In particular, if
exactly one update index `j0` lands at `i0`, the result at `i0` is `upd j0`, whatever the
operand `x` held; and if no update index lands at `i0`, the result at `i0` is `x i0`.

The proofs are by induction on the list that is folded (written as `front ++ [last]`), and use
only that `List.finRange n` has no repetition and that `Shape.rowMajor` is a bijection.
-/

namespace Cert.Lib.ScatterSet

open Idealize.ShloMosaic

variable {ι κ β : Type} [DecidableEq κ]

/-- One step of a replacing scatter over an abstract update-index type `ι`: the element at
    `g n` (when there is one) becomes `v n`. -/
def step (g : ι → Option κ) (v : ι → β) (r : κ → β) (n : ι) : κ → β :=
  match g n with
  | some i => fun i' => if i' = i then v n else r i'
  | none => r

theorem step_of_ne (g : ι → Option κ) (v : ι → β) (r : κ → β) (n : ι) (i0 : κ) (h : g n ≠ some i0) :
    step g v r n i0 = r i0 := by
  unfold step
  cases hg : g n with
  | none => rfl
  | some i =>
    have hne : i0 ≠ i := fun e => h (by rw [hg, e])
    simp [hne]

theorem step_of_eq (g : ι → Option κ) (v : ι → β) (r : κ → β) (n : ι) (i0 : κ) (h : g n = some i0) :
    step g v r n i0 = v n := by
  unfold step
  rw [h]
  simp

/-- A fold of replacing steps does not change an index at which no step lands. -/
theorem foldl_step_of_forall_ne (g : ι → Option κ) (v : ι → β) (i0 : κ) :
    ∀ (l : List ι) (x : κ → β), (∀ n ∈ l, g n ≠ some i0) → l.foldl (step g v) x i0 = x i0 := by
  intro l
  induction l with
  | nil => intro x _; rfl
  | cons a l ih =>
    intro x h
    rw [List.foldl_cons, ih _ (fun n hn => h n (List.mem_cons_of_mem _ hn))]
    exact step_of_ne g v x a i0 (h a List.mem_cons_self)

/-- A fold of replacing steps over a list in which `n0` occurs, and in which no other member
    lands where `n0` does, leaves `n0`'s value there (the list has no repetition). -/
theorem foldl_step_of_unique (g : ι → Option κ) (v : ι → β) (i0 : κ) (l : List ι) (hl : l.Nodup) (x : κ → β)
    (n0 : ι) (hn0 : n0 ∈ l) (h0 : g n0 = some i0) (hu : ∀ n ∈ l, n ≠ n0 → g n ≠ some i0) :
    l.foldl (step g v) x i0 = v n0 := by
  obtain ⟨l1, l2, rfl⟩ := List.append_of_mem hn0
  have hnot : n0 ∉ l2 := by
    have := (List.nodup_append.1 hl).2.1
    exact (List.nodup_cons.1 this).1
  rw [List.foldl_append, List.foldl_cons]
  rw [foldl_step_of_forall_ne g v i0 l2 _ (fun n hn => hu n (by simp [hn]) (fun e => hnot (e ▸ hn)))]
  exact step_of_eq g v _ n0 i0 h0

variable {s si u : Shape} {α : Type} {w : Nat}

/-- `Host.scatter` with the body that returns the update is a fold of `LibScatterSet.step`. -/
theorem scatter_set_eq_foldl (d : ScatterDims s si u) (x : s.Idx → α) (idx : IVec si w) (upd : u.Idx → α) :
    Host.scatter d (fun _ b => b) x idx upd =
      (List.finRange u.numel).foldl
        (step (fun n => d.resultIdx? (u.rowMajor.symm n) idx) (fun n => upd (u.rowMajor.symm n))) x := by
  unfold Host.scatter
  congr 1
  funext r n
  unfold step
  beta_reduce
  cases d.resultIdx? (u.rowMajor.symm n) idx <;> rfl

/-- A replacing scatter read at a result index `i0` at which exactly one update index `j0`
    lands: the result is that update, whatever the operand held there. -/
theorem scatter_set_apply_of_unique (d : ScatterDims s si u) (x : s.Idx → α) (idx : IVec si w) (upd : u.Idx → α)
    (j0 : u.Idx) (i0 : s.Idx) (h0 : d.resultIdx? j0 idx = some i0)
    (hu : ∀ j : u.Idx, j ≠ j0 → d.resultIdx? j idx ≠ some i0) :
    Host.scatter d (fun _ b => b) x idx upd i0 = upd j0 := by
  rw [scatter_set_eq_foldl]
  have := foldl_step_of_unique (fun n => d.resultIdx? (u.rowMajor.symm n) idx) (fun n => upd (u.rowMajor.symm n)) i0
    (List.finRange u.numel) (List.nodup_finRange _) x (u.rowMajor j0) (List.mem_finRange _)
    (by simpa using h0)
    (fun n _ hn => hu _ (fun e => hn (by rw [← e]; simp)))
  simpa using this

/-- A replacing scatter read at a result index at which no update index lands: the operand. -/
theorem scatter_set_apply_of_none (d : ScatterDims s si u) (x : s.Idx → α) (idx : IVec si w) (upd : u.Idx → α)
    (i0 : s.Idx) (hn : ∀ j : u.Idx, d.resultIdx? j idx ≠ some i0) :
    Host.scatter d (fun _ b => b) x idx upd i0 = x i0 := by
  rw [scatter_set_eq_foldl]
  exact foldl_step_of_forall_ne _ _ i0 _ x (fun n _ => hn _)

/-- Update index `j` lands at result index `i` exactly when, on every operand axis, the window's
    start plus `j`'s window coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have h1 := congrFun (Option.some.inj h) a
      have h2 := congrArg Fin.val h1
      simp only at h2
      have := hb a
      omega
    · cases h
  · intro h
    have hb : ∀ a, 0 ≤ d.start j idx a + d.window j a ∧ d.start j idx a + d.window j a < s.size a := by
      intro a
      rw [h a]
      exact ⟨by omega, by exact_mod_cast (i a).isLt⟩
    rw [dif_pos hb]
    congr 1
    funext a
    apply Fin.ext
    simp only [h a]
    simp

/-- A replacing scatter whose windows all start at `0` and whose window coordinates are the update
    index's own coordinates (through a map `c` of the operand's axes to the update's) copies the
    update: at the result index `i0` with `j0`'s coordinates it reads `upd j0`. -/
theorem scatter_set_apply_of_coords (d : ScatterDims s si u) (x : s.Idx → α) (idx : IVec si w) (upd : u.Idx → α)
    (c : Fin s.rank → Fin u.rank) (hc : Function.Surjective c)
    (hstart : ∀ (j : u.Idx) a, d.start j idx a = 0) (hwin : ∀ (j : u.Idx) a, d.window j a = (j (c a)).val)
    (j0 : u.Idx) (i0 : s.Idx) (h0 : ∀ a, (i0 a).val = (j0 (c a)).val) :
    Host.scatter d (fun _ b => b) x idx upd i0 = upd j0 := by
  refine scatter_set_apply_of_unique d x idx upd j0 i0 ?_ ?_
  · rw [resultIdx?_eq_some_iff]
    intro a
    rw [hstart, hwin, h0]
    simp
  · intro j hj hland
    rw [resultIdx?_eq_some_iff] at hland
    apply hj
    funext b
    obtain ⟨a, rfl⟩ := hc b
    have := hland a
    rw [hstart, hwin, h0] at this
    apply Fin.ext
    omega

end Cert.Lib.ScatterSet
-- ==== Proof.PadRead.lean ====
import proofs.«159183_j16226386444400_1_alg».proof.KernelIdeal
import proofs.«159183_j16226386444400_1_alg».proof.Proof.LibScatterSet
import Idealize.ShloMosaic.Lib.Pipeline.Value
import Idealize.ShloMosaic.Lib.ValueIdx

/-!
# The zero-padded weight and bias, read at an index

The program pads the weight `W : [384, 10]` to `[384, 128]` and the bias `b : [10]` to `[128]` by a
replacing scatter into a base array, at the single start index `0`. Both scatters have every window
axis kept, so update index `j` lands at the result index with the same coordinates as `j`; distinct
update indices land at distinct places. Hence the padded array agrees with the update on the
update's index range (columns `< 10`), and with the base array elsewhere.

The padded weight is then cut into three `[128, 128]` row blocks (rows `off + k`, `off = 0, 128, 256`)
and the padded bias is viewed as `[1, 128]`.

All statements are for an arbitrary element type and arbitrary base array, weight and bias; the start
index operand is written as the broadcast of the 32-bit constant `0` to shape `[1]`.
-/

namespace Cert.Bridge.PadRead

open Idealize.ShloMosaic Idealize.ShloMosaic.ValueIdx Cert.KernelIdeal Cert.Lib.ScatterSet

variable [Facts₀]
open Facts₀

variable {α : Type}

/-- The start-index operand: the 32-bit constant `0` broadcast to shape `[1]`. -/
abbrev zeroStart : IVec S1 32 := broadcastInDim S1 ![] bcast_S_S1 (constantI S_ 32 0#32)

/-- Every component of the start-index operand is the word `0`. -/
theorem zeroStart_apply (k : S1.Idx) : zeroStart k = 0#32 := rfl

/-! ## Where an update index lands -/

/-- Weight scatter: every window starts at `0` on both axes. -/
theorem startW (j : S384x10.Idx) (a : Fin S384x128.rank) :
    scatter_S384x128_S1_S384x10_01_n_1_0.start j zeroStart a = 0 := by
  unfold ScatterDims.start
  split
  · rfl
  · rfl

/-- Weight scatter: the window coordinate on an axis is the update index's coordinate on it. -/
theorem winW (j : S384x10.Idx) (a : Fin S384x128.rank) :
    scatter_S384x128_S1_S384x10_01_n_1_0.window j a = (j a).val := by
  match a with
  | ⟨0, _⟩ => rfl
  | ⟨1, _⟩ => rfl

/-- Bias scatter: the window starts at `0`. -/
theorem startB (j : S10.Idx) (a : Fin S128.rank) :
    scatter_S128_S1_S10_0_n_0_0.start j zeroStart a = 0 := by
  unfold ScatterDims.start
  split
  · rfl
  · rfl

/-- Bias scatter: the window coordinate is the update index's coordinate. -/
theorem winB (j : S10.Idx) (a : Fin S128.rank) :
    scatter_S128_S1_S10_0_n_0_0.window j a = (j a).val := by
  match a with
  | ⟨0, _⟩ => rfl

/-- Weight scatter: update index `j` lands at `i` exactly when `i` has `j`'s coordinates. -/
theorem landsW_iff (j : S384x10.Idx) (i : S384x128.Idx) :
    scatter_S384x128_S1_S384x10_01_n_1_0.resultIdx? j zeroStart = some i ↔ ∀ a, (i a).val = (j a).val := by
  rw [resultIdx?_eq_some_iff]
  refine forall_congr' fun a => ?_
  rw [startW, winW]
  omega

/-- Bias scatter: update index `j` lands at `i` exactly when `i` has `j`'s coordinate. -/
theorem landsB_iff (j : S10.Idx) (i : S128.Idx) :
    scatter_S128_S1_S10_0_n_0_0.resultIdx? j zeroStart = some i ↔ ∀ a, (i a).val = (j a).val := by
  rw [resultIdx?_eq_some_iff]
  refine forall_congr' fun a => ?_
  rw [startB, winB]
  omega

/-! ## The padded arrays -/

/-- The padded weight agrees with the weight on columns `< 10`, whatever the base array. -/
theorem padW_apply (x : S384x128.Idx → α) (W : S384x10.Idx → α) (k : Fin 384) (j : Fin 10) :
    Host.scatter scatter_S384x128_S1_S384x10_01_n_1_0 (fun _ b => b) x zeroStart W
      (ix2 k ⟨j.val, Nat.lt_of_lt_of_le j.isLt (by decide)⟩) = W (ix2 k j) := by
  refine scatter_set_apply_of_coords _ x _ W (fun a => a) (fun b => ⟨b, rfl⟩) startW winW _ _ ?_
  intro a
  match a with
  | ⟨0, _⟩ => rfl
  | ⟨1, _⟩ => rfl

/-- The padded weight is the base array on columns `≥ 10`. -/
theorem padW_apply_of_ge (x : S384x128.Idx → α) (W : S384x10.Idx → α) (i : S384x128.Idx) (hi : 10 ≤ (i 1).val) :
    Host.scatter scatter_S384x128_S1_S384x10_01_n_1_0 (fun _ b => b) x zeroStart W i = x i := by
  refine scatter_set_apply_of_none _ x _ W i fun j hj => ?_
  have h1 := (landsW_iff j i).1 hj 1
  have := idx2_lt1 j
  omega

/-- The padded bias agrees with the bias on entries `< 10`, whatever the base array. -/
theorem padB_apply (x : S128.Idx → α) (b : S10.Idx → α) (j : Fin 10) :
    Host.scatter scatter_S128_S1_S10_0_n_0_0 (fun _ b => b) x zeroStart b
      (ix1 ⟨j.val, Nat.lt_of_lt_of_le j.isLt (by decide)⟩) = b (ix1 j) := by
  refine scatter_set_apply_of_coords _ x _ b (fun a => a) (fun c => ⟨c, rfl⟩) startB winB _ _ ?_
  intro a
  match a with
  | ⟨0, _⟩ => rfl

/-- The padded bias is the base array on entries `≥ 10`. -/
theorem padB_apply_of_ge (x : S128.Idx → α) (b : S10.Idx → α) (i : S128.Idx) (hi : 10 ≤ (i 0).val) :
    Host.scatter scatter_S128_S1_S10_0_n_0_0 (fun _ b => b) x zeroStart b i = x i := by
  refine scatter_set_apply_of_none _ x _ b i fun j hj => ?_
  have h1 := (landsB_iff j i).1 hj 0
  have : (j 0).val < 10 := (j 0).isLt
  omega

/-! ## The three row blocks of the padded weight, and the padded bias as a row -/

/-- Rows `0 … 127` of the padded weight. -/
theorem padW_block0_apply (x : S384x128.Idx → α) (W : S384x10.Idx → α) (k : Fin 128) (j : Fin 10) :
    extractStridedSlice S128x128 ![0, 0]
        (Host.scatter scatter_S384x128_S1_S384x10_01_n_1_0 (fun _ b => b) x zeroStart W)
        slices_S384x128_S128x128_0_0 (ix2 k ⟨j.val, Nat.lt_of_lt_of_le j.isLt (by decide)⟩)
      = W (ix2 ⟨0 + k.val, by have := k.isLt; omega⟩ j) := by
  rw [extractStridedSlice_apply _ _ _ _
    (ix2 (⟨0 + k.val, by have := k.isLt; omega⟩ : Fin 384) (⟨j.val, Nat.lt_of_lt_of_le j.isLt (by decide)⟩ : Fin 128))
    (by intro a; match a with
      | ⟨0, _⟩ => rfl
      | ⟨1, _⟩ => simp)]
  exact padW_apply x W _ j

/-- Rows `128 … 255` of the padded weight. -/
theorem padW_block1_apply (x : S384x128.Idx → α) (W : S384x10.Idx → α) (k : Fin 128) (j : Fin 10) :
    extractStridedSlice S128x128 ![128, 0]
        (Host.scatter scatter_S384x128_S1_S384x10_01_n_1_0 (fun _ b => b) x zeroStart W)
        slices_S384x128_S128x128_128_0 (ix2 k ⟨j.val, Nat.lt_of_lt_of_le j.isLt (by decide)⟩)
      = W (ix2 ⟨128 + k.val, by have := k.isLt; omega⟩ j) := by
  rw [extractStridedSlice_apply _ _ _ _
    (ix2 (⟨128 + k.val, by have := k.isLt; omega⟩ : Fin 384) (⟨j.val, Nat.lt_of_lt_of_le j.isLt (by decide)⟩ : Fin 128))
    (by intro a; match a with
      | ⟨0, _⟩ => rfl
      | ⟨1, _⟩ => simp)]
  exact padW_apply x W _ j

/-- Rows `256 … 383` of the padded weight. -/
theorem padW_block2_apply (x : S384x128.Idx → α) (W : S384x10.Idx → α) (k : Fin 128) (j : Fin 10) :
    extractStridedSlice S128x128 ![256, 0]
        (Host.scatter scatter_S384x128_S1_S384x10_01_n_1_0 (fun _ b => b) x zeroStart W)
        slices_S384x128_S128x128_256_0 (ix2 k ⟨j.val, Nat.lt_of_lt_of_le j.isLt (by decide)⟩)
      = W (ix2 ⟨256 + k.val, by have := k.isLt; omega⟩ j) := by
  rw [extractStridedSlice_apply _ _ _ _
    (ix2 (⟨256 + k.val, by have := k.isLt; omega⟩ : Fin 384) (⟨j.val, Nat.lt_of_lt_of_le j.isLt (by decide)⟩ : Fin 128))
    (by intro a; match a with
      | ⟨0, _⟩ => rfl
      | ⟨1, _⟩ => simp)]
  exact padW_apply x W _ j

/-- The padded bias viewed as a `[1, 128]` row. -/
theorem padB_row_apply (x : S128.Idx → α) (b : S10.Idx → α) (j : Fin 10) :
    shapeCast S1x128 (Host.scatter scatter_S128_S1_S10_0_n_0_0 (fun _ b => b) x zeroStart b)
        shapeCasts_S128_S1x128 (ix2 0 ⟨j.val, Nat.lt_of_lt_of_le j.isLt (by decide)⟩)
      = b (ix1 j) := by
  rw [shapeCast_addUnit_apply]
  have : (fun a : Fin 1 => (ix2 (0 : Fin 1) (⟨j.val, Nat.lt_of_lt_of_le j.isLt (by decide)⟩ : Fin 128) :
      S1x128.Idx) a.succ) = (ix1 (⟨j.val, Nat.lt_of_lt_of_le j.isLt (by decide)⟩ : Fin 128) : S128.Idx) := by
    funext a
    match a with
    | ⟨0, _⟩ => rfl
  rw [this]
  exact padB_apply x b j

end Cert.Bridge.PadRead
-- ==== Proof.LibSplitSum.lean ====
import Idealize.ShloMosaic.Lib.Pipeline.Value
import Idealize.ShloMosaic.Lib.ValueIdx

/-!
# A sum over a concatenated axis, split by piece

Two facts of plain index arithmetic, and their combination.

* A finite sum over `Fin N`, `N = a + (b + c)`, is the sum of the three sums over the consecutive ranges of lengths
  `a`, `b`, `c` (`sum_three_ranges`). Only commutative-monoid addition is used, so the statement holds for the extended
  reals with no finiteness hypothesis.
* A concatenation of three matrices with the same number of rows along the column axis, read at row `r` and a column of
  the first, second or third range, is the first, second or third matrix read at row `r` and the column's offset in
  its range (`concatenate3_cols_left`, `_mid`, `_right`).
* Hence a row of the concatenation contracted against a matrix `W` is the sum of the three pieces' rows contracted
  against the three consecutive row ranges of `W` (`sum_concatenate3_mul`).
-/

namespace Idealize.ShloMosaic.SplitSum

open Idealize.ShloMosaic Idealize.ShloMosaic.ValueIdx

/-- A sum over `Fin N` with `N = a + (b + c)` splits into the sums over its first `a`, next `b` and last `c` indices. -/
theorem sum_three_ranges {M : Type*} [AddCommMonoid M] {N : Nat} (a b c : Nat) (hN : N = a + (b + c)) (f : Fin N → M) :
    ∑ k : Fin N, f k
      = (∑ k : Fin a, f ⟨k.val, by have := k.isLt; omega⟩) + (∑ k : Fin b, f ⟨a + k.val, by have := k.isLt; omega⟩)
          + (∑ k : Fin c, f ⟨a + (b + k.val), by have := k.isLt; omega⟩) := by
  subst hN
  rw [Fin.sum_univ_add, Fin.sum_univ_add, add_assoc]
  rfl

section Concatenate

variable {α : Type} {R n1 n2 n3 N : Nat}

/-- The three pieces with their shapes, as the concatenation takes them. -/
abbrev pieces (x1 : (⟨2, ![R, n1]⟩ : Shape).Idx → α) (x2 : (⟨2, ![R, n2]⟩ : Shape).Idx → α) (x3 : (⟨2, ![R, n3]⟩ : Shape).Idx → α) :
    List ((s : Shape) × (s.Idx → α)) :=
  [⟨⟨2, ![R, n1]⟩, x1⟩, ⟨⟨2, ![R, n2]⟩, x2⟩, ⟨⟨2, ![R, n3]⟩, x3⟩]

variable (x1 : (⟨2, ![R, n1]⟩ : Shape).Idx → α) (x2 : (⟨2, ![R, n2]⟩ : Shape).Idx → α) (x3 : (⟨2, ![R, n3]⟩ : Shape).Idx → α)
  (h : Shape.Concatenates ((pieces x1 x2 x3).map (·.1)) ⟨2, ![R, N]⟩ (1 : Fin (⟨2, ![R, N]⟩ : Shape).rank))

include h in
/-- The three pieces' extents along the column axis laid end to end fill the result's: the concatenation's side
    condition. -/
theorem cols_eq : N = n1 + (n2 + n3) := by
  have e := h.2.2
  simp only [pieces, List.map_cons, List.map_nil, List.sum_cons, List.sum_nil] at e
  exact e.symm

/-- A column of the first range reads the first piece. -/
theorem concatenate3_cols_left (r : Fin R) (k : Fin n1) (hk : k.val < N) :
    concatenate ⟨2, ![R, N]⟩ (1 : Fin (⟨2, ![R, N]⟩ : Shape).rank) (pieces x1 x2 x3) h (ix2 r ⟨k.val, hk⟩) = x1 (ix2 r k) := by
  refine concatenate_apply_piece (1 : Fin (⟨2, ![R, N]⟩ : Shape).rank) (pieces x1 x2 x3) h (ix2 r ⟨k.val, hk⟩) 0 (Nat.zero_lt_succ _)
    ⟨2, ![R, n1]⟩ x1 rfl rfl 0 rfl (ix2 r k) (fun b hb => ?_) ?_
  · match b with
    | ⟨0, _⟩ => rfl
    | ⟨1, _⟩ => exact absurd rfl hb
  · show 0 + k.val = k.val
    omega

/-- A column of the second range reads the second piece, at the column's offset past the first piece. -/
theorem concatenate3_cols_mid (r : Fin R) (k : Fin n2) (hk : n1 + k.val < N) :
    concatenate ⟨2, ![R, N]⟩ (1 : Fin (⟨2, ![R, N]⟩ : Shape).rank) (pieces x1 x2 x3) h (ix2 r ⟨n1 + k.val, hk⟩) = x2 (ix2 r k) := by
  refine concatenate_apply_piece (1 : Fin (⟨2, ![R, N]⟩ : Shape).rank) (pieces x1 x2 x3) h (ix2 r ⟨n1 + k.val, hk⟩) 1 (Nat.succ_lt_succ (Nat.zero_lt_succ _))
    ⟨2, ![R, n2]⟩ x2 rfl rfl n1 (by simp [pieces]) (ix2 r k) (fun b hb => ?_) ?_
  · match b with
    | ⟨0, _⟩ => rfl
    | ⟨1, _⟩ => exact absurd rfl hb
  · rfl

/-- A column of the third range reads the third piece, at the column's offset past the first two. -/
theorem concatenate3_cols_right (r : Fin R) (k : Fin n3) (hk : n1 + (n2 + k.val) < N) :
    concatenate ⟨2, ![R, N]⟩ (1 : Fin (⟨2, ![R, N]⟩ : Shape).rank) (pieces x1 x2 x3) h (ix2 r ⟨n1 + (n2 + k.val), hk⟩) = x3 (ix2 r k) := by
  refine concatenate_apply_piece (1 : Fin (⟨2, ![R, N]⟩ : Shape).rank) (pieces x1 x2 x3) h (ix2 r ⟨n1 + (n2 + k.val), hk⟩) 2 (Nat.succ_lt_succ (Nat.succ_lt_succ (Nat.zero_lt_succ _)))
    ⟨2, ![R, n3]⟩ x3 rfl rfl (n1 + n2) (by simp [pieces]) (ix2 r k) (fun b hb => ?_) ?_
  · match b with
    | ⟨0, _⟩ => rfl
    | ⟨1, _⟩ => exact absurd rfl hb
  · show n1 + n2 + k.val = n1 + (n2 + k.val)
    omega

end Concatenate

/-- **A row of a three-piece concatenation contracted against a matrix**: the three pieces' rows contracted against the
    three consecutive row ranges of the matrix, added in order. Only the addition of a commutative monoid is used (no
    distributivity, no cancellation), so this holds over the extended reals as it stands. -/
theorem sum_concatenate3_mul {M : Type} [AddCommMonoid M] [Mul M] {R n1 n2 n3 N C : Nat}
    (x1 : (⟨2, ![R, n1]⟩ : Shape).Idx → M) (x2 : (⟨2, ![R, n2]⟩ : Shape).Idx → M) (x3 : (⟨2, ![R, n3]⟩ : Shape).Idx → M)
    (h : Shape.Concatenates ((pieces x1 x2 x3).map (·.1)) ⟨2, ![R, N]⟩ (1 : Fin (⟨2, ![R, N]⟩ : Shape).rank))
    (W : (⟨2, ![N, C]⟩ : Shape).Idx → M) (r : Fin R) (j : Fin C) :
    ∑ k : Fin N, concatenate ⟨2, ![R, N]⟩ (1 : Fin (⟨2, ![R, N]⟩ : Shape).rank) (pieces x1 x2 x3) h (ix2 r k) * W (ix2 k j)
      = (∑ k : Fin n1, x1 (ix2 r k) * W (ix2 (⟨k.val, by have := k.isLt; have := cols_eq x1 x2 x3 h; omega⟩ : Fin N) j))
        + (∑ k : Fin n2, x2 (ix2 r k) * W (ix2 (⟨n1 + k.val, by have := k.isLt; have := cols_eq x1 x2 x3 h; omega⟩ : Fin N) j))
        + (∑ k : Fin n3, x3 (ix2 r k) * W (ix2 (⟨n1 + (n2 + k.val), by have := k.isLt; have := cols_eq x1 x2 x3 h; omega⟩ : Fin N) j)) := by
  rw [sum_three_ranges n1 n2 n3 (cols_eq x1 x2 x3 h)]
  refine congrArg₂ (· + ·) (congrArg₂ (· + ·) ?_ ?_) ?_
  · exact Finset.sum_congr rfl fun k _ => congrArg (· * _) (concatenate3_cols_left x1 x2 x3 h r k _)
  · exact Finset.sum_congr rfl fun k _ => congrArg (· * _) (concatenate3_cols_mid x1 x2 x3 h r k _)
  · exact Finset.sum_congr rfl fun k _ => congrArg (· * _) (concatenate3_cols_right x1 x2 x3 h r k _)

end Idealize.ShloMosaic.SplitSum
-- ==== Proof.RefFinal.lean ====
/-
  The reference's last stage read at an index.

  The reference concatenates the three layers' activations along the columns ([100000, 384]), contracts the result with
  the [384, 10] classifier matrix and adds the bias vector. Read at row `r` and class `j` this is the sum of three
  contractions over 128 columns each — one per layer, against rows 0–127, 128–255, 256–383 of the matrix — plus the
  bias entry `j`: a concatenation read at an index is the piece that holds the column, and a sum over 384 consecutive
  indices is the sum of its three thirds.
-/
import proofs.«159183_j16226386444400_1_alg».proof.Proof.RefReadP
import proofs.«159183_j16226386444400_1_alg».proof.Proof.LibSplitSum

noncomputable section

open Idealize.ShloMosaic Idealize.ShloMosaic.TcCoe Idealize.SL.Sem

namespace Cert.Bridge.RefFinal

open Cert.ReferenceIdeal Cert.ReferenceIdeal.Gen Cert.ReferenceIdeal.ReadP
open Idealize.ShloMosaic.ValueIdx (ix2 ix1)

/-- A row of the concatenated activations contracted against the classifier matrix: the three layers' rows contracted
    against the matrix's three consecutive blocks of 128 rows. -/
theorem concat_dot_apply (o1 o2 o3 : S100000x128.Idx → EReal) (Wl : S384x10.Idx → EReal) (r : Fin 100000) (j : Fin 10) :
    ∑ k : Fin 384, concatenate S100000x384 1 [⟨S100000x128, o1⟩, ⟨S100000x128, o2⟩, ⟨S100000x128, o3⟩] concatenates_S100000x128_S100000x128_S100000x128_S100000x384_d1 (ix2 r k) * Wl (ix2 k j)
      = (∑ k : Fin 128, o1 (ix2 r k) * Wl (ix2 (⟨k.val, by have := k.isLt; omega⟩ : Fin 384) j))
        + (∑ k : Fin 128, o2 (ix2 r k) * Wl (ix2 (⟨128 + k.val, by have := k.isLt; omega⟩ : Fin 384) j))
        + (∑ k : Fin 128, o3 (ix2 r k) * Wl (ix2 (⟨256 + k.val, by have := k.isLt; omega⟩ : Fin 384) j)) := by
  refine (SplitSum.sum_concatenate3_mul (M := EReal) (R := 100000) (n1 := 128) (n2 := 128) (n3 := 128) (N := 384) (C := 10)
    o1 o2 o3 concatenates_S100000x128_S100000x128_S100000x128_S100000x384_d1 Wl r j).trans ?_
  refine congrArg₂ (· + ·) rfl (Finset.sum_congr rfl fun k _ => ?_)
  exact congrArg (fun z : Fin 384 => o3 (ix2 r k) * Wl (ix2 z j)) (Fin.ext (by show 128 + (128 + k.val) = 256 + k.val; omega))

/-- **The reference's result at row `r`, class `j`**: the three layers' activations (the stages the concatenation
    takes) contracted against the classifier matrix's three row blocks, added in order, plus the bias entry. -/
theorem val_main_v165_read (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S384x10, .f32⟩ : BufTy).Contents (Elt Ideal)) (x16 : (⟨S10, .f32⟩ : BufTy).Contents (Elt Ideal)) (r : Fin 100000) (j : Fin 10) :
    val_main_v165 (F := Ideal) x0 x1 x2 x3 x4 x5 x6 x7 x8 x9 x10 x11 x12 x13 x14 x15 x16 (ix2 r j)
      = ((∑ k : Fin 128, val_main_v74 (F := Ideal) x0 x1 x2 x3 x4 x5 x6 (ix2 r k) * x15 (ix2 (⟨k.val, by have := k.isLt; omega⟩ : Fin 384) j))
          + (∑ k : Fin 128, val_main_v117 (F := Ideal) x0 x1 x2 x3 x4 x5 x6 x7 x8 x9 x10 (ix2 r k) * x15 (ix2 (⟨128 + k.val, by have := k.isLt; omega⟩ : Fin 384) j))
          + (∑ k : Fin 128, val_main_v160 (F := Ideal) x0 x1 x2 x3 x4 x5 x6 x7 x8 x9 x10 x11 x12 x13 x14 (ix2 r k) * x15 (ix2 (⟨256 + k.val, by have := k.isLt; omega⟩ : Fin 384) j)))
        + x16 (ix1 j) := by
  refine (val_main_v165_apply (F := Ideal) x0 x1 x2 x3 x4 x5 x6 x7 x8 x9 x10 x11 x12 x13 x14 x15 x16 (ix2 r j)).trans ?_
  refine congrArg₂ (· + ·) ?_ ?_
  · refine (val_main_v162_apply x0 x1 x2 x3 x4 x5 x6 x7 x8 x9 x10 x11 x12 x13 x14 x15 (ix2 r j)).trans ?_
    have el : ∀ k : Fin 384, lidx_main_v162 (ix2 r j) k = ix2 r k := fun k => funext fun a => by
      match a with
      | ⟨0, _⟩ => rfl
      | ⟨1, _⟩ => rfl
    have er : ∀ k : Fin 384, ridx_main_v162 (ix2 r j) k = ix2 k j := fun k => funext fun a => by
      match a with
      | ⟨0, _⟩ => rfl
      | ⟨1, _⟩ => rfl
    refine (Finset.sum_congr rfl fun k _ => congrArg₂ (fun a b => val_main_v161 (F := Ideal) x0 x1 x2 x3 x4 x5 x6 x7 x8 x9 x10 x11 x12 x13 x14 a * x15 b) (el k) (er k)).trans ?_
    exact concat_dot_apply (val_main_v74 (F := Ideal) x0 x1 x2 x3 x4 x5 x6) (val_main_v117 (F := Ideal) x0 x1 x2 x3 x4 x5 x6 x7 x8 x9 x10) (val_main_v160 (F := Ideal) x0 x1 x2 x3 x4 x5 x6 x7 x8 x9 x10 x11 x12 x13 x14) x15 r j
  · refine (val_main_v164_apply x16 (ix2 r j)).trans ((val_main_v163_apply x16 _).trans (congrArg x16 ?_))
    funext a
    match a with
    | ⟨0, _⟩ => rfl

end Cert.Bridge.RefFinal

end
-- ==== Proof.ChainOut.lean ====
/-
  The last layer.  The kernel program pads the 384×10 output weight with zero columns to 384×128 and the 10 biases to 128,
  cuts the padded weight into three 128×128 blocks, and its last kernel computes, block of 5000 rows by block,
  o1·W[0:128] + o2·W[128:256] + o3·W[256:384] + bias over 128 columns, of which the result keeps the first 10.  The reference
  multiplies the concatenation [o1 | o2 | o3] (384 columns) by the 384×10 weight and adds the bias.  In a kept column j < 10 the
  padded weight and bias are the arguments' own entries, and a sum over 384 inner indices is the sum of its three runs of 128:
  only the grouping of a sum changes, which holds on the extended reals without any finiteness.
-/
import proofs.«159183_j16226386444400_1_alg».proof.Proof.Gen.KernelIdeal.Frame
import proofs.«159183_j16226386444400_1_alg».proof.Proof.Keep
import proofs.«159183_j16226386444400_1_alg».proof.Proof.RefReadP
import proofs.«159183_j16226386444400_1_alg».proof.Proof.ChainBase
import proofs.«159183_j16226386444400_1_alg».proof.Proof.ChainL1
import proofs.«159183_j16226386444400_1_alg».proof.Proof.ChainL2
import proofs.«159183_j16226386444400_1_alg».proof.Proof.ChainL3
import proofs.«159183_j16226386444400_1_alg».proof.Proof.RegionFinal
import proofs.«159183_j16226386444400_1_alg».proof.Proof.PadRead
import proofs.«159183_j16226386444400_1_alg».proof.Proof.RefFinal
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.Bridge.Out

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The three layers' outputs where the last kernel is entered. -/
theorem o1_in : W13 m ρ c (Proc.devRef .tc main_v63) = Cert.ReferenceIdeal.ReadP.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := ((Cert.KernelIdeal.Keep.W13_keep m ρ c main_v63 (by decide)).trans ((W12_of_ne m ρ c main_v63 (by decide)).trans ((Cert.KernelIdeal.Keep.W11_keep m ρ c main_v63 (by decide)).trans ((W10_of_ne m ρ c main_v63 (by decide)).trans ((W9_of_ne m ρ c main_v63 (by decide)).trans ((Cert.KernelIdeal.Keep.W8_keep m ρ c main_v63 (by decide)).trans ((W7_arr m ρ c 0).trans (((dat2 (V6 m ρ) c).arrAt_in 0 rfl _).trans (A_eq2 (V6 m ρ) c 0))))))))).trans (Cert.Bridge.Layer1.out_at m ρ c)
theorem o2_in : W13 m ρ c (Proc.devRef .tc main_v95) = Cert.ReferenceIdeal.ReadP.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := ((Cert.KernelIdeal.Keep.W13_keep m ρ c main_v95 (by decide)).trans ((W12_of_ne m ρ c main_v95 (by decide)).trans ((Cert.KernelIdeal.Keep.W11_keep m ρ c main_v95 (by decide)).trans ((W10_arr m ρ c 0).trans (((dat4 (V9 m ρ) c).arrAt_in 0 rfl _).trans (A_eq4 (V9 m ρ) c 0)))))).trans (Cert.Bridge.Layer2.out_at m ρ c)
theorem o3_in : W13 m ρ c (Proc.devRef .tc main_v127) = Cert.ReferenceIdeal.ReadP.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := (Cert.KernelIdeal.Keep.W13_keep m ρ c main_v127 (by decide)).trans (Cert.Bridge.Layer3.out_at m ρ c)
/-- The output weight and bias, as launched, where they are padded. -/
theorem wlin_in : W12 m ρ c (Proc.devRef .tc main_arg15) = (m ((c : Thread nD τ).loc main_arg15)) := (((W12_of_ne m ρ c main_arg15 (by decide)).trans ((Cert.KernelIdeal.Keep.W11_keep m ρ c main_arg15 (by decide)).trans ((W10_of_ne m ρ c main_arg15 (by decide)).trans ((W9_of_ne m ρ c main_arg15 (by decide)).trans ((Cert.KernelIdeal.Keep.W8_keep m ρ c main_arg15 (by decide)).trans ((W7_of_ne m ρ c main_arg15 (by decide)).trans ((W6_of_ne m ρ c main_arg15 (by decide)).trans ((Cert.KernelIdeal.Keep.W5_keep m ρ c main_arg15 (by decide)).trans ((W4_of_ne m ρ c main_arg15 (by decide)).trans ((Cert.KernelIdeal.Keep.W3_keep m ρ c main_arg15 (by decide)).trans ((Cert.KernelIdeal.Keep.W2_keep m ρ c main_arg15 (by decide)).trans (Cert.KernelIdeal.Keep.W1_keep m ρ c main_arg15 (by decide))))))))))))).trans rfl)
theorem blin_in : W12 m ρ c (Proc.devRef .tc main_arg16) = (m ((c : Thread nD τ).loc main_arg16)) := (((W12_of_ne m ρ c main_arg16 (by decide)).trans ((Cert.KernelIdeal.Keep.W11_keep m ρ c main_arg16 (by decide)).trans ((W10_of_ne m ρ c main_arg16 (by decide)).trans ((W9_of_ne m ρ c main_arg16 (by decide)).trans ((Cert.KernelIdeal.Keep.W8_keep m ρ c main_arg16 (by decide)).trans ((W7_of_ne m ρ c main_arg16 (by decide)).trans ((W6_of_ne m ρ c main_arg16 (by decide)).trans ((Cert.KernelIdeal.Keep.W5_keep m ρ c main_arg16 (by decide)).trans ((W4_of_ne m ρ c main_arg16 (by decide)).trans ((Cert.KernelIdeal.Keep.W3_keep m ρ c main_arg16 (by decide)).trans ((Cert.KernelIdeal.Keep.W2_keep m ρ c main_arg16 (by decide)).trans (Cert.KernelIdeal.Keep.W1_keep m ρ c main_arg16 (by decide))))))))))))).trans rfl)

/-- Block 0 of the padded weight, in a kept column, is the weight's own rows 0 to 127. -/
theorem w1_read (k : Fin 128) (j : Fin 10) :
    (V13 m ρ c main_v134 : S128x128.Idx → EReal) (ValueIdx.ix2 k ⟨j.val, Nat.lt_of_lt_of_le j.isLt (by decide)⟩) = ((m ((c : Thread nD τ).loc main_arg15)) : S384x10.Idx → EReal) (ValueIdx.ix2 ⟨k.val, by have := k.isLt; omega⟩ j) := by
  have e : V13 m ρ c main_v134 = extractStridedSlice S128x128 ![0, 0] (Host.scatter scatter_S384x128_S1_S384x10_01_n_1_0 (fun _ b => b) (broadcastInDim S384x128 ![] bcast_S_S384x128 (constant (F := Ideal) S_ .f32 0x00000000#32)) Cert.Bridge.PadRead.zeroStart (m ((c : Thread nD τ).loc main_arg15))) slices_S384x128_S128x128_0_0 := by
    show StableHlo.after hostOps6 (W12 m ρ c) (Proc.devRef .tc main_v134) = _
    after_results_simp
    rw [wlin_in m ρ c]
  rw [e]; refine (Cert.Bridge.PadRead.padW_block0_apply _ _ k j).trans ?_
  simp only [Nat.zero_add]
/-- Block 1 of the padded weight, in a kept column, is the weight's own rows 128 to 255. -/
theorem w2_read (k : Fin 128) (j : Fin 10) :
    (V13 m ρ c main_v135 : S128x128.Idx → EReal) (ValueIdx.ix2 k ⟨j.val, Nat.lt_of_lt_of_le j.isLt (by decide)⟩) = ((m ((c : Thread nD τ).loc main_arg15)) : S384x10.Idx → EReal) (ValueIdx.ix2 ⟨128 + k.val, by have := k.isLt; omega⟩ j) := by
  have e : V13 m ρ c main_v135 = extractStridedSlice S128x128 ![128, 0] (Host.scatter scatter_S384x128_S1_S384x10_01_n_1_0 (fun _ b => b) (broadcastInDim S384x128 ![] bcast_S_S384x128 (constant (F := Ideal) S_ .f32 0x00000000#32)) Cert.Bridge.PadRead.zeroStart (m ((c : Thread nD τ).loc main_arg15))) slices_S384x128_S128x128_128_0 := by
    show StableHlo.after hostOps6 (W12 m ρ c) (Proc.devRef .tc main_v135) = _
    after_results_simp
    rw [wlin_in m ρ c]
  rw [e]; exact Cert.Bridge.PadRead.padW_block1_apply _ _ k j
/-- Block 2 of the padded weight, in a kept column, is the weight's own rows 256 to 383. -/
theorem w3_read (k : Fin 128) (j : Fin 10) :
    (V13 m ρ c main_v136 : S128x128.Idx → EReal) (ValueIdx.ix2 k ⟨j.val, Nat.lt_of_lt_of_le j.isLt (by decide)⟩) = ((m ((c : Thread nD τ).loc main_arg15)) : S384x10.Idx → EReal) (ValueIdx.ix2 ⟨256 + k.val, by have := k.isLt; omega⟩ j) := by
  have e : V13 m ρ c main_v136 = extractStridedSlice S128x128 ![256, 0] (Host.scatter scatter_S384x128_S1_S384x10_01_n_1_0 (fun _ b => b) (broadcastInDim S384x128 ![] bcast_S_S384x128 (constant (F := Ideal) S_ .f32 0x00000000#32)) Cert.Bridge.PadRead.zeroStart (m ((c : Thread nD τ).loc main_arg15))) slices_S384x128_S128x128_256_0 := by
    show StableHlo.after hostOps6 (W12 m ρ c) (Proc.devRef .tc main_v136) = _
    after_results_simp
    rw [wlin_in m ρ c]
  rw [e]; exact Cert.Bridge.PadRead.padW_block2_apply _ _ k j
/-- The padded bias as a 1×128 row, in a kept column, is the bias's own entry. -/
theorem b_read (j : Fin 10) :
    (V13 m ρ c main_v137 : S1x128.Idx → EReal) (ValueIdx.ix2 (0 : Fin 1) ⟨j.val, Nat.lt_of_lt_of_le j.isLt (by decide)⟩) = ((m ((c : Thread nD τ).loc main_arg16)) : S10.Idx → EReal) (ValueIdx.ix1 j) := by
  have e : V13 m ρ c main_v137 = shapeCast S1x128 (Host.scatter scatter_S128_S1_S10_0_n_0_0 (fun _ b => b) (broadcastInDim S128 ![] bcast_S_S128 (constant (F := Ideal) S_ .f32 0x00000000#32)) Cert.Bridge.PadRead.zeroStart (m ((c : Thread nD τ).loc main_arg16))) shapeCasts_S128_S1x128 := by
    show StableHlo.after hostOps6 (W12 m ρ c) (Proc.devRef .tc main_v137) = _
    after_results_simp
    rw [blin_in m ρ c]
    rfl
  rw [e]; exact Cert.Bridge.PadRead.padB_row_apply _ _ j

/-- The last kernel's whole-array function in a kept column: row r and column j < 10 of the three block products plus the
    padded bias is the reference's last stage at (r, j).  The layers' outputs are the reference's stages; the padded weight's
    blocks and the padded bias are the arguments' own entries there; and the reference's sum over 384 is its three runs of 128. -/
theorem final_read (i' : S100000x128.Idx) (r : Fin 100000) (j : Fin 10) (h0 : i' 0 = r) (h1 : i' 1 = ⟨j.val, Nat.lt_of_lt_of_le j.isLt (by decide)⟩) :
    Cert.Bridge.RegionFinal.finalLayer (V13 m ρ c main_v63) (V13 m ρ c main_v95) (V13 m ρ c main_v127)
        (V13 m ρ c main_v134) (V13 m ρ c main_v135) (V13 m ρ c main_v136) (V13 m ρ c main_v137) i'
      = (Cert.ReferenceIdeal.ReadP.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) : S100000x10.Idx → EReal) (ValueIdx.ix2 r j) := by
  rw [show V13 m ρ c main_v63 = _ from o1_in m ρ c, show V13 m ρ c main_v95 = _ from o2_in m ρ c,
    show V13 m ρ c main_v127 = _ from o3_in m ρ c]
  rw [Cert.Bridge.RegionFinal.finalLayer_apply, h0, h1, Cert.Bridge.RefFinal.val_main_v165_read]
  refine congrArg₂ (fun a b : EReal => a + b) (congrArg₂ (fun a b : EReal => a + b) (congrArg₂ (fun a b : EReal => a + b) ?_ ?_) ?_) (b_read m ρ c j)
  · refine Finset.sum_congr rfl fun k _ => ?_
    erw [w1_read m ρ c k j]
  · refine Finset.sum_congr rfl fun k _ => ?_
    erw [w2_read m ρ c k j]
  · refine Finset.sum_congr rfl fun k _ => ?_
    erw [w3_read m ρ c k j]

/-- The kernel program's result is the reference's last stage: the result keeps columns 0 to 9 of the last kernel's array. -/
theorem result_at : W15 m ρ c (Proc.devRef .tc main_v139) = Cert.ReferenceIdeal.ReadP.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  funext i
  obtain ⟨r, j, rfl⟩ : ∃ (r : Fin 100000) (j : Fin 10), i = ValueIdx.ix2 r j := ⟨i 0, i 1, ValueIdx.eq_ix2 i⟩
  have e15 : W15 m ρ c (Proc.devRef .tc main_v139) = extractStridedSlice S100000x10 ![0, 0] (W14 m ρ c (Proc.devRef .tc main_v138)) slices_S100000x128_S100000x10_0_0 := by
    show StableHlo.after hostOps7 (W14 m ρ c) (Proc.devRef .tc main_v139) = _
    after_results_simp
  refine (congrFun e15 _).trans ?_
  refine (extractStridedSlice_apply _ _ _ (ValueIdx.ix2 r j) (ValueIdx.ix2 r ⟨j.val, Nat.lt_of_lt_of_le j.isLt (by decide)⟩) (fun a => by
    match a with
    | ⟨0, _⟩ => exact (Nat.zero_add _).symm
    | ⟨1, _⟩ => exact (Nat.zero_add _).symm)).trans ?_
  refine (congrFun (W14_arr m ρ c 7) _).trans ?_
  refine (Cert.Bridge.RegionFinal.arrAt_final_apply (V13 m ρ) c _).trans ?_
  exact final_read m ρ c _ r j rfl rfl

end Cert.Bridge.Out

end
-- ==== Proof.Claims.lean ====
/-
  The five claims.  Frames: the two kernel programs terminate without a fault and leave their arguments alone by their frame
  certificates; the reference program by its run.  The idealization rewrote no operation, so nothing is owed for it.  Equality
  of results on the extended reals: the kernel program's run ends with its result array at the last boundary's contents, those
  contents are the reference's last stage of the kernel's own arguments (the chain of stages through the three layers and the
  output layer), and the reference's run ends with its result at that same stage of its arguments, which agree with the kernel's.
  No step uses that the inputs are finite: every law used is a regrouping of a finite sum or an identity between the same
  operations applied to the same values.
-/
import proofs.«159183_j16226386444400_1_alg».proof.Defs
import proofs.«159183_j16226386444400_1_alg».proof.Proof.Gen.Pre_finite_inputs
import proofs.«159183_j16226386444400_1_alg».proof.Proof.Gen.Kernel.Frame
import proofs.«159183_j16226386444400_1_alg».proof.Proof.Gen.KernelIdeal.Frame
import proofs.«159183_j16226386444400_1_alg».proof.Proof.KernelRun
import proofs.«159183_j16226386444400_1_alg».proof.Proof.RefRun
import proofs.«159183_j16226386444400_1_alg».proof.Proof.ChainOut
import Idealize.ShloMosaic.PureOps.Ideal

set_option maxRecDepth 16384

noncomputable section

open Idealize.ShloMosaic Idealize.ShloMosaic.TcCoe Idealize.SL.Sem

namespace Cert.Proof.Claims

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.RunStages.run (F := Ideal) m ρ)

theorem preserves : Cert.preserves_Kernel_KernelIdeal := trivial

/-- Both programs run, and end with equal results element by element: the common value is the kernel program's last
    boundary's contents at its result buffer. -/
theorem algebraic : Cert.algebraic_KernelIdeal_ReferenceIdeal := by
  intro m ρ m' ρ' _ hagree
  refine ⟨fun c => Cert.KernelIdeal.Gen.W15 m ρ c (Proc.devRef .tc Cert.KernelIdeal.main_v139), Cert.KernelIdeal.RunVal.run_val m ρ, ?_⟩
  refine (θ_run Cert.ReferenceIdeal.defs _ _).mono (fun _ h c => ⟨(h c).1.trans ?_, (h c).2⟩)
    (Cert.ReferenceIdeal.RunStages.run (F := Ideal) m' ρ')
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  exact (Cert.Bridge.Out.result_at m ρ c).symm

end Cert.Proof.Claims

end
-- ==== Proof.lean ====
/-
  The certificate of a three-layer graph convolution network over 100000 nodes and 1.7 million edges (self loops included),
  whose dense parts are row-blocked kernels, against its plain array-program reference: `Cert.Claim`, the conjunction of the two
  kernel programs' frames, the reference's frame, the idealization's record (empty) and the equality of the two idealized
  programs' results on the extended reals.

  Per layer the kernel program computes the projection a · W in a kernel over blocks of 5000 rows (bf16 operands, which at
  the exact instance are the same extended reals), the edge aggregation, bias, column means and variances with the reference's own
  host operations, and the normalisation (z − mean) · (var + ε)^(−1/2) · γ + β clipped at 0 in a second kernel; the last kernel adds
  three such projections of the layers' outputs against the three 128-row blocks of the zero-padded output weight, and the
  result keeps the first 10 columns.  The reference does the projections with `dot_general`, the normalisation on the host, and
  the output layer as one product of the 384-column concatenation.  Block by block the kernels' arrays are whole-array functions of
  their operands (modules RegionMatmul, RegionBn, RegionFinal); the values at the boundaries between host stretches and kernels
  are the reference's stages (ChainBase, ChainL1–ChainL3, ChainOut); the output layer's two forms differ by the grouping of a sum
  over 384 indices (LibSplitSum) and by zero columns that the result drops (LibScatterSet, PadRead); the five claims are Claims.
-/
import proofs.«159183_j16226386444400_1_alg».proof.Defs
import proofs.«159183_j16226386444400_1_alg».proof.Proof.Gen.Kernel
import proofs.«159183_j16226386444400_1_alg».proof.Proof.Gen.Kernel.Skeleton
import proofs.«159183_j16226386444400_1_alg».proof.Proof.Gen.Kernel.Launch
import proofs.«159183_j16226386444400_1_alg».proof.Proof.Gen.Kernel.Points
import proofs.«159183_j16226386444400_1_alg».proof.Proof.Gen.Kernel.Frame
import proofs.«159183_j16226386444400_1_alg».proof.Proof.Gen.KernelIdeal
import proofs.«159183_j16226386444400_1_alg».proof.Proof.Gen.KernelIdeal.Skeleton
import proofs.«159183_j16226386444400_1_alg».proof.Proof.Gen.KernelIdeal.Launch
import proofs.«159183_j16226386444400_1_alg».proof.Proof.Gen.KernelIdeal.Points
import proofs.«159183_j16226386444400_1_alg».proof.Proof.Gen.KernelIdeal.Frame
import proofs.«159183_j16226386444400_1_alg».proof.Proof.Gen.ReferenceIdeal
import proofs.«159183_j16226386444400_1_alg».proof.Proof.Gen.Pre_finite_inputs
import proofs.«159183_j16226386444400_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
